-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S64x256 : Shape := ⟨2, ![64, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S2 .f32) (main_v63 : IVec S_ 1) (main_v67 : IVec S_ 1) : IVec S_ 1 :=
  let main_v68 : IVec S_ 1 := andi main_v63 main_v67
  let main_v69 : FVec F S2 .f32 := Host.absf main_arg16
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg13 : FVec F S64x256 .f32) (main_arg14 : FVec F S256 .f32) (main_arg15 : FVec F S256x2 .f32) (main_arg16 : FVec F S2 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x256 .f32 := Host.absf main_arg13
  let main_cst_20 : FVec F S_ .f32 := constant S_ .f32 0x7F800000#32
  let main_v55 : FVec F S64x256 .f32 := broadcastInDim S64x256 ![] bcast_S_S64x256 main_cst_20
  let main_v56 : IVec S64x256 1 := cmpf .olt main_v54 main_v55
  let main_c_21 : IVec S_ 1 := constantI S_ 1 1#1
  let main_v57 : IVec S_ 1 := (fun x v => Host.reduce IntOp.andi x v reducesTo_S64x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x2 .f32 := Host.absf main_arg15
  let main_cst_24 : FVec F S_ .f32 := constant S_ .f32 0x7F800000#32
  let main_v65 : FVec F S256x2 .f32 := broadcastInDim S256x2 ![] bcast_S_S256x2 main_cst_24
  let main_v66 : IVec S256x2 1 := cmpf .olt main_v64 main_v65
  let main_c_25 : IVec S_ 1 := constantI S_ 1 1#1
  let main_v67 : IVec S_ 1 := (fun x v => Host.reduce IntOp.andi x v reducesTo_S256x2_S_d0_1 h_S_) main_v66 main_c_25
  fn_part4 (F := F) main_arg16 main_v63 main_v67

def fn_part2 {F : FTy → Type} [FloatOps F] (main_arg9 : FVec F S64x64 .f32) (main_arg10 : FVec F S64x64 .f32) (main_arg11 : FVec F S64 .f32) (main_arg12 : FVec F S64x64 .f32) (main_arg13 : FVec F S64x256 .f32) (main_arg14 : FVec F S256 .f32) (main_arg15 : FVec F S256x2 .f32) (main_arg16 : FVec F S2 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_v48 main_v49 main_v50

def fn_part1 {F : FTy → Type} [FloatOps F] (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64x256 .f32) (main_arg14 : FVec F S256 .f32) (main_arg15 : FVec F S256x2 .f32) (main_arg16 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x64 .f32) (main_arg1 : IVec S2x1600000 32) (main_arg2 : FVec F S1600000 .f32) (main_arg3 : IVec S100000 32) (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64x256 .f32) (main_arg14 : FVec F S256 .f32) (main_arg15 : FVec F S256x2 .f32) (main_arg16 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S64x256 : Shape := ⟨2, ![64, 256]⟩
abbrev S256 : Shape := ⟨1, ![256]⟩
abbrev S256x2 : Shape := ⟨2, ![256, 2]⟩
abbrev S2 : Shape := ⟨1, ![2]⟩
abbrev S1x1600000 : Shape := ⟨2, ![1, 1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S5000x64 : Shape := ⟨2, ![5000, 64]⟩
abbrev S1x64 : Shape := ⟨2, ![1, 64]⟩
abbrev S64x1 : Shape := ⟨2, ![64, 1]⟩
abbrev S1x256 : Shape := ⟨2, ![1, 256]⟩
abbrev S64x2 : Shape := ⟨2, ![64, 2]⟩
abbrev S1x2 : Shape := ⟨2, ![1, 2]⟩

abbrev nBuf : Space → Nat
  | .hbm => 144
  | .vmem => 27
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S100000, .i32⟩
  | 4 => ⟨S64x64, .f32⟩
  | 5 => ⟨S64, .f32⟩
  | 6 => ⟨S64x64, .f32⟩
  | 7 => ⟨S64x64, .f32⟩
  | 8 => ⟨S64, .f32⟩
  | 9 => ⟨S64x64, .f32⟩
  | 10 => ⟨S64x64, .f32⟩
  | 11 => ⟨S64, .f32⟩
  | 12 => ⟨S64x64, .f32⟩
  | 13 => ⟨S64x256, .f32⟩
  | 14 => ⟨S256, .f32⟩
  | 15 => ⟨S256x2, .f32⟩
  | 16 => ⟨S2, .f32⟩
  | 17 => ⟨S1x1600000, .i32⟩
  | 18 => ⟨S1600000, .i32⟩
  | 19 => ⟨S1x1600000, .i32⟩
  | 20 => ⟨S1600000, .i32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S100000, .f32⟩
  | 30 => ⟨S100000x1, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x64, .f32⟩
  | 40 => ⟨S_, .f32⟩
  | 41 => ⟨S100000x64, .f32⟩
  | 42 => ⟨S1600000x1, .i32⟩
  | 43 => ⟨S100000x64, .f32⟩
  | 44 => ⟨S100000x64, .f32⟩
  | 45 => ⟨S100000x64, .f32⟩
  | 46 => ⟨S100000x64, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S100000x64, .f32⟩
  | 61 => ⟨S100000x64, .f32⟩
  | 62 => ⟨S100000x64, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x64, .f32⟩
  | 72 => ⟨S_, .f32⟩
  | 73 => ⟨S100000x64, .f32⟩
  | 74 => ⟨S1600000x1, .i32⟩
  | 75 => ⟨S100000x64, .f32⟩
  | 76 => ⟨S100000x64, .f32⟩
  | 77 => ⟨S100000x64, .f32⟩
  | 78 => ⟨S100000x64, .f32⟩
  | 79 => ⟨S_, .f32⟩
  | 80 => ⟨S64x64, .f32⟩
  | 81 => ⟨S100000x1, .i32⟩
  | 82 => ⟨S64x64, .f32⟩
  | 83 => ⟨S_, .f32⟩
  | 84 => ⟨S100000, .f32⟩
  | 85 => ⟨S_, .f32⟩
  | 86 => ⟨S64, .f32⟩
  | 87 => ⟨S100000x1, .i32⟩
  | 88 => ⟨S64, .f32⟩
  | 89 => ⟨S_, .f32⟩
  | 90 => ⟨S64, .f32⟩
  | 91 => ⟨S64, .f32⟩
  | 92 => ⟨S64x1, .f32⟩
  | 93 => ⟨S64x64, .f32⟩
  | 94 => ⟨S64x64, .f32⟩
  | 95 => ⟨S64x256, .f32⟩
  | 96 => ⟨S1x256, .f32⟩
  | 97 => ⟨S64x256, .f32⟩
  | 98 => ⟨S64x256, .f32⟩
  | 99 => ⟨S_, .f32⟩
  | 100 => ⟨S256, .f32⟩
  | 101 => ⟨S1x256, .f32⟩
  | 102 => ⟨S_, .f32⟩
  | 103 => ⟨S1x256, .f32⟩
  | 104 => ⟨S1x256, .f32⟩
  | 105 => ⟨S_, .i32⟩
  | 106 => ⟨S_, .f32⟩
  | 107 => ⟨S256, .f32⟩
  | 108 => ⟨S1x256, .f32⟩
  | 109 => ⟨S_, .f32⟩
  | 110 => ⟨S1x256, .f32⟩
  | 111 => ⟨S1x256, .f32⟩
  | 112 => ⟨S64x256, .f32⟩
  | 113 => ⟨S64x256, .f32⟩
  | 114 => ⟨S64x256, .f32⟩
  | 115 => ⟨S_, .f32⟩
  | 116 => ⟨S_, .f32⟩
  | 117 => ⟨S_, .f32⟩
  | 118 => ⟨S_, .f32⟩
  | 119 => ⟨S256, .f32⟩
  | 120 => ⟨S1x256, .f32⟩
  | 121 => ⟨S1x256, .f32⟩
  | 122 => ⟨S1x256, .f32⟩
  | 123 => ⟨S_, .f32⟩
  | 124 => ⟨S_, .i1⟩
  | 125 => ⟨S_, .f32⟩
  | 126 => ⟨S_, .f32⟩
  | 127 => ⟨S1x256, .f32⟩
  | _ => ⟨S100000x64, .f32⟩

abbrev hbmTy0_1 (i : Nat) : BufTy := match i % 128 with
  | 0 => ⟨S1x256, .f32⟩
  | 1 => ⟨S64x256, .f32⟩
  | 2 => ⟨S64x256, .f32⟩
  | 3 => ⟨S_, .f32⟩
  | 4 => ⟨S1x256, .f32⟩
  | 5 => ⟨S1x256, .f32⟩
  | 6 => ⟨S1x256, .f32⟩
  | 7 => ⟨S64x256, .f32⟩
  | 8 => ⟨S64x256, .f32⟩
  | 9 => ⟨S_, .f32⟩
  | 10 => ⟨S64x256, .f32⟩
  | 11 => ⟨S64x256, .f32⟩
  | 12 => ⟨S64x2, .f32⟩
  | 13 => ⟨S1x2, .f32⟩
  | 14 => ⟨S64x2, .f32⟩
  | 15 => ⟨S64x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_7 : Ref sig .tc := ⟨.hbm, 63, rfl⟩
abbrev main_v37 : Ref sig .tc := ⟨.hbm, 64, rfl⟩
abbrev main_v38 : Ref sig .tc := ⟨.hbm, 65, rfl⟩
abbrev main_c_8 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_9 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_11 : Ref sig .tc := ⟨.hbm, 83, rfl⟩
abbrev main_v53 : Ref sig .tc := ⟨.hbm, 84, rfl⟩
abbrev main_cst_12 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_13 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_14 : Ref sig .tc := ⟨.hbm, 99, rfl⟩
abbrev main_v66 : Ref sig .tc := ⟨.hbm, 100, rfl⟩
abbrev main_v67 : Ref sig .tc := ⟨.hbm, 101, rfl⟩
abbrev main_cst_15 : Ref sig .tc := ⟨.hbm, 102, rfl⟩
abbrev main_v68 : Ref sig .tc := ⟨.hbm, 103, rfl⟩
abbrev main_v69 : Ref sig .tc := ⟨.hbm, 104, rfl⟩
abbrev main_c_16 : Ref sig .tc := ⟨.hbm, 105, rfl⟩
abbrev main_call0_cst : Ref sig .tc := ⟨.hbm, 106, rfl⟩
abbrev main_call0_v0 : Ref sig .tc := ⟨.hbm, 107, rfl⟩
abbrev main_call0_v1 : Ref sig .tc := ⟨.hbm, 108, rfl⟩
abbrev main_call0_cst_0 : Ref sig .tc := ⟨.hbm, 109, rfl⟩
abbrev main_call0_v2 : Ref sig .tc := ⟨.hbm, 110, rfl⟩
abbrev main_call0_v3 : Ref sig .tc := ⟨.hbm, 111, rfl⟩
abbrev main_call0_v4 : Ref sig .tc := ⟨.hbm, 112, rfl⟩
abbrev main_call0_v5 : Ref sig .tc := ⟨.hbm, 113, rfl⟩
abbrev main_call0_v6 : Ref sig .tc := ⟨.hbm, 114, rfl⟩
abbrev main_call0_v7 : Ref sig .tc := ⟨.hbm, 115, rfl⟩
abbrev main_call0_cst_1 : Ref sig .tc := ⟨.hbm, 116, rfl⟩
abbrev main_call0_v8 : Ref sig .tc := ⟨.hbm, 117, rfl⟩
abbrev main_call0_cst_2 : Ref sig .tc := ⟨.hbm, 118, rfl⟩
abbrev main_call0_v9 : Ref sig .tc := ⟨.hbm, 119, rfl⟩
abbrev main_call0_v10 : Ref sig .tc := ⟨.hbm, 120, rfl⟩
abbrev main_call0_v11 : Ref sig .tc := ⟨.hbm, 121, rfl⟩
abbrev main_call0_v12 : Ref sig .tc := ⟨.hbm, 122, rfl⟩
abbrev main_call0_cst_3 : Ref sig .tc := ⟨.hbm, 123, rfl⟩
abbrev main_call0_v13 : Ref sig .tc := ⟨.hbm, 124, rfl⟩
abbrev main_call0_cst_4 : Ref sig .tc := ⟨.hbm, 125, rfl⟩
abbrev main_call0_call0_v0 : Ref sig .tc := ⟨.hbm, 126, rfl⟩
abbrev main_call0_call0_v1 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_cst_17 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_call1_cst : Ref sig .tc := ⟨.hbm, 137, rfl⟩
abbrev main_call1_v0 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  reducesTo_S64x256_S256_d0 : S64x256.ReducesTo [0] S256
  h_S_ : 0 < S_.numel
  bcast_S_S1x256 : S_.BroadcastsInDim S1x256 (![] : Fin 0 → Fin S1x256.rank)
  bcast_S_S64x256 : S_.BroadcastsInDim S64x256 (![] : Fin 0 → Fin S64x256.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x256_S64x256_1_0_0_1_n_n_wf : DotDims.WF S64x64 S64x256 S64x256 [1] [0] [0] [1] [] []
  dot_S64x256_S256x2_S64x2_1_0_0_1_n_n_wf : DotDims.WF S64x256 S256x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x256_S64x256_1_0_0_1_n_n : DotDims S64x64 S64x256 S64x256 where
  lhsContracting := [1]
  rhsContracting := [0]
  lhsNonContracting := [0]
  rhsNonContracting := [1]
  lhsBatch := []
  rhsBatch := []
  wf := dot_S64x64_S64x256_S64x256_1_0_0_1_n_n_wf
def dot_S64x256_S256x2_S64x2_1_0_0_1_n_n : DotDims S64x256 S256x2 S64x2 where
  lhsContracting := [1]
  rhsContracting := [0]
  lhsNonContracting := [0]
  rhsNonContracting := [1]
  lhsBatch := []
  rhsBatch := []
  wf := dot_S64x256_S256x2_S64x2_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S64x64 : Shape := ⟨2, ![64, 64]⟩
abbrev S64 : Shape := ⟨1, ![64]⟩
abbrev S64x256 : Shape := ⟨2, ![64, 256]⟩
abbrev S256 : Shape := ⟨1, ![256]⟩
abbrev S256x2 : Shape := ⟨2, ![256, 2]⟩
abbrev S2 : Shape := ⟨1, ![2]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S64x1 : Shape := ⟨2, ![64, 1]⟩
abbrev S1x256 : Shape := ⟨2, ![1, 256]⟩
abbrev S64x2 : Shape := ⟨2, ![64, 2]⟩
abbrev S1x2 : Shape := ⟨2, ![1, 2]⟩

abbrev nBuf : Space → Nat
  | .hbm => 185
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S100000, .i32⟩
  | 4 => ⟨S64x64, .f32⟩
  | 5 => ⟨S64, .f32⟩
  | 6 => ⟨S64x64, .f32⟩
  | 7 => ⟨S64x64, .f32⟩
  | 8 => ⟨S64, .f32⟩
  | 9 => ⟨S64x64, .f32⟩
  | 10 => ⟨S64x64, .f32⟩
  | 11 => ⟨S64, .f32⟩
  | 12 => ⟨S64x64, .f32⟩
  | 13 => ⟨S64x256, .f32⟩
  | 14 => ⟨S256, .f32⟩
  | 15 => ⟨S256x2, .f32⟩
  | 16 => ⟨S2, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S_, .f32⟩
  | 35 => ⟨S1600000, .f32⟩
  | 36 => ⟨S_, .f32⟩
  | 37 => ⟨S100000, .f32⟩
  | 38 => ⟨S1600000x1, .i32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S_, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x64, .f32⟩
  | 79 => ⟨S100000x64, .f32⟩
  | 80 => ⟨S100000x64, .f32⟩
  | 81 => ⟨S1x64, .f32⟩
  | 82 => ⟨S100000x64, .f32⟩
  | 83 => ⟨S100000x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x64, .f32⟩
  | 98 => ⟨S_, .f32⟩
  | 99 => ⟨S100000x64, .f32⟩
  | 100 => ⟨S1600000x1, .i32⟩
  | 101 => ⟨S100000x64, .f32⟩
  | 102 => ⟨S_, .f32⟩
  | 103 => ⟨S1600000, .f32⟩
  | 104 => ⟨S_, .f32⟩
  | 105 => ⟨S100000, .f32⟩
  | 106 => ⟨S1600000x1, .i32⟩
  | 107 => ⟨S100000, .f32⟩
  | 108 => ⟨S_, .f32⟩
  | 109 => ⟨S100000, .f32⟩
  | 110 => ⟨S100000, .f32⟩
  | 111 => ⟨S100000x1, .f32⟩
  | 112 => ⟨S100000x64, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S100000x64, .f32⟩
  | 119 => ⟨S100000x64, .f32⟩
  | 120 => ⟨S_, .f32⟩
  | 121 => ⟨S64x64, .f32⟩
  | 122 => ⟨S100000x1, .i32⟩
  | 123 => ⟨S64x64, .f32⟩
  | 124 => ⟨S_, .f32⟩
  | 125 => ⟨S100000, .f32⟩
  | 126 => ⟨S_, .f32⟩
  | 127 => ⟨S64, .f32⟩
  | _ => ⟨S100000x64, .f32⟩

abbrev hbmTy0_1 (i : Nat) : BufTy := match i % 128 with
  | 0 => ⟨S100000x1, .i32⟩
  | 1 => ⟨S64, .f32⟩
  | 2 => ⟨S_, .f32⟩
  | 3 => ⟨S64, .f32⟩
  | 4 => ⟨S64, .f32⟩
  | 5 => ⟨S64x1, .f32⟩
  | 6 => ⟨S64x64, .f32⟩
  | 7 => ⟨S64x64, .f32⟩
  | 8 => ⟨S64x256, .f32⟩
  | 9 => ⟨S1x256, .f32⟩
  | 10 => ⟨S64x256, .f32⟩
  | 11 => ⟨S64x256, .f32⟩
  | 12 => ⟨S_, .f32⟩
  | 13 => ⟨S256, .f32⟩
  | 14 => ⟨S1x256, .f32⟩
  | 15 => ⟨S_, .f32⟩
  | 16 => ⟨S1x256, .f32⟩
  | 17 => ⟨S1x256, .f32⟩
  | 18 => ⟨S_, .i32⟩
  | 19 => ⟨S_, .f32⟩
  | 20 => ⟨S256, .f32⟩
  | 21 => ⟨S1x256, .f32⟩
  | 22 => ⟨S_, .f32⟩
  | 23 => ⟨S1x256, .f32⟩
  | 24 => ⟨S1x256, .f32⟩
  | 25 => ⟨S64x256, .f32⟩
  | 26 => ⟨S64x256, .f32⟩
  | 27 => ⟨S64x256, .f32⟩
  | 28 => ⟨S_, .f32⟩
  | 29 => ⟨S_, .f32⟩
  | 30 => ⟨S_, .f32⟩
  | 31 => ⟨S_, .f32⟩
  | 32 => ⟨S256, .f32⟩
  | 33 => ⟨S1x256, .f32⟩
  | 34 => ⟨S1x256, .f32⟩
  | 35 => ⟨S1x256, .f32⟩
  | 36 => ⟨S_, .f32⟩
  | 37 => ⟨S_, .i1⟩
  | 38 => ⟨S_, .f32⟩
  | 39 => ⟨S_, .f32⟩
  | 40 => ⟨S1x256, .f32⟩
  | 41 => ⟨S1x256, .f32⟩
  | 42 => ⟨S64x256, .f32⟩
  | 43 => ⟨S64x256, .f32⟩
  | 44 => ⟨S_, .f32⟩
  | 45 => ⟨S1x256, .f32⟩
  | 46 => ⟨S1x256, .f32⟩
  | 47 => ⟨S1x256, .f32⟩
  | 48 => ⟨S64x256, .f32⟩
  | 49 => ⟨S64x256, .f32⟩
  | 50 => ⟨S_, .f32⟩
  | 51 => ⟨S64x256, .f32⟩
  | 52 => ⟨S64x256, .f32⟩
  | 53 => ⟨S64x2, .f32⟩
  | 54 => ⟨S1x2, .f32⟩
  | 55 => ⟨S64x2, .f32⟩
  | 56 => ⟨S64x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call0_cst : Ref sig .tc := ⟨.hbm, 52, rfl⟩
abbrev main_call0_v0 : Ref sig .tc := ⟨.hbm, 53, rfl⟩
abbrev main_v29 : Ref sig .tc := ⟨.hbm, 54, rfl⟩
abbrev main_c_4 : Ref sig .tc := ⟨.hbm, 55, rfl⟩
abbrev main_v30 : Ref sig .tc := ⟨.hbm, 56, rfl⟩
abbrev main_v31 : Ref sig .tc := ⟨.hbm, 57, rfl⟩
abbrev main_c_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call1_cst : Ref sig .tc := ⟨.hbm, 86, rfl⟩
abbrev main_call1_v0 : Ref sig .tc := ⟨.hbm, 87, rfl⟩
abbrev main_v55 : Ref sig .tc := ⟨.hbm, 88, rfl⟩
abbrev main_c_10 : Ref sig .tc := ⟨.hbm, 89, rfl⟩
abbrev main_v56 : Ref sig .tc := ⟨.hbm, 90, rfl⟩
abbrev main_v57 : Ref sig .tc := ⟨.hbm, 91, rfl⟩
abbrev main_c_11 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_12 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_13 : Ref sig .tc := ⟨.hbm, 102, rfl⟩
abbrev main_v66 : Ref sig .tc := ⟨.hbm, 103, rfl⟩
abbrev main_cst_14 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_15 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_16 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_17 : Ref sig .tc := ⟨.hbm, 124, rfl⟩
abbrev main_v84 : Ref sig .tc := ⟨.hbm, 125, rfl⟩
abbrev main_cst_18 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_19 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_20 : Ref sig .tc := ⟨.hbm, 140, rfl⟩
abbrev main_v97 : Ref sig .tc := ⟨.hbm, 141, rfl⟩
abbrev main_v98 : Ref sig .tc := ⟨.hbm, 142, rfl⟩
abbrev main_cst_21 : Ref sig .tc := ⟨.hbm, 143, rfl⟩
abbrev main_v99 : Ref sig .tc := ⟨.hbm, 144, rfl⟩
abbrev main_v100 : Ref sig .tc := ⟨.hbm, 145, rfl⟩
abbrev main_c_22 : Ref sig .tc := ⟨.hbm, 146, rfl⟩
abbrev main_call2_cst : Ref sig .tc := ⟨.hbm, 147, rfl⟩
abbrev main_call2_v0 : Ref sig .tc := ⟨.hbm, 148, rfl⟩
abbrev main_call2_v1 : Ref sig .tc := ⟨.hbm, 149, rfl⟩
abbrev main_call2_cst_0 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_call2_v5 : Ref sig .tc := ⟨.hbm, 154, rfl⟩
abbrev main_call2_v6 : Ref sig .tc := ⟨.hbm, 155, rfl⟩
abbrev main_call2_v7 : Ref sig .tc := ⟨.hbm, 156, rfl⟩
abbrev main_call2_cst_1 : Ref sig .tc := ⟨.hbm, 157, rfl⟩
abbrev main_call2_v8 : Ref sig .tc := ⟨.hbm, 158, rfl⟩
abbrev main_call2_cst_2 : Ref sig .tc := ⟨.hbm, 159, rfl⟩
abbrev main_call2_v9 : Ref sig .tc := ⟨.hbm, 160, rfl⟩
abbrev main_call2_v10 : Ref sig .tc := ⟨.hbm, 161, rfl⟩
abbrev main_call2_v11 : Ref sig .tc := ⟨.hbm, 162, rfl⟩
abbrev main_call2_v12 : Ref sig .tc := ⟨.hbm, 163, rfl⟩
abbrev main_call2_cst_3 : Ref sig .tc := ⟨.hbm, 164, rfl⟩
abbrev main_call2_v13 : Ref sig .tc := ⟨.hbm, 165, rfl⟩
abbrev main_call2_cst_4 : Ref sig .tc := ⟨.hbm, 166, rfl⟩
abbrev main_call2_call0_v0 : Ref sig .tc := ⟨.hbm, 167, rfl⟩
abbrev main_call2_call0_v1 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_cst_23 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_call3_cst : Ref sig .tc := ⟨.hbm, 178, rfl⟩
abbrev main_call3_v0 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  reducesTo_S64x256_S256_d0 : S64x256.ReducesTo [0] S256
  h_S_ : 0 < S_.numel
  bcast_S_S1x256 : S_.BroadcastsInDim S1x256 (![] : Fin 0 → Fin S1x256.rank)
  bcast_S_S64x256 : S_.BroadcastsInDim S64x256 (![] : Fin 0 → Fin S64x256.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x256_S64x256_1_0_0_1_n_n_wf : DotDims.WF S64x64 S64x256 S64x256 [1] [0] [0] [1] [] []
  dot_S64x256_S256x2_S64x2_1_0_0_1_n_n_wf : DotDims.WF S64x256 S256x2 S64x2 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x256_S64x256_1_0_0_1_n_n : DotDims S64x64 S64x256 S64x256 where
  lhsContracting := [1]
  rhsContracting := [0]
  lhsNonContracting := [0]
  rhsNonContracting := [1]
  lhsBatch := []
  rhsBatch := []
  wf := dot_S64x64_S64x256_S64x256_1_0_0_1_n_n_wf
def dot_S64x256_S256x2_S64x2_1_0_0_1_n_n : DotDims S64x256 S256x2 S64x2 where
  lhsContracting := [1]
  rhsContracting := [0]
  lhsNonContracting := [0]
  rhsNonContracting := [1]
  lhsBatch := []
  rhsBatch := []
  wf := dot_S64x256_S256x2_S64x2_1_0_0_1_n_n_wf

class Facts : Prop extends Facts₀ where

variable [Facts]
-- ==== Proof.KernelRun.lean ====
/-
  The kernel's program run from the launch to the return, with its result named.

  @main is eleven segments: stretches of host operations around three pipelined regions. The contents of the
  TensorCore's buffers at each boundary are a fold from the launch memory: a stretch applies its operations, a region
  replaces its arrays by what its write-backs leave. Every weakly fair execution terminates without a fault, and in
  the final state every unscoped buffer holds the last boundary's contents; in particular the result buffer holds the
  fold's value there, and each argument array is as launched.
-/
import proofs.«143133_j27693949125044_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result buffer read off the last boundary's contents, the arguments as launched. -/
theorem run_main : θ_run defs (onTc (τ := τ) (main (F := F))) ⟨m, fun _ => 0, ρ⟩ (fun r => ∀ c : Dev nD,
      r.2.mem ((c.tc : Thread nD τ).loc main_v82) = W11 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v82 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c)⟩)

end Cert.KernelIdeal.Run

end
-- ==== Proof.RefOps.lean ====
/-
  The reference program's @main as seven lists of its host operations, in program order: for each of the three
  layers the neighbour mean (up to and including its division) and then the two products with the bias (for the
  first two layers followed by the rectifier, whose body stands inline over the call's own buffers), then the head
  (mean pool, dense layer, column mean and variance, normalisation, rectifier, dense layer; each called function's
  body inline over its call's buffers). Each list comes with the two facts the run of a straight line asks of
  its operations: each touches TensorCore references only, and each determines its results.
-/
import proofs.«143133_j27693949125044_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- Layer 1's neighbour mean: operations %0 … %22 of @main, up to and including the first division. -/
abbrev opsA1 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_1 (constant S_ .f32 0x3F800000#32),
    StableHlo.unary main_cst_1 main_v14 (broadcastInDim S1600000 ![] bcast_S_S1600000 : (⟨S_, .f32⟩ : BufTy).Contents (Elt F) → (⟨S1600000, .f32⟩ : BufTy).Contents (Elt F)),
    StableHlo.nullary main_cst_2 (constant S_ .f32 0x00000000#32),
    StableHlo.unary main_cst_2 main_v15 (broadcastInDim S100000 ![] bcast_S_S100000 : (⟨S_, .f32⟩ : BufTy).Contents (Elt F) → (⟨S100000, .f32⟩ : BufTy).Contents (Elt F)),
    StableHlo.unary main_v3 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0x3F800000#32),
    StableHlo.unary main_cst_3 main_v18 (broadcastInDim S100000 ![] bcast_S_S100000 : (⟨S_, .f32⟩ : BufTy).Contents (Elt F) → (⟨S100000, .f32⟩ : BufTy).Contents (Elt F)),
    StableHlo.binary main_v17 main_v18 main_v19 (maximumf : (⟨S100000, .f32⟩ : BufTy).Contents (Elt F) → (⟨S100000, .f32⟩ : BufTy).Contents (Elt F) → (⟨S100000, .f32⟩ : BufTy).Contents (Elt F)),
    StableHlo.unary main_v19 main_v20 (broadcastInDim S100000x1 ![0] bcast_S100000_S100000x1_0 : (⟨S100000, .f32⟩ : BufTy).Contents (Elt F) → (⟨S100000x1, .f32⟩ : BufTy).Contents (Elt F)),
    StableHlo.unary main_v20 main_v21 (broadcastInDim S100000x64 ![0, 1] bcast_S100000x1_S100000x64_0_1 : (⟨S100000x1, .f32⟩ : BufTy).Contents (Elt F) → (⟨S100000x64, .f32⟩ : BufTy).Contents (Elt F)),
    StableHlo.binary main_v13 main_v21 main_v22 (Host.divf : (⟨S100000x64, .f32⟩ : BufTy).Contents (Elt F) → (⟨S100000x64, .f32⟩ : BufTy).Contents (Elt F) → (⟨S100000x64, .f32⟩ : BufTy).Contents (Elt F)) ]

theorem opsA1_sub : (opsA1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub ..⟩

theorem opsA1_fresh : (opsA1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 1's two products and bias, %23 … %28, then the first call of @relu (%29), its body over the call's buffers. -/
abbrev opsB1 : List (HloOp τ sig (Elt F)) :=
  [ StableHlo.binary main_v22 main_arg4 main_v23 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v24 (broadcastInDim S1x64 ![1] bcast_S64_S1x64_1 : (⟨S64, .f32⟩ : BufTy).Contents (Elt F) → (⟨S1x64, .f32⟩ : BufTy).Contents (Elt F)),
    StableHlo.unary main_v24 main_v25 (broadcastInDim S100000x64 ![0, 1] bcast_S1x64_S100000x64_0_1 : (⟨S1x64, .f32⟩ : BufTy).Contents (Elt F) → (⟨S100000x64, .f32⟩ : BufTy).Contents (Elt F)),
    StableHlo.binary main_v23 main_v25 main_v26 (addf : (⟨S100000x64, .f32⟩ : BufTy).Contents (Elt F) → (⟨S100000x64, .f32⟩ : BufTy).Contents (Elt F) → (⟨S100000x64, .f32⟩ : BufTy).Contents (Elt F)),
    StableHlo.binary main_arg0 main_arg6 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v26 main_v27 main_v28 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S100000x64, .f32⟩) (broadcastInDim S100000x64 ![] bcast_S_S100000x64),
    StableHlo.TRef.binary (.of main_v28 : StableHlo.TRef sig ⟨S100000x64, .f32⟩) (.of main_call0_v0 : StableHlo.TRef sig ⟨S100000x64, .f32⟩) (.of main_v29 : StableHlo.TRef sig ⟨S100000x64, .f32⟩) maximumf ]

theorem opsB1_sub : (opsB1 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub ..⟩

theorem opsB1_fresh : (opsB1 : List (HloOp τ sig (Elt F))).Forall fun op => op.fresh = ∅ :=
  ⟨rfl, rfl, rfl, rfl, rfl, rfl, rfl, rfl, rfl⟩

/-- Layer 2's neighbour mean: %c_4 … %48, up to and including the second division. -/
abbrev opsA2 : List (HloOp τ sig (Elt F)) :=
  [ StableHlo.nullary main_c_4 (constantI S_ 32 0#32),
    StableHlo.unary main_c_4 main_v30 (broadcastInDim S1600000 ![] bcast_S_S1600000 : (⟨S_, .i32⟩ : BufTy).Contents (Elt F) → (⟨S1600000, .i32⟩ : BufTy).Contents (Elt F)),
    StableHlo.binary main_v1 main_v30 main_v31 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v32 (broadcastInDim S1600000 ![] bcast_S_S1600000 : (⟨S_, .i32⟩ : BufTy).Contents (Elt F) → (⟨S1600000, .i32⟩ : BufTy).Contents (Elt F)),
    StableHlo.binary main_v1 main_v32 main_v33 (addi : (⟨S1600000, .i32⟩ : BufTy).Contents (Elt F) → (⟨S1600000, .i32⟩ : BufTy).Contents (Elt F) → (⟨S1600000, .i32⟩ : BufTy).Contents (Elt F)),
    StableHlo.ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v34 main_v35 (broadcastInDim S1600000x1 ![0] bcast_S1600000_S1600000x1_0 : (⟨S1600000, .i32⟩ : BufTy).Contents (Elt F) → (⟨S1600000x1, .i32⟩ : BufTy).Contents (Elt F)),
    StableHlo.binary main_v29 main_v35 main_v36 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_6 (constant S_ .f32 0x00000000#32),
    StableHlo.unary main_cst_6 main_v37 (broadcastInDim S100000x64 ![] bcast_S_S100000x64 : (⟨S_, .f32⟩ : BufTy).Contents (Elt F) → (⟨S100000x64, .f32⟩ : BufTy).Contents (Elt F)),
    StableHlo.unary main_v3 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_7 (constant S_ .f32 0x3F800000#32),
    StableHlo.unary main_cst_7 main_v40 (broadcastInDim S1600000 ![] bcast_S_S1600000 : (⟨S_, .f32⟩ : BufTy).Contents (Elt F) → (⟨S1600000, .f32⟩ : BufTy).Contents (Elt F)),
    StableHlo.nullary main_cst_8 (constant S_ .f32 0x00000000#32),
    StableHlo.unary main_cst_8 main_v41 (broadcastInDim S100000 ![] bcast_S_S100000 : (⟨S_, .f32⟩ : BufTy).Contents (Elt F) → (⟨S100000, .f32⟩ : BufTy).Contents (Elt F)),
    StableHlo.unary main_v3 main_v42 (broadcastInDim S1600000x1 ![0] bcast_S1600000_S1600000x1_0 : (⟨S1600000, .i32⟩ : BufTy).Contents (Elt F) → (⟨S1600000x1, .i32⟩ : BufTy).Contents (Elt F)),
    StableHlo.ternary main_v41 main_v42 main_v40 main_v43 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_9 (constant S_ .f32 0x3F800000#32),
    StableHlo.unary main_cst_9 main_v44 (broadcastInDim S100000 ![] bcast_S_S100000 : (⟨S_, .f32⟩ : BufTy).Contents (Elt F) → (⟨S100000, .f32⟩ : BufTy).Contents (Elt F)),
    StableHlo.binary main_v43 main_v44 main_v45 (maximumf : (⟨S100000, .f32⟩ : BufTy).Contents (Elt F) → (⟨S100000, .f32⟩ : BufTy).Contents (Elt F) → (⟨S100000, .f32⟩ : BufTy).Contents (Elt F)),
    StableHlo.unary main_v45 main_v46 (broadcastInDim S100000x1 ![0] bcast_S100000_S100000x1_0 : (⟨S100000, .f32⟩ : BufTy).Contents (Elt F) → (⟨S100000x1, .f32⟩ : BufTy).Contents (Elt F)),
    StableHlo.unary main_v46 main_v47 (broadcastInDim S100000x64 ![0, 1] bcast_S100000x1_S100000x64_0_1 : (⟨S100000x1, .f32⟩ : BufTy).Contents (Elt F) → (⟨S100000x64, .f32⟩ : BufTy).Contents (Elt F)),
    StableHlo.binary main_v39 main_v47 main_v48 (Host.divf : (⟨S100000x64, .f32⟩ : BufTy).Contents (Elt F) → (⟨S100000x64, .f32⟩ : BufTy).Contents (Elt F) → (⟨S100000x64, .f32⟩ : BufTy).Contents (Elt F)) ]

theorem opsA2_sub : (opsA2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub ..⟩

theorem opsA2_fresh : (opsA2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- Layer 2's two products and bias, %49 … %54, then the second call of @relu (%55), its body over the call's buffers. -/
abbrev opsB2 : List (HloOp τ sig (Elt F)) :=
  [ StableHlo.binary main_v48 main_arg7 main_v49 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S100000x64 ![0, 1] bcast_S1x64_S100000x64_0_1 : (⟨S1x64, .f32⟩ : BufTy).Contents (Elt F) → (⟨S100000x64, .f32⟩ : BufTy).Contents (Elt F)),
    StableHlo.binary main_v49 main_v51 main_v52 (addf : (⟨S100000x64, .f32⟩ : BufTy).Contents (Elt F) → (⟨S100000x64, .f32⟩ : BufTy).Contents (Elt F) → (⟨S100000x64, .f32⟩ : BufTy).Contents (Elt F)),
    StableHlo.binary main_v29 main_arg9 main_v53 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v52 main_v53 main_v54 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x64, .f32⟩) (broadcastInDim S100000x64 ![] bcast_S_S100000x64),
    StableHlo.TRef.binary (.of main_v54 : StableHlo.TRef sig ⟨S100000x64, .f32⟩) (.of main_call1_v0 : StableHlo.TRef sig ⟨S100000x64, .f32⟩) (.of main_v55 : StableHlo.TRef sig ⟨S100000x64, .f32⟩) maximumf ]

theorem opsB2_sub : (opsB2 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub ..⟩

theorem opsB2_fresh : (opsB2 : List (HloOp τ sig (Elt F))).Forall fun op => op.fresh = ∅ :=
  ⟨rfl, rfl, rfl, rfl, rfl, rfl, rfl, rfl, rfl⟩

/-- Layer 3's neighbour mean: %c_10 … %74, up to and including the third division. -/
abbrev opsA3 : List (HloOp τ sig (Elt F)) :=
  [ StableHlo.nullary main_c_10 (constantI S_ 32 0#32),
    StableHlo.unary main_c_10 main_v56 (broadcastInDim S1600000 ![] bcast_S_S1600000 : (⟨S_, .i32⟩ : BufTy).Contents (Elt F) → (⟨S1600000, .i32⟩ : BufTy).Contents (Elt F)),
    StableHlo.binary main_v1 main_v56 main_v57 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v58 (broadcastInDim S1600000 ![] bcast_S_S1600000 : (⟨S_, .i32⟩ : BufTy).Contents (Elt F) → (⟨S1600000, .i32⟩ : BufTy).Contents (Elt F)),
    StableHlo.binary main_v1 main_v58 main_v59 (addi : (⟨S1600000, .i32⟩ : BufTy).Contents (Elt F) → (⟨S1600000, .i32⟩ : BufTy).Contents (Elt F) → (⟨S1600000, .i32⟩ : BufTy).Contents (Elt F)),
    StableHlo.ternary main_v57 main_v59 main_v1 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v60 main_v61 (broadcastInDim S1600000x1 ![0] bcast_S1600000_S1600000x1_0 : (⟨S1600000, .i32⟩ : BufTy).Contents (Elt F) → (⟨S1600000x1, .i32⟩ : BufTy).Contents (Elt F)),
    StableHlo.binary main_v55 main_v61 main_v62 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_12 (constant S_ .f32 0x00000000#32),
    StableHlo.unary main_cst_12 main_v63 (broadcastInDim S100000x64 ![] bcast_S_S100000x64 : (⟨S_, .f32⟩ : BufTy).Contents (Elt F) → (⟨S100000x64, .f32⟩ : BufTy).Contents (Elt F)),
    StableHlo.unary main_v3 main_v64 (broadcastInDim S1600000x1 ![0] bcast_S1600000_S1600000x1_0 : (⟨S1600000, .i32⟩ : BufTy).Contents (Elt F) → (⟨S1600000x1, .i32⟩ : BufTy).Contents (Elt F)),
    StableHlo.ternary main_v63 main_v64 main_v62 main_v65 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_13 (constant S_ .f32 0x3F800000#32),
    StableHlo.unary main_cst_13 main_v66 (broadcastInDim S1600000 ![] bcast_S_S1600000 : (⟨S_, .f32⟩ : BufTy).Contents (Elt F) → (⟨S1600000, .f32⟩ : BufTy).Contents (Elt F)),
    StableHlo.nullary main_cst_14 (constant S_ .f32 0x00000000#32),
    StableHlo.unary main_cst_14 main_v67 (broadcastInDim S100000 ![] bcast_S_S100000 : (⟨S_, .f32⟩ : BufTy).Contents (Elt F) → (⟨S100000, .f32⟩ : BufTy).Contents (Elt F)),
    StableHlo.unary main_v3 main_v68 (broadcastInDim S1600000x1 ![0] bcast_S1600000_S1600000x1_0 : (⟨S1600000, .i32⟩ : BufTy).Contents (Elt F) → (⟨S1600000x1, .i32⟩ : BufTy).Contents (Elt F)),
    StableHlo.ternary main_v67 main_v68 main_v66 main_v69 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_15 (constant S_ .f32 0x3F800000#32),
    StableHlo.unary main_cst_15 main_v70 (broadcastInDim S100000 ![] bcast_S_S100000 : (⟨S_, .f32⟩ : BufTy).Contents (Elt F) → (⟨S100000, .f32⟩ : BufTy).Contents (Elt F)),
    StableHlo.binary main_v69 main_v70 main_v71 (maximumf : (⟨S100000, .f32⟩ : BufTy).Contents (Elt F) → (⟨S100000, .f32⟩ : BufTy).Contents (Elt F) → (⟨S100000, .f32⟩ : BufTy).Contents (Elt F)),
    StableHlo.unary main_v71 main_v72 (broadcastInDim S100000x1 ![0] bcast_S100000_S100000x1_0 : (⟨S100000, .f32⟩ : BufTy).Contents (Elt F) → (⟨S100000x1, .f32⟩ : BufTy).Contents (Elt F)),
    StableHlo.unary main_v72 main_v73 (broadcastInDim S100000x64 ![0, 1] bcast_S100000x1_S100000x64_0_1 : (⟨S100000x1, .f32⟩ : BufTy).Contents (Elt F) → (⟨S100000x64, .f32⟩ : BufTy).Contents (Elt F)),
    StableHlo.binary main_v65 main_v73 main_v74 (Host.divf : (⟨S100000x64, .f32⟩ : BufTy).Contents (Elt F) → (⟨S100000x64, .f32⟩ : BufTy).Contents (Elt F) → (⟨S100000x64, .f32⟩ : BufTy).Contents (Elt F)) ]

theorem opsA3_sub : (opsA3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub ..⟩

theorem opsA3_fresh : (opsA3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- Layer 3's two products and bias: %75 … %80. -/
abbrev opsB3 : List (HloOp τ sig (Elt F)) :=
  [ StableHlo.binary main_v74 main_arg10 main_v75 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg11 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S100000x64 ![0, 1] bcast_S1x64_S100000x64_0_1 : (⟨S1x64, .f32⟩ : BufTy).Contents (Elt F) → (⟨S100000x64, .f32⟩ : BufTy).Contents (Elt F)),
    StableHlo.binary main_v75 main_v77 main_v78 (addf : (⟨S100000x64, .f32⟩ : BufTy).Contents (Elt F) → (⟨S100000x64, .f32⟩ : BufTy).Contents (Elt F) → (⟨S100000x64, .f32⟩ : BufTy).Contents (Elt F)),
    StableHlo.binary main_v55 main_arg12 main_v79 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v78 main_v79 main_v80 (addf : (⟨S100000x64, .f32⟩ : BufTy).Contents (Elt F) → (⟨S100000x64, .f32⟩ : BufTy).Contents (Elt F) → (⟨S100000x64, .f32⟩ : BufTy).Contents (Elt F)) ]

theorem opsB3_sub : (opsB3 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.binary_bufs_sub ..⟩

theorem opsB3_fresh : (opsB3 : List (HloOp τ sig (Elt F))).Forall fun op => op.fresh = ∅ :=
  ⟨rfl, rfl, rfl, rfl, rfl, rfl⟩

/-- The head, %cst_16 … %113: the mean pool over the batch vector, the dense layer, the column mean, @_var's body with the body of the @_where it calls, the normalisation, @relu_0's body, the last dense layer. -/
abbrev opsT : List (HloOp τ sig (Elt F)) :=
  [ StableHlo.nullary main_cst_16 (constant S_ .f32 0x00000000#32),
    StableHlo.unary main_cst_16 main_v81 (broadcastInDim S64x64 ![] bcast_S_S64x64 : (⟨S_, .f32⟩ : BufTy).Contents (Elt F) → (⟨S64x64, .f32⟩ : BufTy).Contents (Elt F)),
    StableHlo.unary main_arg3 main_v82 (broadcastInDim S100000x1 ![0] bcast_S100000_S100000x1_0 : (⟨S100000, .i32⟩ : BufTy).Contents (Elt F) → (⟨S100000x1, .i32⟩ : BufTy).Contents (Elt F)),
    StableHlo.ternary main_v81 main_v82 main_v80 main_v83 ((fun x i u => Host.scatterAdd scatter_S64x64_S100000x1_S100000x64_1_0_0_1 x i u) : (⟨S64x64, .f32⟩ : BufTy).Contents (Elt F) → (⟨S100000x1, .i32⟩ : BufTy).Contents (Elt F) → (⟨S100000x64, .f32⟩ : BufTy).Contents (Elt F) → (⟨S64x64, .f32⟩ : BufTy).Contents (Elt F)),
    StableHlo.nullary main_cst_17 (constant S_ .f32 0x3F800000#32),
    StableHlo.unary main_cst_17 main_v84 (broadcastInDim S100000 ![] bcast_S_S100000 : (⟨S_, .f32⟩ : BufTy).Contents (Elt F) → (⟨S100000, .f32⟩ : BufTy).Contents (Elt F)),
    StableHlo.nullary main_cst_18 (constant S_ .f32 0x00000000#32),
    StableHlo.unary main_cst_18 main_v85 (broadcastInDim S64 ![] bcast_S_S64 : (⟨S_, .f32⟩ : BufTy).Contents (Elt F) → (⟨S64, .f32⟩ : BufTy).Contents (Elt F)),
    StableHlo.unary main_arg3 main_v86 (broadcastInDim S100000x1 ![0] bcast_S100000_S100000x1_0 : (⟨S100000, .i32⟩ : BufTy).Contents (Elt F) → (⟨S100000x1, .i32⟩ : BufTy).Contents (Elt F)),
    StableHlo.ternary main_v85 main_v86 main_v84 main_v87 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_19 (constant S_ .f32 0x3F800000#32),
    StableHlo.unary main_cst_19 main_v88 (broadcastInDim S64 ![] bcast_S_S64 : (⟨S_, .f32⟩ : BufTy).Contents (Elt F) → (⟨S64, .f32⟩ : BufTy).Contents (Elt F)),
    StableHlo.binary main_v87 main_v88 main_v89 (maximumf : (⟨S64, .f32⟩ : BufTy).Contents (Elt F) → (⟨S64, .f32⟩ : BufTy).Contents (Elt F) → (⟨S64, .f32⟩ : BufTy).Contents (Elt F)),
    StableHlo.unary main_v89 main_v90 (broadcastInDim S64x1 ![0] bcast_S64_S64x1_0 : (⟨S64, .f32⟩ : BufTy).Contents (Elt F) → (⟨S64x1, .f32⟩ : BufTy).Contents (Elt F)),
    StableHlo.unary main_v90 main_v91 (broadcastInDim S64x64 ![0, 1] bcast_S64x1_S64x64_0_1 : (⟨S64x1, .f32⟩ : BufTy).Contents (Elt F) → (⟨S64x64, .f32⟩ : BufTy).Contents (Elt F)),
    StableHlo.binary main_v83 main_v91 main_v92 (Host.divf : (⟨S64x64, .f32⟩ : BufTy).Contents (Elt F) → (⟨S64x64, .f32⟩ : BufTy).Contents (Elt F) → (⟨S64x64, .f32⟩ : BufTy).Contents (Elt F)),
    StableHlo.binary main_v92 main_arg13 main_v93 ((fun l r => Host.dotGeneral dot_S64x64_S64x256_S64x256_1_0_0_1_n_n none l r) : (⟨S64x64, .f32⟩ : BufTy).Contents (Elt F) → (⟨S64x256, .f32⟩ : BufTy).Contents (Elt F) → (⟨S64x256, .f32⟩ : BufTy).Contents (Elt F)),
    StableHlo.unary main_arg14 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S64x256 ![0, 1] bcast_S1x256_S64x256_0_1 : (⟨S1x256, .f32⟩ : BufTy).Contents (Elt F) → (⟨S64x256, .f32⟩ : BufTy).Contents (Elt F)),
    StableHlo.binary main_v93 main_v95 main_v96 (addf : (⟨S64x256, .f32⟩ : BufTy).Contents (Elt F) → (⟨S64x256, .f32⟩ : BufTy).Contents (Elt F) → (⟨S64x256, .f32⟩ : BufTy).Contents (Elt F)),
    StableHlo.nullary main_cst_20 (constant S_ .f32 0x00000000#32),
    StableHlo.binary main_v96 main_cst_20 main_v97 ((fun x v => Host.reduceAdd x v reducesTo_S64x256_S256_d0 h_S_) : (⟨S64x256, .f32⟩ : BufTy).Contents (Elt F) → (⟨S_, .f32⟩ : BufTy).Contents (Elt F) → (⟨S256, .f32⟩ : BufTy).Contents (Elt F)),
    StableHlo.unary main_v97 main_v98 (broadcastInDim S1x256 ![1] bcast_S256_S1x256_1 : (⟨S256, .f32⟩ : BufTy).Contents (Elt F) → (⟨S1x256, .f32⟩ : BufTy).Contents (Elt F)),
    StableHlo.nullary main_cst_21 (constant S_ .f32 0x42800000#32),
    StableHlo.unary main_cst_21 main_v99 (broadcastInDim S1x256 ![] bcast_S_S1x256 : (⟨S_, .f32⟩ : BufTy).Contents (Elt F) → (⟨S1x256, .f32⟩ : BufTy).Contents (Elt F)),
    StableHlo.binary main_v98 main_v99 main_v100 (Host.divf : (⟨S1x256, .f32⟩ : BufTy).Contents (Elt F) → (⟨S1x256, .f32⟩ : BufTy).Contents (Elt F) → (⟨S1x256, .f32⟩ : BufTy).Contents (Elt F)),
    StableHlo.nullary main_c_22 (constantI S_ 32 0#32),
    StableHlo.TRef.nullary (.of main_call2_cst : StableHlo.TRef sig ⟨S_, .f32⟩) (constant S_ .f32 0x00000000#32),
    StableHlo.TRef.binary (.of main_v96 : StableHlo.TRef sig ⟨S64x256, .f32⟩) (.of main_call2_cst : StableHlo.TRef sig ⟨S_, .f32⟩) (.of main_call2_v0 : StableHlo.TRef sig ⟨S256, .f32⟩) (fun x v => Host.reduceAdd x v reducesTo_S64x256_S256_d0 h_S_),
    StableHlo.TRef.unary (.of main_call2_v0 : StableHlo.TRef sig ⟨S256, .f32⟩) (.of main_call2_v1 : StableHlo.TRef sig ⟨S1x256, .f32⟩) (broadcastInDim S1x256 ![1] bcast_S256_S1x256_1),
    StableHlo.TRef.nullary (.of main_call2_cst_0 : StableHlo.TRef sig ⟨S_, .f32⟩) (constant S_ .f32 0x42800000#32),
    StableHlo.TRef.unary (.of main_call2_cst_0 : StableHlo.TRef sig ⟨S_, .f32⟩) (.of main_call2_v2 : StableHlo.TRef sig ⟨S1x256, .f32⟩) (broadcastInDim S1x256 ![] bcast_S_S1x256),
    StableHlo.TRef.binary (.of main_call2_v1 : StableHlo.TRef sig ⟨S1x256, .f32⟩) (.of main_call2_v2 : StableHlo.TRef sig ⟨S1x256, .f32⟩) (.of main_call2_v3 : StableHlo.TRef sig ⟨S1x256, .f32⟩) Host.divf,
    StableHlo.TRef.unary (.of main_call2_v3 : StableHlo.TRef sig ⟨S1x256, .f32⟩) (.of main_call2_v4 : StableHlo.TRef sig ⟨S64x256, .f32⟩) (broadcastInDim S64x256 ![0, 1] bcast_S1x256_S64x256_0_1),
    StableHlo.TRef.binary (.of main_v96 : StableHlo.TRef sig ⟨S64x256, .f32⟩) (.of main_call2_v4 : StableHlo.TRef sig ⟨S64x256, .f32⟩) (.of main_call2_v5 : StableHlo.TRef sig ⟨S64x256, .f32⟩) subf,
    StableHlo.TRef.binary (.of main_call2_v5 : StableHlo.TRef sig ⟨S64x256, .f32⟩) (.of main_call2_v5 : StableHlo.TRef sig ⟨S64x256, .f32⟩) (.of main_call2_v6 : StableHlo.TRef sig ⟨S64x256, .f32⟩) mulf,
    StableHlo.TRef.unary (.of main_c_22 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x42800000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S64x256, .f32⟩) (.of main_call2_cst_2 : StableHlo.TRef sig ⟨S_, .f32⟩) (.of main_call2_v9 : StableHlo.TRef sig ⟨S256, .f32⟩) (fun x v => Host.reduceAdd x v reducesTo_S64x256_S256_d0 h_S_),
    StableHlo.TRef.unary (.of main_call2_v9 : StableHlo.TRef sig ⟨S256, .f32⟩) (.of main_call2_v10 : StableHlo.TRef sig ⟨S1x256, .f32⟩) (broadcastInDim S1x256 ![1] bcast_S256_S1x256_1),
    StableHlo.TRef.unary (.of main_call2_v8 : StableHlo.TRef sig ⟨S_, .f32⟩) (.of main_call2_v11 : StableHlo.TRef sig ⟨S1x256, .f32⟩) (broadcastInDim S1x256 ![] bcast_S_S1x256),
    StableHlo.TRef.binary (.of main_call2_v10 : StableHlo.TRef sig ⟨S1x256, .f32⟩) (.of main_call2_v11 : StableHlo.TRef sig ⟨S1x256, .f32⟩) (.of main_call2_v12 : StableHlo.TRef sig ⟨S1x256, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v13 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S1x256, .f32⟩) (broadcastInDim S1x256 ![] bcast_S_S1x256),
    StableHlo.TRef.ternary (.of main_call2_v13 : StableHlo.TRef sig ⟨S_, .i1⟩) (.of main_call2_v12 : StableHlo.TRef sig ⟨S1x256, .f32⟩) (.of main_call2_call0_v1 : StableHlo.TRef sig ⟨S1x256, .f32⟩) (.of main_v101 : StableHlo.TRef sig ⟨S1x256, .f32⟩) (fun p a b => select (broadcastInDim S1x256 ![] bcast_S_S1x256 p) a b),
    StableHlo.unary main_v100 main_v102 (broadcastInDim S64x256 ![0, 1] bcast_S1x256_S64x256_0_1 : (⟨S1x256, .f32⟩ : BufTy).Contents (Elt F) → (⟨S64x256, .f32⟩ : BufTy).Contents (Elt F)),
    StableHlo.binary main_v96 main_v102 main_v103 (subf : (⟨S64x256, .f32⟩ : BufTy).Contents (Elt F) → (⟨S64x256, .f32⟩ : BufTy).Contents (Elt F) → (⟨S64x256, .f32⟩ : BufTy).Contents (Elt F)),
    StableHlo.nullary main_cst_23 (constant S_ .f32 0x3727C5AC#32),
    StableHlo.unary main_cst_23 main_v104 (broadcastInDim S1x256 ![] bcast_S_S1x256 : (⟨S_, .f32⟩ : BufTy).Contents (Elt F) → (⟨S1x256, .f32⟩ : BufTy).Contents (Elt F)),
    StableHlo.binary main_v101 main_v104 main_v105 (addf : (⟨S1x256, .f32⟩ : BufTy).Contents (Elt F) → (⟨S1x256, .f32⟩ : BufTy).Contents (Elt F) → (⟨S1x256, .f32⟩ : BufTy).Contents (Elt F)),
    StableHlo.unary main_v105 main_v106 (Host.sqrt : (⟨S1x256, .f32⟩ : BufTy).Contents (Elt F) → (⟨S1x256, .f32⟩ : BufTy).Contents (Elt F)),
    StableHlo.unary main_v106 main_v107 (broadcastInDim S64x256 ![0, 1] bcast_S1x256_S64x256_0_1 : (⟨S1x256, .f32⟩ : BufTy).Contents (Elt F) → (⟨S64x256, .f32⟩ : BufTy).Contents (Elt F)),
    StableHlo.binary main_v103 main_v107 main_v108 (Host.divf : (⟨S64x256, .f32⟩ : BufTy).Contents (Elt F) → (⟨S64x256, .f32⟩ : BufTy).Contents (Elt F) → (⟨S64x256, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S64x256, .f32⟩) (broadcastInDim S64x256 ![] bcast_S_S64x256),
    StableHlo.TRef.binary (.of main_v108 : StableHlo.TRef sig ⟨S64x256, .f32⟩) (.of main_call3_v0 : StableHlo.TRef sig ⟨S64x256, .f32⟩) (.of main_v109 : StableHlo.TRef sig ⟨S64x256, .f32⟩) maximumf,
    StableHlo.binary main_v109 main_arg15 main_v110 ((fun l r => Host.dotGeneral dot_S64x256_S256x2_S64x2_1_0_0_1_n_n none l r) : (⟨S64x256, .f32⟩ : BufTy).Contents (Elt F) → (⟨S256x2, .f32⟩ : BufTy).Contents (Elt F) → (⟨S64x2, .f32⟩ : BufTy).Contents (Elt F)),
    StableHlo.unary main_arg16 main_v111 (broadcastInDim S1x2 ![1] bcast_S2_S1x2_1 : (⟨S2, .f32⟩ : BufTy).Contents (Elt F) → (⟨S1x2, .f32⟩ : BufTy).Contents (Elt F)),
    StableHlo.unary main_v111 main_v112 (broadcastInDim S64x2 ![0, 1] bcast_S1x2_S64x2_0_1 : (⟨S1x2, .f32⟩ : BufTy).Contents (Elt F) → (⟨S64x2, .f32⟩ : BufTy).Contents (Elt F)),
    StableHlo.binary main_v110 main_v112 main_v113 (addf : (⟨S64x2, .f32⟩ : BufTy).Contents (Elt F) → (⟨S64x2, .f32⟩ : BufTy).Contents (Elt F) → (⟨S64x2, .f32⟩ : BufTy).Contents (Elt F)) ]

theorem opsT_sub : (opsT : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

theorem opsT_fresh : (opsT : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.LibSeqChain.lean ====
/-
  Straight lines of host operations run one after the other.

  * A property that holds of every element of two lists holds of every element of the two end to end.
  * A line followed by nothing is the line.
  * Any number of lines run one after the other are their concatenation run as one line
    (`chain_map_seq`). This is what lets a program that calls a function in the middle of a straight line be stated
    as a few items in a row — the operations before the call, the callee's body, the operations after it, each
    compared with the program an operation at a time — and only then glued into one line; an equation between the
    program and the one line that crosses the call is not compared that way (the callee's name stands on one side only).
-/
import Idealize.ShloMosaic.Lib.StableHlo.Run
import Idealize.ShloMosaic.Lib.Pipeline.Regions

noncomputable section

namespace Idealize.ShloMosaic.StableHlo

open Idealize.ShloMosaic Idealize.SL.Sem

variable {nD : Nat} {τ : Topo} {sig : RefSig} {Val : EltTy → Type} {Λ : Labels}

/-- A property of every element of two lists holds of every element of the two end to end. -/
theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x)
    (List.forall_iff_forall_mem.mp h₂ x)

/-- A line followed by nothing is the line. -/
theorem seq_bind_pure (l : List (HloOp τ sig Val)) :
    ((seq l : Prog (TpuEff nD τ sig Val Λ .tc) PUnit) >>= fun _ => pure ⟨⟩) = seq l := by
  have h := seq_append (nD := nD) (Λ := Λ) l ([] : List (HloOp τ sig Val))
  rw [List.append_nil] at h
  exact h.symm

/-- Lines run one after the other are their concatenation run as one line. -/
theorem chain_map_seq (ls : List (List (HloOp τ sig Val))) :
    (Pipeline.chain (ls.map seq) : Prog (TpuEff nD τ sig Val Λ .tc) PUnit) = seq ls.flatten := by
  induction ls with
  | nil => rfl
  | cons l ls ih => simp only [List.map_cons, Pipeline.chain_cons, List.flatten_cons, seq_append, ih]

/-- Five lines run one after the other are their concatenation run as one. -/
theorem chain_five (a b c d e : List (HloOp τ sig Val)) :
    (Pipeline.chain [seq a, seq b, seq c, seq d, seq e] : Prog (TpuEff nD τ sig Val Λ .tc) PUnit)
      = seq (a ++ (b ++ (c ++ (d ++ e)))) := by
  have h := chain_map_seq (nD := nD) (Λ := Λ) [a, b, c, d, e]
  simpa only [List.map_cons, List.map_nil, List.flatten_cons, List.flatten_nil, List.append_nil] using h

end Idealize.ShloMosaic.StableHlo

end
-- ==== Proof.RefMain.lean ====
/-
  The reference program's @main is one straight line: the seven lists of its operations end to end.

  The printed @main is three windows, and it calls four functions. Each window is compared with a row of shorter
  lists — a list ends where a call begins and where it ends, and where a window ends —, an operation at a time;
  the rows are joined, lines run one after the other being their concatenation run as one; and the concatenation
  of the shorter lists is, element for element, that of the seven.
-/
import proofs.«143133_j27693949125044_1_alg».proof.Proof.RefOps
import proofs.«143133_j27693949125044_1_alg».proof.Proof.LibSeqChain
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- Layer 1's two products and bias: %23 … %28. -/
abbrev pcL1 : List (HloOp τ sig (Elt F)) :=
  [ StableHlo.binary main_v22 main_arg4 main_v23 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v24 (broadcastInDim S1x64 ![1] bcast_S64_S1x64_1 : (⟨S64, .f32⟩ : BufTy).Contents (Elt F) → (⟨S1x64, .f32⟩ : BufTy).Contents (Elt F)),
    StableHlo.unary main_v24 main_v25 (broadcastInDim S100000x64 ![0, 1] bcast_S1x64_S100000x64_0_1 : (⟨S1x64, .f32⟩ : BufTy).Contents (Elt F) → (⟨S100000x64, .f32⟩ : BufTy).Contents (Elt F)),
    StableHlo.binary main_v23 main_v25 main_v26 (addf : (⟨S100000x64, .f32⟩ : BufTy).Contents (Elt F) → (⟨S100000x64, .f32⟩ : BufTy).Contents (Elt F) → (⟨S100000x64, .f32⟩ : BufTy).Contents (Elt F)),
    StableHlo.binary main_arg0 main_arg6 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v26 main_v27 main_v28 (addf : (⟨S100000x64, .f32⟩ : BufTy).Contents (Elt F) → (⟨S100000x64, .f32⟩ : BufTy).Contents (Elt F) → (⟨S100000x64, .f32⟩ : BufTy).Contents (Elt F)) ]

/-- The first call of @relu (%29): its body over the call's buffers. -/
abbrev pcR1 : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S100000x64, .f32⟩) (broadcastInDim S100000x64 ![] bcast_S_S100000x64),
    StableHlo.TRef.binary (.of main_v28 : StableHlo.TRef sig ⟨S100000x64, .f32⟩) (.of main_call0_v0 : StableHlo.TRef sig ⟨S100000x64, .f32⟩) (.of main_v29 : StableHlo.TRef sig ⟨S100000x64, .f32⟩) maximumf ]

/-- Layer 2's neighbour mean up to its broadcast denominator, %c_4 … %47: the first window ends here. -/
abbrev pcA2a : List (HloOp τ sig (Elt F)) :=
  [ StableHlo.nullary main_c_4 (constantI S_ 32 0#32),
    StableHlo.unary main_c_4 main_v30 (broadcastInDim S1600000 ![] bcast_S_S1600000 : (⟨S_, .i32⟩ : BufTy).Contents (Elt F) → (⟨S1600000, .i32⟩ : BufTy).Contents (Elt F)),
    StableHlo.binary main_v1 main_v30 main_v31 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v32 (broadcastInDim S1600000 ![] bcast_S_S1600000 : (⟨S_, .i32⟩ : BufTy).Contents (Elt F) → (⟨S1600000, .i32⟩ : BufTy).Contents (Elt F)),
    StableHlo.binary main_v1 main_v32 main_v33 (addi : (⟨S1600000, .i32⟩ : BufTy).Contents (Elt F) → (⟨S1600000, .i32⟩ : BufTy).Contents (Elt F) → (⟨S1600000, .i32⟩ : BufTy).Contents (Elt F)),
    StableHlo.ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v34 main_v35 (broadcastInDim S1600000x1 ![0] bcast_S1600000_S1600000x1_0 : (⟨S1600000, .i32⟩ : BufTy).Contents (Elt F) → (⟨S1600000x1, .i32⟩ : BufTy).Contents (Elt F)),
    StableHlo.binary main_v29 main_v35 main_v36 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_6 (constant S_ .f32 0x00000000#32),
    StableHlo.unary main_cst_6 main_v37 (broadcastInDim S100000x64 ![] bcast_S_S100000x64 : (⟨S_, .f32⟩ : BufTy).Contents (Elt F) → (⟨S100000x64, .f32⟩ : BufTy).Contents (Elt F)),
    StableHlo.unary main_v3 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_7 (constant S_ .f32 0x3F800000#32),
    StableHlo.unary main_cst_7 main_v40 (broadcastInDim S1600000 ![] bcast_S_S1600000 : (⟨S_, .f32⟩ : BufTy).Contents (Elt F) → (⟨S1600000, .f32⟩ : BufTy).Contents (Elt F)),
    StableHlo.nullary main_cst_8 (constant S_ .f32 0x00000000#32),
    StableHlo.unary main_cst_8 main_v41 (broadcastInDim S100000 ![] bcast_S_S100000 : (⟨S_, .f32⟩ : BufTy).Contents (Elt F) → (⟨S100000, .f32⟩ : BufTy).Contents (Elt F)),
    StableHlo.unary main_v3 main_v42 (broadcastInDim S1600000x1 ![0] bcast_S1600000_S1600000x1_0 : (⟨S1600000, .i32⟩ : BufTy).Contents (Elt F) → (⟨S1600000x1, .i32⟩ : BufTy).Contents (Elt F)),
    StableHlo.ternary main_v41 main_v42 main_v40 main_v43 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_9 (constant S_ .f32 0x3F800000#32),
    StableHlo.unary main_cst_9 main_v44 (broadcastInDim S100000 ![] bcast_S_S100000 : (⟨S_, .f32⟩ : BufTy).Contents (Elt F) → (⟨S100000, .f32⟩ : BufTy).Contents (Elt F)),
    StableHlo.binary main_v43 main_v44 main_v45 (maximumf : (⟨S100000, .f32⟩ : BufTy).Contents (Elt F) → (⟨S100000, .f32⟩ : BufTy).Contents (Elt F) → (⟨S100000, .f32⟩ : BufTy).Contents (Elt F)),
    StableHlo.unary main_v45 main_v46 (broadcastInDim S100000x1 ![0] bcast_S100000_S100000x1_0 : (⟨S100000, .f32⟩ : BufTy).Contents (Elt F) → (⟨S100000x1, .f32⟩ : BufTy).Contents (Elt F)),
    StableHlo.unary main_v46 main_v47 (broadcastInDim S100000x64 ![0, 1] bcast_S100000x1_S100000x64_0_1 : (⟨S100000x1, .f32⟩ : BufTy).Contents (Elt F) → (⟨S100000x64, .f32⟩ : BufTy).Contents (Elt F)) ]

/-- Layer 2's neighbour mean, its division: %48. -/
abbrev pcA2b : List (HloOp τ sig (Elt F)) :=
  [ StableHlo.binary main_v39 main_v47 main_v48 (Host.divf : (⟨S100000x64, .f32⟩ : BufTy).Contents (Elt F) → (⟨S100000x64, .f32⟩ : BufTy).Contents (Elt F) → (⟨S100000x64, .f32⟩ : BufTy).Contents (Elt F)) ]

/-- Layer 2's two products and bias: %49 … %54. -/
abbrev pcL2 : List (HloOp τ sig (Elt F)) :=
  [ StableHlo.binary main_v48 main_arg7 main_v49 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S100000x64 ![0, 1] bcast_S1x64_S100000x64_0_1 : (⟨S1x64, .f32⟩ : BufTy).Contents (Elt F) → (⟨S100000x64, .f32⟩ : BufTy).Contents (Elt F)),
    StableHlo.binary main_v49 main_v51 main_v52 (addf : (⟨S100000x64, .f32⟩ : BufTy).Contents (Elt F) → (⟨S100000x64, .f32⟩ : BufTy).Contents (Elt F) → (⟨S100000x64, .f32⟩ : BufTy).Contents (Elt F)),
    StableHlo.binary main_v29 main_arg9 main_v53 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v52 main_v53 main_v54 (addf : (⟨S100000x64, .f32⟩ : BufTy).Contents (Elt F) → (⟨S100000x64, .f32⟩ : BufTy).Contents (Elt F) → (⟨S100000x64, .f32⟩ : BufTy).Contents (Elt F)) ]

/-- The second call of @relu (%55): its body over the call's buffers. -/
abbrev pcR2 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x64, .f32⟩) (broadcastInDim S100000x64 ![] bcast_S_S100000x64),
    StableHlo.TRef.binary (.of main_v54 : StableHlo.TRef sig ⟨S100000x64, .f32⟩) (.of main_call1_v0 : StableHlo.TRef sig ⟨S100000x64, .f32⟩) (.of main_v55 : StableHlo.TRef sig ⟨S100000x64, .f32⟩) maximumf ]

/-- The head up to the dense layer's sum, %cst_16 … %cst_20: the second window ends here. -/
abbrev pcT0 : List (HloOp τ sig (Elt F)) :=
  [ StableHlo.nullary main_cst_16 (constant S_ .f32 0x00000000#32),
    StableHlo.unary main_cst_16 main_v81 (broadcastInDim S64x64 ![] bcast_S_S64x64 : (⟨S_, .f32⟩ : BufTy).Contents (Elt F) → (⟨S64x64, .f32⟩ : BufTy).Contents (Elt F)),
    StableHlo.unary main_arg3 main_v82 (broadcastInDim S100000x1 ![0] bcast_S100000_S100000x1_0 : (⟨S100000, .i32⟩ : BufTy).Contents (Elt F) → (⟨S100000x1, .i32⟩ : BufTy).Contents (Elt F)),
    StableHlo.ternary main_v81 main_v82 main_v80 main_v83 ((fun x i u => Host.scatterAdd scatter_S64x64_S100000x1_S100000x64_1_0_0_1 x i u) : (⟨S64x64, .f32⟩ : BufTy).Contents (Elt F) → (⟨S100000x1, .i32⟩ : BufTy).Contents (Elt F) → (⟨S100000x64, .f32⟩ : BufTy).Contents (Elt F) → (⟨S64x64, .f32⟩ : BufTy).Contents (Elt F)),
    StableHlo.nullary main_cst_17 (constant S_ .f32 0x3F800000#32),
    StableHlo.unary main_cst_17 main_v84 (broadcastInDim S100000 ![] bcast_S_S100000 : (⟨S_, .f32⟩ : BufTy).Contents (Elt F) → (⟨S100000, .f32⟩ : BufTy).Contents (Elt F)),
    StableHlo.nullary main_cst_18 (constant S_ .f32 0x00000000#32),
    StableHlo.unary main_cst_18 main_v85 (broadcastInDim S64 ![] bcast_S_S64 : (⟨S_, .f32⟩ : BufTy).Contents (Elt F) → (⟨S64, .f32⟩ : BufTy).Contents (Elt F)),
    StableHlo.unary main_arg3 main_v86 (broadcastInDim S100000x1 ![0] bcast_S100000_S100000x1_0 : (⟨S100000, .i32⟩ : BufTy).Contents (Elt F) → (⟨S100000x1, .i32⟩ : BufTy).Contents (Elt F)),
    StableHlo.ternary main_v85 main_v86 main_v84 main_v87 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_19 (constant S_ .f32 0x3F800000#32),
    StableHlo.unary main_cst_19 main_v88 (broadcastInDim S64 ![] bcast_S_S64 : (⟨S_, .f32⟩ : BufTy).Contents (Elt F) → (⟨S64, .f32⟩ : BufTy).Contents (Elt F)),
    StableHlo.binary main_v87 main_v88 main_v89 (maximumf : (⟨S64, .f32⟩ : BufTy).Contents (Elt F) → (⟨S64, .f32⟩ : BufTy).Contents (Elt F) → (⟨S64, .f32⟩ : BufTy).Contents (Elt F)),
    StableHlo.unary main_v89 main_v90 (broadcastInDim S64x1 ![0] bcast_S64_S64x1_0 : (⟨S64, .f32⟩ : BufTy).Contents (Elt F) → (⟨S64x1, .f32⟩ : BufTy).Contents (Elt F)),
    StableHlo.unary main_v90 main_v91 (broadcastInDim S64x64 ![0, 1] bcast_S64x1_S64x64_0_1 : (⟨S64x1, .f32⟩ : BufTy).Contents (Elt F) → (⟨S64x64, .f32⟩ : BufTy).Contents (Elt F)),
    StableHlo.binary main_v83 main_v91 main_v92 (Host.divf : (⟨S64x64, .f32⟩ : BufTy).Contents (Elt F) → (⟨S64x64, .f32⟩ : BufTy).Contents (Elt F) → (⟨S64x64, .f32⟩ : BufTy).Contents (Elt F)),
    StableHlo.binary main_v92 main_arg13 main_v93 ((fun l r => Host.dotGeneral dot_S64x64_S64x256_S64x256_1_0_0_1_n_n none l r) : (⟨S64x64, .f32⟩ : BufTy).Contents (Elt F) → (⟨S64x256, .f32⟩ : BufTy).Contents (Elt F) → (⟨S64x256, .f32⟩ : BufTy).Contents (Elt F)),
    StableHlo.unary main_arg14 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S64x256 ![0, 1] bcast_S1x256_S64x256_0_1 : (⟨S1x256, .f32⟩ : BufTy).Contents (Elt F) → (⟨S64x256, .f32⟩ : BufTy).Contents (Elt F)),
    StableHlo.binary main_v93 main_v95 main_v96 (addf : (⟨S64x256, .f32⟩ : BufTy).Contents (Elt F) → (⟨S64x256, .f32⟩ : BufTy).Contents (Elt F) → (⟨S64x256, .f32⟩ : BufTy).Contents (Elt F)),
    StableHlo.nullary main_cst_20 (constant S_ .f32 0x00000000#32) ]

/-- The head: the column mean, %97 … %c_22. -/
abbrev pcT1 : List (HloOp τ sig (Elt F)) :=
  [ StableHlo.binary main_v96 main_cst_20 main_v97 ((fun x v => Host.reduceAdd x v reducesTo_S64x256_S256_d0 h_S_) : (⟨S64x256, .f32⟩ : BufTy).Contents (Elt F) → (⟨S_, .f32⟩ : BufTy).Contents (Elt F) → (⟨S256, .f32⟩ : BufTy).Contents (Elt F)),
    StableHlo.unary main_v97 main_v98 (broadcastInDim S1x256 ![1] bcast_S256_S1x256_1 : (⟨S256, .f32⟩ : BufTy).Contents (Elt F) → (⟨S1x256, .f32⟩ : BufTy).Contents (Elt F)),
    StableHlo.nullary main_cst_21 (constant S_ .f32 0x42800000#32),
    StableHlo.unary main_cst_21 main_v99 (broadcastInDim S1x256 ![] bcast_S_S1x256 : (⟨S_, .f32⟩ : BufTy).Contents (Elt F) → (⟨S1x256, .f32⟩ : BufTy).Contents (Elt F)),
    StableHlo.binary main_v98 main_v99 main_v100 (Host.divf : (⟨S1x256, .f32⟩ : BufTy).Contents (Elt F) → (⟨S1x256, .f32⟩ : BufTy).Contents (Elt F) → (⟨S1x256, .f32⟩ : BufTy).Contents (Elt F)),
    StableHlo.nullary main_c_22 (constantI S_ 32 0#32) ]

/-- The call of @_var (%101): its body, and the body of the @_where it calls, over the call's buffers. -/
abbrev pcT2 : List (HloOp τ sig (Elt F)) :=
  [ StableHlo.TRef.nullary (.of main_call2_cst : StableHlo.TRef sig ⟨S_, .f32⟩) (constant S_ .f32 0x00000000#32),
    StableHlo.TRef.binary (.of main_v96 : StableHlo.TRef sig ⟨S64x256, .f32⟩) (.of main_call2_cst : StableHlo.TRef sig ⟨S_, .f32⟩) (.of main_call2_v0 : StableHlo.TRef sig ⟨S256, .f32⟩) (fun x v => Host.reduceAdd x v reducesTo_S64x256_S256_d0 h_S_),
    StableHlo.TRef.unary (.of main_call2_v0 : StableHlo.TRef sig ⟨S256, .f32⟩) (.of main_call2_v1 : StableHlo.TRef sig ⟨S1x256, .f32⟩) (broadcastInDim S1x256 ![1] bcast_S256_S1x256_1),
    StableHlo.TRef.nullary (.of main_call2_cst_0 : StableHlo.TRef sig ⟨S_, .f32⟩) (constant S_ .f32 0x42800000#32),
    StableHlo.TRef.unary (.of main_call2_cst_0 : StableHlo.TRef sig ⟨S_, .f32⟩) (.of main_call2_v2 : StableHlo.TRef sig ⟨S1x256, .f32⟩) (broadcastInDim S1x256 ![] bcast_S_S1x256),
    StableHlo.TRef.binary (.of main_call2_v1 : StableHlo.TRef sig ⟨S1x256, .f32⟩) (.of main_call2_v2 : StableHlo.TRef sig ⟨S1x256, .f32⟩) (.of main_call2_v3 : StableHlo.TRef sig ⟨S1x256, .f32⟩) Host.divf,
    StableHlo.TRef.unary (.of main_call2_v3 : StableHlo.TRef sig ⟨S1x256, .f32⟩) (.of main_call2_v4 : StableHlo.TRef sig ⟨S64x256, .f32⟩) (broadcastInDim S64x256 ![0, 1] bcast_S1x256_S64x256_0_1),
    StableHlo.TRef.binary (.of main_v96 : StableHlo.TRef sig ⟨S64x256, .f32⟩) (.of main_call2_v4 : StableHlo.TRef sig ⟨S64x256, .f32⟩) (.of main_call2_v5 : StableHlo.TRef sig ⟨S64x256, .f32⟩) subf,
    StableHlo.TRef.binary (.of main_call2_v5 : StableHlo.TRef sig ⟨S64x256, .f32⟩) (.of main_call2_v5 : StableHlo.TRef sig ⟨S64x256, .f32⟩) (.of main_call2_v6 : StableHlo.TRef sig ⟨S64x256, .f32⟩) mulf,
    StableHlo.TRef.unary (.of main_c_22 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x42800000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S64x256, .f32⟩) (.of main_call2_cst_2 : StableHlo.TRef sig ⟨S_, .f32⟩) (.of main_call2_v9 : StableHlo.TRef sig ⟨S256, .f32⟩) (fun x v => Host.reduceAdd x v reducesTo_S64x256_S256_d0 h_S_),
    StableHlo.TRef.unary (.of main_call2_v9 : StableHlo.TRef sig ⟨S256, .f32⟩) (.of main_call2_v10 : StableHlo.TRef sig ⟨S1x256, .f32⟩) (broadcastInDim S1x256 ![1] bcast_S256_S1x256_1),
    StableHlo.TRef.unary (.of main_call2_v8 : StableHlo.TRef sig ⟨S_, .f32⟩) (.of main_call2_v11 : StableHlo.TRef sig ⟨S1x256, .f32⟩) (broadcastInDim S1x256 ![] bcast_S_S1x256),
    StableHlo.TRef.binary (.of main_call2_v10 : StableHlo.TRef sig ⟨S1x256, .f32⟩) (.of main_call2_v11 : StableHlo.TRef sig ⟨S1x256, .f32⟩) (.of main_call2_v12 : StableHlo.TRef sig ⟨S1x256, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v13 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S1x256, .f32⟩) (broadcastInDim S1x256 ![] bcast_S_S1x256),
    StableHlo.TRef.ternary (.of main_call2_v13 : StableHlo.TRef sig ⟨S_, .i1⟩) (.of main_call2_v12 : StableHlo.TRef sig ⟨S1x256, .f32⟩) (.of main_call2_call0_v1 : StableHlo.TRef sig ⟨S1x256, .f32⟩) (.of main_v101 : StableHlo.TRef sig ⟨S1x256, .f32⟩) (fun p a b => select (broadcastInDim S1x256 ![] bcast_S_S1x256 p) a b) ]

/-- The head: the normalisation, %102 … %108. -/
abbrev pcT3 : List (HloOp τ sig (Elt F)) :=
  [ StableHlo.unary main_v100 main_v102 (broadcastInDim S64x256 ![0, 1] bcast_S1x256_S64x256_0_1 : (⟨S1x256, .f32⟩ : BufTy).Contents (Elt F) → (⟨S64x256, .f32⟩ : BufTy).Contents (Elt F)),
    StableHlo.binary main_v96 main_v102 main_v103 (subf : (⟨S64x256, .f32⟩ : BufTy).Contents (Elt F) → (⟨S64x256, .f32⟩ : BufTy).Contents (Elt F) → (⟨S64x256, .f32⟩ : BufTy).Contents (Elt F)),
    StableHlo.nullary main_cst_23 (constant S_ .f32 0x3727C5AC#32),
    StableHlo.unary main_cst_23 main_v104 (broadcastInDim S1x256 ![] bcast_S_S1x256 : (⟨S_, .f32⟩ : BufTy).Contents (Elt F) → (⟨S1x256, .f32⟩ : BufTy).Contents (Elt F)),
    StableHlo.binary main_v101 main_v104 main_v105 (addf : (⟨S1x256, .f32⟩ : BufTy).Contents (Elt F) → (⟨S1x256, .f32⟩ : BufTy).Contents (Elt F) → (⟨S1x256, .f32⟩ : BufTy).Contents (Elt F)),
    StableHlo.unary main_v105 main_v106 (Host.sqrt : (⟨S1x256, .f32⟩ : BufTy).Contents (Elt F) → (⟨S1x256, .f32⟩ : BufTy).Contents (Elt F)),
    StableHlo.unary main_v106 main_v107 (broadcastInDim S64x256 ![0, 1] bcast_S1x256_S64x256_0_1 : (⟨S1x256, .f32⟩ : BufTy).Contents (Elt F) → (⟨S64x256, .f32⟩ : BufTy).Contents (Elt F)),
    StableHlo.binary main_v103 main_v107 main_v108 (Host.divf : (⟨S64x256, .f32⟩ : BufTy).Contents (Elt F) → (⟨S64x256, .f32⟩ : BufTy).Contents (Elt F) → (⟨S64x256, .f32⟩ : BufTy).Contents (Elt F)) ]

/-- The call of @relu_0 (%109): its body over the call's buffers. -/
abbrev pcT4 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S64x256, .f32⟩) (broadcastInDim S64x256 ![] bcast_S_S64x256),
    StableHlo.TRef.binary (.of main_v108 : StableHlo.TRef sig ⟨S64x256, .f32⟩) (.of main_call3_v0 : StableHlo.TRef sig ⟨S64x256, .f32⟩) (.of main_v109 : StableHlo.TRef sig ⟨S64x256, .f32⟩) maximumf ]

/-- The head: the last dense layer, %110 … %113. -/
abbrev pcT5 : List (HloOp τ sig (Elt F)) :=
  [ StableHlo.binary main_v109 main_arg15 main_v110 ((fun l r => Host.dotGeneral dot_S64x256_S256x2_S64x2_1_0_0_1_n_n none l r) : (⟨S64x256, .f32⟩ : BufTy).Contents (Elt F) → (⟨S256x2, .f32⟩ : BufTy).Contents (Elt F) → (⟨S64x2, .f32⟩ : BufTy).Contents (Elt F)),
    StableHlo.unary main_arg16 main_v111 (broadcastInDim S1x2 ![1] bcast_S2_S1x2_1 : (⟨S2, .f32⟩ : BufTy).Contents (Elt F) → (⟨S1x2, .f32⟩ : BufTy).Contents (Elt F)),
    StableHlo.unary main_v111 main_v112 (broadcastInDim S64x2 ![0, 1] bcast_S1x2_S64x2_0_1 : (⟨S1x2, .f32⟩ : BufTy).Contents (Elt F) → (⟨S64x2, .f32⟩ : BufTy).Contents (Elt F)),
    StableHlo.binary main_v110 main_v112 main_v113 (addf : (⟨S64x2, .f32⟩ : BufTy).Contents (Elt F) → (⟨S64x2, .f32⟩ : BufTy).Contents (Elt F) → (⟨S64x2, .f32⟩ : BufTy).Contents (Elt F)) ]

/-- The first window of @main is four lists in a row, the last in tail position. -/
theorem main_part0_chain (c : Dev nD) : main_part0 (F := F) c = (Pipeline.chainK
  [ StableHlo.seq opsA1, StableHlo.seq pcL1, StableHlo.seq pcR1 ]
  (StableHlo.seq pcA2a) : Prog (TpuEff nD τ sig (Elt F) (Pipeline.Sig Λ₀ (Fin 0) fun p => (pcfgs (F := F) p).Adm) .tc) PUnit) := by
  chain_rfl

/-- The second window of @main is six lists in a row, the last in tail position. -/
theorem main_part1_chain (c : Dev nD) : main_part1 (F := F) c = (Pipeline.chainK
  [ StableHlo.seq pcA2b, StableHlo.seq pcL2, StableHlo.seq pcR2, StableHlo.seq opsA3, StableHlo.seq opsB3 ]
  (StableHlo.seq pcT0) : Prog (TpuEff nD τ sig (Elt F) (Pipeline.Sig Λ₀ (Fin 0) fun p => (pcfgs (F := F) p).Adm) .tc) PUnit) := by
  chain_rfl

/-- The last window of @main is five lists in a row. -/
theorem main_part2_chain (c : Dev nD) : main_part2 (F := F) c = (Pipeline.chain
  [ StableHlo.seq pcT1, StableHlo.seq pcT2, StableHlo.seq pcT3, StableHlo.seq pcT4, StableHlo.seq pcT5 ] : Prog (TpuEff nD τ sig (Elt F) (Pipeline.Sig Λ₀ (Fin 0) fun p => (pcfgs (F := F) p).Adm) .tc) PUnit) := by
  chain_rfl

/-- The fifteen lists the windows and the calls cut @main into, in order. -/
abbrev pieces : List (List (HloOp τ sig (Elt F))) :=
  [opsA1, pcL1, pcR1, pcA2a, pcA2b, pcL2, pcR2, opsA3, opsB3, pcT0, pcT1, pcT2, pcT3, pcT4, pcT5]

/-- @main is the fifteen lists run one after the other. -/
theorem main_chain (c : Dev nD) : main (F := F) c = (Pipeline.chain (pieces.map StableHlo.seq) : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  rfl

/-- All 168 operations of @main, its calls inlined: the seven lists end to end. -/
abbrev ops : List (HloOp τ sig (Elt F)) := opsA1 ++ (opsB1 ++ (opsA2 ++ (opsB2 ++ (opsA3 ++ (opsB3 ++ opsT)))))

/-- The fifteen lists end to end are the seven end to end: the same 168 operations in the same order. -/
theorem pieces_flatten : (pieces : List (List (HloOp τ sig (Elt F)))).flatten = ops := by
  chain_rfl

/-- @main is the one line of the seven lists end to end. -/
theorem main_eq (c : Dev nD) : main (F := F) c
    = StableHlo.seq (opsA1 ++ (opsB1 ++ (opsA2 ++ (opsB2 ++ (opsA3 ++ (opsB3 ++ opsT)))))) :=
  (main_chain c).trans ((StableHlo.chain_map_seq _).trans (congrArg StableHlo.seq pieces_flatten))

/-- Each of the 168 touches TensorCore references only. -/
theorem ops_sub : (ops : List (HloOp τ sig (Elt F))).Forall fun op => op.bufs ⊆ StableHlo.tcRefs τ sig :=
  StableHlo.forall_append opsA1_sub (StableHlo.forall_append opsB1_sub (StableHlo.forall_append opsA2_sub
    (StableHlo.forall_append opsB2_sub (StableHlo.forall_append opsA3_sub (StableHlo.forall_append opsB3_sub opsT_sub)))))

/-- Each of the 168 determines its results. -/
theorem ops_fresh : (ops : List (HloOp τ sig (Elt F))).Forall fun op => op.fresh = ∅ :=
  StableHlo.forall_append opsA1_fresh (StableHlo.forall_append opsB1_fresh (StableHlo.forall_append opsA2_fresh
    (StableHlo.forall_append opsB2_fresh (StableHlo.forall_append opsA3_fresh (StableHlo.forall_append opsB3_fresh opsT_fresh)))))

end Cert.ReferenceIdeal.RefRun

end
-- ==== Proof.LibTypedRefs.lean ====
/-
  Reading a straight line of host operations back, one stretch at a time.

  * The contents after two lists of operations run one after the other are the second list's fold from the first
    list's (`after_append`): a long line is read a stretch at a time, the few buffers a later stretch reads named
    before it reads them, instead of one term in which every shared intermediate is written out once per use.
  * An operation inside a called function reads and writes its buffers through a typed reference: the value is
    transported along the equation "the buffer's type is the value's type". At a literal reference whose declared type
    is the buffer's own the transport is the identity, in both directions (`ofBuf_self`, `toBuf_self`). Rewrite with
    these (by `rw`: they are stated at `T := r.ty`, which a syntactic matcher does not see through) BEFORE comparing the
    read-back term with a closed form: with a transport left around a selection or a comparison, deciding the
    selection's condition forces the operands — a scatter over every edge, say — at a symbolic index.
-/
import Idealize.ShloMosaic.Lib.StableHlo.Run

noncomputable section

namespace Idealize.ShloMosaic.StableHlo

variable {nD : Nat} {τ : Topo} {sig : RefSig} {Val : EltTy → Type}

/-- The contents after two lists run one after the other: the second list's fold from the first list's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents read through a literal reference at the buffer's own type are the contents. -/
theorem TRef.ofBuf_self (r : Ref sig .tc) (h : r.ty = r.ty) (hd : r.space ≠ .host) (hu : r.isScoped = false)
    (v : r.ty.Contents Val) : (TRef.of (T := r.ty) r h hd hu).ofBuf v = v := rfl

/-- Contents written through a literal reference at the buffer's own type are the contents. -/
theorem TRef.toBuf_self (r : Ref sig .tc) (h : r.ty = r.ty) (hd : r.space ≠ .host) (hu : r.isScoped = false)
    (v : r.ty.Contents Val) : (TRef.of (T := r.ty) r h hd hu).toBuf v = v := rfl

end Idealize.ShloMosaic.StableHlo

end
-- ==== Proof.RefRun.lean ====
/-
  The run of the reference program, with nothing read back: every weakly fair execution of @main terminates, the
  result buffer holds the seven lists' folds — one inside the other — of the contents the device held at launch,
  and every argument holds what it held at launch, no operation writing an argument.
-/
import proofs.«143133_j27693949125044_1_alg».proof.Proof.RefMain
import proofs.«143133_j27693949125044_1_alg».proof.Proof.LibTypedRefs

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- A reference in a list is, as a device buffer, in the list's set of device buffers. -/
theorem writes_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The references `opsA1` writes: each operation's result, in order. -/
abbrev wA1 : List (Ref sig .tc) :=
  [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22]

theorem opsA1_writes : (opsA1 : List (HloOp τ sig (Elt F))).Forall fun op => op.writes ⊆ ((wA1).map (Proc.devRef (τ := τ) .tc)).toFinset :=
  ⟨writes_mem (y := main_v0) (by decide), writes_mem (y := main_v1) (by decide), writes_mem (y := main_v2) (by decide), writes_mem (y := main_v3) (by decide), writes_mem (y := main_c) (by decide), writes_mem (y := main_v4) (by decide), writes_mem (y := main_v5) (by decide), writes_mem (y := main_c_0) (by decide), writes_mem (y := main_v6) (by decide), writes_mem (y := main_v7) (by decide), writes_mem (y := main_v8) (by decide), writes_mem (y := main_v9) (by decide), writes_mem (y := main_v10) (by decide), writes_mem (y := main_cst) (by decide), writes_mem (y := main_v11) (by decide), writes_mem (y := main_v12) (by decide), writes_mem (y := main_v13) (by decide), writes_mem (y := main_cst_1) (by decide), writes_mem (y := main_v14) (by decide), writes_mem (y := main_cst_2) (by decide), writes_mem (y := main_v15) (by decide), writes_mem (y := main_v16) (by decide), writes_mem (y := main_v17) (by decide), writes_mem (y := main_cst_3) (by decide), writes_mem (y := main_v18) (by decide), writes_mem (y := main_v19) (by decide), writes_mem (y := main_v20) (by decide), writes_mem (y := main_v21) (by decide), writes_mem (y := main_v22) (by decide)⟩

/-- The references `opsB1` writes: each operation's result, in order. -/
abbrev wB1 : List (Ref sig .tc) :=
  [main_v23, main_v24, main_v25, main_v26, main_v27, main_v28, main_call0_cst, main_call0_v0, main_v29]

theorem opsB1_writes : (opsB1 : List (HloOp τ sig (Elt F))).Forall fun op => op.writes ⊆ ((wB1).map (Proc.devRef (τ := τ) .tc)).toFinset :=
  ⟨writes_mem (y := main_v23) (by decide), writes_mem (y := main_v24) (by decide), writes_mem (y := main_v25) (by decide), writes_mem (y := main_v26) (by decide), writes_mem (y := main_v27) (by decide), writes_mem (y := main_v28) (by decide), writes_mem (y := main_call0_cst) (by decide), writes_mem (y := main_call0_v0) (by decide), writes_mem (y := main_v29) (by decide)⟩

/-- The references `opsA2` writes: each operation's result, in order. -/
abbrev wA2 : List (Ref sig .tc) :=
  [main_c_4, main_v30, main_v31, main_c_5, main_v32, main_v33, main_v34, main_v35, main_v36, main_cst_6, main_v37, main_v38, main_v39, main_cst_7, main_v40, main_cst_8, main_v41, main_v42, main_v43, main_cst_9, main_v44, main_v45, main_v46, main_v47, main_v48]

theorem opsA2_writes : (opsA2 : List (HloOp τ sig (Elt F))).Forall fun op => op.writes ⊆ ((wA2).map (Proc.devRef (τ := τ) .tc)).toFinset :=
  ⟨writes_mem (y := main_c_4) (by decide), writes_mem (y := main_v30) (by decide), writes_mem (y := main_v31) (by decide), writes_mem (y := main_c_5) (by decide), writes_mem (y := main_v32) (by decide), writes_mem (y := main_v33) (by decide), writes_mem (y := main_v34) (by decide), writes_mem (y := main_v35) (by decide), writes_mem (y := main_v36) (by decide), writes_mem (y := main_cst_6) (by decide), writes_mem (y := main_v37) (by decide), writes_mem (y := main_v38) (by decide), writes_mem (y := main_v39) (by decide), writes_mem (y := main_cst_7) (by decide), writes_mem (y := main_v40) (by decide), writes_mem (y := main_cst_8) (by decide), writes_mem (y := main_v41) (by decide), writes_mem (y := main_v42) (by decide), writes_mem (y := main_v43) (by decide), writes_mem (y := main_cst_9) (by decide), writes_mem (y := main_v44) (by decide), writes_mem (y := main_v45) (by decide), writes_mem (y := main_v46) (by decide), writes_mem (y := main_v47) (by decide), writes_mem (y := main_v48) (by decide)⟩

/-- The references `opsB2` writes: each operation's result, in order. -/
abbrev wB2 : List (Ref sig .tc) :=
  [main_v49, main_v50, main_v51, main_v52, main_v53, main_v54, main_call1_cst, main_call1_v0, main_v55]

theorem opsB2_writes : (opsB2 : List (HloOp τ sig (Elt F))).Forall fun op => op.writes ⊆ ((wB2).map (Proc.devRef (τ := τ) .tc)).toFinset :=
  ⟨writes_mem (y := main_v49) (by decide), writes_mem (y := main_v50) (by decide), writes_mem (y := main_v51) (by decide), writes_mem (y := main_v52) (by decide), writes_mem (y := main_v53) (by decide), writes_mem (y := main_v54) (by decide), writes_mem (y := main_call1_cst) (by decide), writes_mem (y := main_call1_v0) (by decide), writes_mem (y := main_v55) (by decide)⟩

/-- The references `opsA3` writes: each operation's result, in order. -/
abbrev wA3 : List (Ref sig .tc) :=
  [main_c_10, main_v56, main_v57, main_c_11, main_v58, main_v59, main_v60, main_v61, main_v62, main_cst_12, main_v63, main_v64, main_v65, main_cst_13, main_v66, main_cst_14, main_v67, main_v68, main_v69, main_cst_15, main_v70, main_v71, main_v72, main_v73, main_v74]

theorem opsA3_writes : (opsA3 : List (HloOp τ sig (Elt F))).Forall fun op => op.writes ⊆ ((wA3).map (Proc.devRef (τ := τ) .tc)).toFinset :=
  ⟨writes_mem (y := main_c_10) (by decide), writes_mem (y := main_v56) (by decide), writes_mem (y := main_v57) (by decide), writes_mem (y := main_c_11) (by decide), writes_mem (y := main_v58) (by decide), writes_mem (y := main_v59) (by decide), writes_mem (y := main_v60) (by decide), writes_mem (y := main_v61) (by decide), writes_mem (y := main_v62) (by decide), writes_mem (y := main_cst_12) (by decide), writes_mem (y := main_v63) (by decide), writes_mem (y := main_v64) (by decide), writes_mem (y := main_v65) (by decide), writes_mem (y := main_cst_13) (by decide), writes_mem (y := main_v66) (by decide), writes_mem (y := main_cst_14) (by decide), writes_mem (y := main_v67) (by decide), writes_mem (y := main_v68) (by decide), writes_mem (y := main_v69) (by decide), writes_mem (y := main_cst_15) (by decide), writes_mem (y := main_v70) (by decide), writes_mem (y := main_v71) (by decide), writes_mem (y := main_v72) (by decide), writes_mem (y := main_v73) (by decide), writes_mem (y := main_v74) (by decide)⟩

/-- The references `opsB3` writes: each operation's result, in order. -/
abbrev wB3 : List (Ref sig .tc) :=
  [main_v75, main_v76, main_v77, main_v78, main_v79, main_v80]

theorem opsB3_writes : (opsB3 : List (HloOp τ sig (Elt F))).Forall fun op => op.writes ⊆ ((wB3).map (Proc.devRef (τ := τ) .tc)).toFinset :=
  ⟨writes_mem (y := main_v75) (by decide), writes_mem (y := main_v76) (by decide), writes_mem (y := main_v77) (by decide), writes_mem (y := main_v78) (by decide), writes_mem (y := main_v79) (by decide), writes_mem (y := main_v80) (by decide)⟩

/-- The references `opsT` writes: each operation's result, in order. -/
abbrev wT : List (Ref sig .tc) :=
  [main_cst_16, main_v81, main_v82, main_v83, main_cst_17, main_v84, main_cst_18, main_v85, main_v86, main_v87, main_cst_19, main_v88, main_v89, main_v90, main_v91, main_v92, main_v93, main_v94, main_v95, main_v96, main_cst_20, main_v97, main_v98, main_cst_21, main_v99, main_v100, main_c_22, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v101, main_v102, main_v103, main_cst_23, main_v104, main_v105, main_v106, main_v107, main_v108, main_call3_cst, main_call3_v0, main_v109, main_v110, main_v111, main_v112, main_v113]

theorem opsT_writes : (opsT : List (HloOp τ sig (Elt F))).Forall fun op => op.writes ⊆ ((wT).map (Proc.devRef (τ := τ) .tc)).toFinset :=
  ⟨writes_mem (y := main_cst_16) (by decide), writes_mem (y := main_v81) (by decide), writes_mem (y := main_v82) (by decide), writes_mem (y := main_v83) (by decide), writes_mem (y := main_cst_17) (by decide), writes_mem (y := main_v84) (by decide), writes_mem (y := main_cst_18) (by decide), writes_mem (y := main_v85) (by decide), writes_mem (y := main_v86) (by decide), writes_mem (y := main_v87) (by decide), writes_mem (y := main_cst_19) (by decide), writes_mem (y := main_v88) (by decide), writes_mem (y := main_v89) (by decide), writes_mem (y := main_v90) (by decide), writes_mem (y := main_v91) (by decide), writes_mem (y := main_v92) (by decide), writes_mem (y := main_v93) (by decide), writes_mem (y := main_v94) (by decide), writes_mem (y := main_v95) (by decide), writes_mem (y := main_v96) (by decide), writes_mem (y := main_cst_20) (by decide), writes_mem (y := main_v97) (by decide), writes_mem (y := main_v98) (by decide), writes_mem (y := main_cst_21) (by decide), writes_mem (y := main_v99) (by decide), writes_mem (y := main_v100) (by decide), writes_mem (y := main_c_22) (by decide), writes_mem (y := main_call2_cst) (by decide), writes_mem (y := main_call2_v0) (by decide), writes_mem (y := main_call2_v1) (by decide), writes_mem (y := main_call2_cst_0) (by decide), writes_mem (y := main_call2_v2) (by decide), writes_mem (y := main_call2_v3) (by decide), writes_mem (y := main_call2_v4) (by decide), writes_mem (y := main_call2_v5) (by decide), writes_mem (y := main_call2_v6) (by decide), writes_mem (y := main_call2_v7) (by decide), writes_mem (y := main_call2_cst_1) (by decide), writes_mem (y := main_call2_v8) (by decide), writes_mem (y := main_call2_cst_2) (by decide), writes_mem (y := main_call2_v9) (by decide), writes_mem (y := main_call2_v10) (by decide), writes_mem (y := main_call2_v11) (by decide), writes_mem (y := main_call2_v12) (by decide), writes_mem (y := main_call2_cst_3) (by decide), writes_mem (y := main_call2_v13) (by decide), writes_mem (y := main_call2_cst_4) (by decide), writes_mem (y := main_call2_call0_v0) (by decide), writes_mem (y := main_call2_call0_v1) (by decide), writes_mem (y := main_v101) (by decide), writes_mem (y := main_v102) (by decide), writes_mem (y := main_v103) (by decide), writes_mem (y := main_cst_23) (by decide), writes_mem (y := main_v104) (by decide), writes_mem (y := main_v105) (by decide), writes_mem (y := main_v106) (by decide), writes_mem (y := main_v107) (by decide), writes_mem (y := main_v108) (by decide), writes_mem (y := main_call3_cst) (by decide), writes_mem (y := main_call3_v0) (by decide), writes_mem (y := main_v109) (by decide), writes_mem (y := main_v110) (by decide), writes_mem (y := main_v111) (by decide), writes_mem (y := main_v112) (by decide), writes_mem (y := main_v113) (by decide)⟩

/-- A reference none of the seven lists writes holds after all of them what it held before. -/
theorem kept {r : Ref sig .tc} (h0 : r ∉ wA1) (h1 : r ∉ wB1) (h2 : r ∉ wA2) (h3 : r ∉ wB2) (h4 : r ∉ wA3) (h5 : r ∉ wB3) (h6 : r ∉ wT)
    (V : Valuation τ sig (Elt F)) :
    StableHlo.after opsT (StableHlo.after opsB3 (StableHlo.after opsA3 (StableHlo.after opsB2 (StableHlo.after opsA2 (StableHlo.after opsB1 (StableHlo.after opsA1 (V))))))) (Proc.devRef .tc r) = V (Proc.devRef .tc r) := by
  rw [StableHlo.after_of_writes_sub opsT _ opsT_writes h6,
    StableHlo.after_of_writes_sub opsB3 _ opsB3_writes h5,
    StableHlo.after_of_writes_sub opsA3 _ opsA3_writes h4,
    StableHlo.after_of_writes_sub opsB2 _ opsB2_writes h3,
    StableHlo.after_of_writes_sub opsA2 _ opsA2_writes h2,
    StableHlo.after_of_writes_sub opsB1 _ opsB1_writes h1,
    StableHlo.after_of_writes_sub opsA1 _ opsA1_writes h0]

/-- The contents after the whole line are the seven lists' folds, one inside the other. -/
theorem after_ops (V : Valuation τ sig (Elt F)) :
    StableHlo.after ops V = StableHlo.after opsT (StableHlo.after opsB3 (StableHlo.after opsA3 (StableHlo.after opsB2 (StableHlo.after opsA2 (StableHlo.after opsB1 (StableHlo.after opsA1 (V))))))) := by
  simp only [ops, StableHlo.after_append]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of
    @main terminates with the result buffer at the seven lists' folds, one inside the other, of the launch
    contents, and with each argument unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v113)
        = StableHlo.after opsT (StableHlo.after opsB3 (StableHlo.after opsA3 (StableHlo.after opsB2 (StableHlo.after opsA2 (StableHlo.after opsB1 (StableHlo.after opsA1 (fun b => m ((c : Dev nD), b)))))))) (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v113).trans (congrFun (after_ops _) _),
      (h c main_arg0).trans ((congrFun (after_ops _) _).trans (kept (by decide) (by decide) (by decide) (by decide) (by decide) (by decide) (by decide) _)),
      (h c main_arg1).trans ((congrFun (after_ops _) _).trans (kept (by decide) (by decide) (by decide) (by decide) (by decide) (by decide) (by decide) _)),
      (h c main_arg2).trans ((congrFun (after_ops _) _).trans (kept (by decide) (by decide) (by decide) (by decide) (by decide) (by decide) (by decide) _)),
      (h c main_arg3).trans ((congrFun (after_ops _) _).trans (kept (by decide) (by decide) (by decide) (by decide) (by decide) (by decide) (by decide) _)),
      (h c main_arg4).trans ((congrFun (after_ops _) _).trans (kept (by decide) (by decide) (by decide) (by decide) (by decide) (by decide) (by decide) _)),
      (h c main_arg5).trans ((congrFun (after_ops _) _).trans (kept (by decide) (by decide) (by decide) (by decide) (by decide) (by decide) (by decide) _)),
      (h c main_arg6).trans ((congrFun (after_ops _) _).trans (kept (by decide) (by decide) (by decide) (by decide) (by decide) (by decide) (by decide) _)),
      (h c main_arg7).trans ((congrFun (after_ops _) _).trans (kept (by decide) (by decide) (by decide) (by decide) (by decide) (by decide) (by decide) _)),
      (h c main_arg8).trans ((congrFun (after_ops _) _).trans (kept (by decide) (by decide) (by decide) (by decide) (by decide) (by decide) (by decide) _)),
      (h c main_arg9).trans ((congrFun (after_ops _) _).trans (kept (by decide) (by decide) (by decide) (by decide) (by decide) (by decide) (by decide) _)),
      (h c main_arg10).trans ((congrFun (after_ops _) _).trans (kept (by decide) (by decide) (by decide) (by decide) (by decide) (by decide) (by decide) _)),
      (h c main_arg11).trans ((congrFun (after_ops _) _).trans (kept (by decide) (by decide) (by decide) (by decide) (by decide) (by decide) (by decide) _)),
      (h c main_arg12).trans ((congrFun (after_ops _) _).trans (kept (by decide) (by decide) (by decide) (by decide) (by decide) (by decide) (by decide) _)),
      (h c main_arg13).trans ((congrFun (after_ops _) _).trans (kept (by decide) (by decide) (by decide) (by decide) (by decide) (by decide) (by decide) _)),
      (h c main_arg14).trans ((congrFun (after_ops _) _).trans (kept (by decide) (by decide) (by decide) (by decide) (by decide) (by decide) (by decide) _)),
      (h c main_arg15).trans ((congrFun (after_ops _) _).trans (kept (by decide) (by decide) (by decide) (by decide) (by decide) (by decide) (by decide) _)),
      (h c main_arg16).trans ((congrFun (after_ops _) _).trans (kept (by decide) (by decide) (by decide) (by decide) (by decide) (by decide) (by decide) _))⟩)
    (StableHlo.run_seq scopedRefs_eq scopedSems_eq defs main (fun _ => ops) main_eq (fun _ => ops_sub) m ρ
      (fun _ => List.forall_iff_forall_mem.mp ops_fresh))

end Cert.ReferenceIdeal.RefRun

end
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.LibNodeLayer.lean ====
/-
  One layer of a node-wise graph network — a neighbourhood mean and the node's own features, each multiplied into a
  weight matrix stored output-major, plus a bias; optionally a per-column affine normalisation and a clamp at zero —
  read at an index over the extended reals, for any extents.

  * `linAt agg x wl wr b r j` is entry `(r, j)` of `agg · wlᵀ + x · wrᵀ + b`: row `r` of `agg` against row `j` of `wl`,
    row `r` of `x` against row `j` of `wr`, and entry `j` of the bias.
  * `normAt z g be mu var j` is `max ((z − mu j) · (g j · (var j + ε)^(−1/2)) + be j) 0`.

  A tiled kernel's body (two products into the zero accumulator per row block, the operands narrowed to bf16 on the way
  in — nothing, on extended reals —, the weights transposed in registers, every per-column vector made a row and
  broadcast down the block) and the host's operations (two `dot_general`s against transposed weights, the per-column
  vectors broadcast in two steps) both read, at an index, as these terms. The host adds the bias before the second
  product and the kernel after it: addition of extended reals is commutative and associative, with no finiteness
  needed, and that is the one law used.
-/
import proofs.«143133_j27693949125044_1_alg».proof.Proof.LibRowOps

noncomputable section

open scoped BigOperators

namespace Idealize.ShloMosaic.NodeLayer

open Idealize.ShloMosaic Idealize.ShloMosaic.ValueIdx

variable {α : Type}

/-! ## Layout pieces -/

/-- A `[b, a]` array transposed to `[a, b]` reads, at `(k, j)`, the operand at `(j, k)`. -/
theorem transpose_ba_ab_apply {a b : ℕ} (x : (⟨2, ![b, a]⟩ : Shape).Idx → α)
    (h : (⟨2, ![b, a]⟩ : Shape).Transposes [1, 0] ⟨2, ![a, b]⟩) (k : Fin a) (j : Fin b) :
    transpose ⟨2, ![a, b]⟩ [1, 0] x h (ix2 k j) = x (ix2 j k) :=
  transpose_apply [1, 0] x h (ix2 k j) (ix2 j k) fun c => by
    match c with
    | ⟨0, _⟩ => rfl
    | ⟨1, _⟩ => rfl

/-- A per-column vector `[n]` made a row and broadcast down `m` rows (the kernel's way: a shape cast, then a vector
    broadcast) reads, at `(p, q)`, the vector at `q`. -/
theorem row_body_apply {n m : ℕ} (v : (⟨1, ![n]⟩ : Shape).Idx → α)
    (hs : (⟨1, ![n]⟩ : Shape).ShapeCasts ⟨2, ![1, n]⟩) (hb : (⟨2, ![1, n]⟩ : Shape).Broadcasts ⟨2, ![m, n]⟩)
    (p : Fin m) (q : Fin n) :
    broadcastTo (⟨2, ![m, n]⟩ : Shape) (shapeCast (⟨2, ![1, n]⟩ : Shape) v hs) hb (ix2 p q) = v (ix1 q) := by
  rw [broadcastTo_1b_ab_apply, shapeCast_a_1a_apply]

/-- The same vector made a row and broadcast down `m` rows the host's way (two `broadcast_in_dim`s) reads, at
    `(p, q)`, the vector at `q`. -/
theorem row_host_apply {n m : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    broadcastInDim (⟨2, ![m, n]⟩ : Shape) ![0, 1] h2 (broadcastInDim (⟨2, ![1, n]⟩ : Shape) ![1] h1 v) (ix2 p q)
      = v (ix1 q) := by
  rw [broadcastInDim_apply ![0, 1] h2 _ (ix2 p q) (ix2 (0 : Fin 1) q) (fun a => by
    match a with
    | ⟨0, _⟩ => show (0 : Nat) = if (1 : Nat) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun a => by
    match a with
    | ⟨0, _⟩ =>
      show q.val = if n = 1 then 0 else q.val
      split
      · have := q.isLt; omega
      · rfl)

/-! ## The layer, entry by entry -/

/-- Entry `(r, j)` of `agg · wlᵀ + x · wrᵀ + b`, the weights `[B, A]` (one row per output column). -/
def linAt {R A B : ℕ} (agg x : FVec Ideal (⟨2, ![R, A]⟩ : Shape) .f32) (wl wr : FVec Ideal (⟨2, ![B, A]⟩ : Shape) .f32)
    (b : FVec Ideal (⟨1, ![B]⟩ : Shape) .f32) (r : Fin R) (j : Fin B) : Ideal .f32 :=
  (∑ k : Fin A, agg (ix2 r k) * wl (ix2 j k)) + (∑ k : Fin A, x (ix2 r k) * wr (ix2 j k)) + b (ix1 j)

/-- The per-column normalisation and clamp of one entry `z` of column `j`:
    `max ((z − mu j) · (g j · (var j + ε)^(−1/2)) + be j) 0`, `ε` the f32 nearest to `1e-5`. -/
def normAt {B : ℕ} (z : Ideal .f32) (g be mu var : FVec Ideal (⟨1, ![B]⟩ : Shape) .f32) (j : Fin B) : Ideal .f32 :=
  max ((z - mu (ix1 j)) * (g (ix1 j) * Ideal.rsqrt (var (ix1 j) + Ideal.ofBits .f32 0x3727C5AC#32)) + be (ix1 j))
    (Ideal.ofBits .f32 0x00000000#32)

/-- An entry of the linear part reads one row of each activation array: two instances that agree there are equal. -/
theorem linAt_congr {R R' A B : ℕ} {agg x : FVec Ideal (⟨2, ![R, A]⟩ : Shape) .f32}
    {agg' x' : FVec Ideal (⟨2, ![R', A]⟩ : Shape) .f32} {wl wr : FVec Ideal (⟨2, ![B, A]⟩ : Shape) .f32}
    {b : FVec Ideal (⟨1, ![B]⟩ : Shape) .f32} {r : Fin R} {r' : Fin R'} (j : Fin B)
    (ha : ∀ k, agg (ix2 r k) = agg' (ix2 r' k)) (hx : ∀ k, x (ix2 r k) = x' (ix2 r' k)) :
    linAt agg x wl wr b r j = linAt agg' x' wl wr b r' j := by
  unfold linAt
  simp only [ha, hx]

/-- The whole layer with normalisation, as one array: entry `(r, j)` is `normAt` of `linAt`. -/
def normLayer {R A B : ℕ} (agg x : FVec Ideal (⟨2, ![R, A]⟩ : Shape) .f32) (wl wr : FVec Ideal (⟨2, ![B, A]⟩ : Shape) .f32)
    (b g be mu var : FVec Ideal (⟨1, ![B]⟩ : Shape) .f32) : FVec Ideal (⟨2, ![R, B]⟩ : Shape) .f32 :=
  fun i => normAt (linAt agg x wl wr b (i 0) (i 1)) g be mu var (i 1)

/-- The whole linear layer as one array. -/
def linLayer {R A B : ℕ} (agg x : FVec Ideal (⟨2, ![R, A]⟩ : Shape) .f32) (wl wr : FVec Ideal (⟨2, ![B, A]⟩ : Shape) .f32)
    (b : FVec Ideal (⟨1, ![B]⟩ : Shape) .f32) : FVec Ideal (⟨2, ![R, B]⟩ : Shape) .f32 :=
  fun i => linAt agg x wl wr b (i 0) (i 1)

/-- Row `r` of a block against row `r'` of the whole arrays: the normalised layer's entries agree when the two rows of
    each activation array do and the weights and per-column vectors are the same. -/
theorem normLin_congr {R R' A B : ℕ} {agg x : FVec Ideal (⟨2, ![R, A]⟩ : Shape) .f32}
    {agg' x' : FVec Ideal (⟨2, ![R', A]⟩ : Shape) .f32} {wl wr wl' wr' : FVec Ideal (⟨2, ![B, A]⟩ : Shape) .f32}
    {b g be mu var b' g' be' mu' var' : FVec Ideal (⟨1, ![B]⟩ : Shape) .f32} {r : Fin R} {r' : Fin R'} (j : Fin B)
    (ha : ∀ k, agg (ix2 r k) = agg' (ix2 r' k)) (hx : ∀ k, x (ix2 r k) = x' (ix2 r' k))
    (hwl : wl = wl') (hwr : wr = wr') (hb : b = b') (hg : g = g') (hbe : be = be') (hmu : mu = mu') (hvar : var = var') :
    normAt (linAt agg x wl wr b r j) g be mu var j = normAt (linAt agg' x' wl' wr' b' r' j) g' be' mu' var' j := by
  subst hwl hwr hb hg hbe hmu hvar
  rw [linAt_congr j ha hx]

/-- The same for the linear layer alone. -/
theorem lin_congr {R R' A B : ℕ} {agg x : FVec Ideal (⟨2, ![R, A]⟩ : Shape) .f32}
    {agg' x' : FVec Ideal (⟨2, ![R', A]⟩ : Shape) .f32} {wl wr wl' wr' : FVec Ideal (⟨2, ![B, A]⟩ : Shape) .f32}
    {b b' : FVec Ideal (⟨1, ![B]⟩ : Shape) .f32} {r : Fin R} {r' : Fin R'} (j : Fin B)
    (ha : ∀ k, agg (ix2 r k) = agg' (ix2 r' k)) (hx : ∀ k, x (ix2 r k) = x' (ix2 r' k))
    (hwl : wl = wl') (hwr : wr = wr') (hb : b = b') :
    linAt agg x wl wr b r j = linAt agg' x' wl' wr' b' r' j := by
  subst hwl hwr hb
  exact linAt_congr j ha hx

/-- The zero offsets of a whole-block access, rank 2 and rank 1. -/
theorem zero_offsets2 : (![0, 0] : Fin 2 → Nat) = fun _ => 0 := funext fun a => by fin_cases a <;> rfl
theorem zero_offsets1 : (![0] : Fin 1 → Nat) = fun _ => 0 := funext fun a => by fin_cases a; rfl

/-! ## The kernel's body -/

/-- The linear part of the body on one row block. -/
theorem lin_body_apply {R A B : ℕ}
    (d : DotDims (⟨2, ![R, A]⟩ : Shape) ⟨2, ![A, B]⟩ ⟨2, ![R, B]⟩) (hd : ∃ wf, d = RowOps.plainDims wf)
    (agg x : FVec Ideal (⟨2, ![R, A]⟩ : Shape) .f32) (wl wr : FVec Ideal (⟨2, ![B, A]⟩ : Shape) .f32)
    (b : FVec Ideal (⟨1, ![B]⟩ : Shape) .f32)
    (ht : (⟨2, ![B, A]⟩ : Shape).Transposes [1, 0] ⟨2, ![A, B]⟩)
    (hs : (⟨1, ![B]⟩ : Shape).ShapeCasts ⟨2, ![1, B]⟩) (hb : (⟨2, ![1, B]⟩ : Shape).Broadcasts ⟨2, ![R, B]⟩)
    (hlt : FTy.bf16.bits < FTy.f32.bits) (r : Fin R) (j : Fin B) :
    addf (addf (matmul d none (truncf .bf16 agg hlt) (transpose _ [1, 0] (truncf .bf16 wl hlt) ht) (constant _ .f32 0x00000000#32))
          (matmul d none (truncf .bf16 x hlt) (transpose _ [1, 0] (truncf .bf16 wr hlt) ht) (constant _ .f32 0x00000000#32)))
        (broadcastTo _ (shapeCast _ b hs) hb) (ix2 r j)
      = linAt agg x wl wr b r j := by
  rw [addf_apply, addf_apply, row_body_apply]
  unfold matmul
  rw [RowOps.matmul_zero_plain_apply d hd, RowOps.matmul_zero_plain_apply d hd]
  unfold linAt
  refine congrArg₂ (· + ·) (congrArg₂ (· + ·) (Finset.sum_congr rfl fun k _ => ?_) (Finset.sum_congr rfl fun k _ => ?_)) rfl
  · rw [transpose_ba_ab_apply]; rfl
  · rw [transpose_ba_ab_apply]; rfl

/-- The normalisation and clamp of the body on one row block, over any pre-activation `z`. -/
theorem norm_body_apply {R B : ℕ} (z : FVec Ideal (⟨2, ![R, B]⟩ : Shape) .f32)
    (g be mu var : FVec Ideal (⟨1, ![B]⟩ : Shape) .f32)
    (hs : (⟨1, ![B]⟩ : Shape).ShapeCasts ⟨2, ![1, B]⟩) (hb : (⟨2, ![1, B]⟩ : Shape).Broadcasts ⟨2, ![R, B]⟩)
    (r : Fin R) (j : Fin B) :
    maximumf (addf (mulf (subf z (broadcastTo _ (shapeCast _ mu hs) hb))
          (broadcastTo _ (mulf (shapeCast _ g hs)
            (rsqrt (addf (shapeCast _ var hs) (broadcast _ (Scalar.ofBits (F := Ideal) .f32 0x3727C5AC#32))))) hb))
        (broadcastTo _ (shapeCast _ be hs) hb))
      (broadcast _ (Scalar.ofBits (F := Ideal) .f32 0x00000000#32)) (ix2 r j)
      = normAt (z (ix2 r j)) g be mu var j := by
  rw [maximumf_apply, addf_apply, mulf_apply, subf_apply, row_body_apply, row_body_apply, broadcastTo_1b_ab_apply,
    mulf_apply, shapeCast_a_1a_apply]
  show max ((z (ix2 r j) - mu (ix1 j)) * (g (ix1 j) * Ideal.rsqrt (shapeCast _ var hs (ix2 (0 : Fin 1) j) + _)) + be (ix1 j)) _ = _
  rw [shapeCast_a_1a_apply]
  rfl

/-! ## The host's operations -/

/-- The linear part the host's way; the bias is added before the second product, which is the same sum. -/
theorem lin_host_apply {R A B : ℕ}
    (d : DotDims (⟨2, ![R, A]⟩ : Shape) ⟨2, ![A, B]⟩ ⟨2, ![R, B]⟩) (hd : ∃ wf, d = RowOps.plainDims wf)
    (agg x : FVec Ideal (⟨2, ![R, A]⟩ : Shape) .f32) (wl wr : FVec Ideal (⟨2, ![B, A]⟩ : Shape) .f32)
    (b : FVec Ideal (⟨1, ![B]⟩ : Shape) .f32)
    (ht : (⟨2, ![B, A]⟩ : Shape).Transposes [1, 0] ⟨2, ![A, B]⟩)
    (h1 : (⟨1, ![B]⟩ : Shape).BroadcastsInDim ⟨2, ![1, B]⟩ ![1])
    (h2 : (⟨2, ![1, B]⟩ : Shape).BroadcastsInDim ⟨2, ![R, B]⟩ ![0, 1]) (r : Fin R) (j : Fin B) :
    addf (addf (Host.dotGeneral d none agg (transpose _ [1, 0] wl ht))
          (broadcastInDim _ ![0, 1] h2 (broadcastInDim (⟨2, ![1, B]⟩ : Shape) ![1] h1 b)))
        (Host.dotGeneral d none x (transpose _ [1, 0] wr ht)) (ix2 r j)
      = linAt agg x wl wr b r j := by
  rw [addf_apply, addf_apply, row_host_apply]
  unfold Host.dotGeneral
  rw [RowOps.dotGeneral_plain_apply d hd, RowOps.dotGeneral_plain_apply d hd]
  unfold linAt
  rw [add_right_comm]
  refine congrArg₂ (· + ·) (congrArg₂ (· + ·) (Finset.sum_congr rfl fun k _ => ?_) (Finset.sum_congr rfl fun k _ => ?_)) rfl
  · rw [transpose_ba_ab_apply]
  · rw [transpose_ba_ab_apply]

/-- The normalisation and clamp the host's way, over any pre-activation `z`. -/
theorem norm_host_apply {R B : ℕ} (z : FVec Ideal (⟨2, ![R, B]⟩ : Shape) .f32)
    (g be mu var : FVec Ideal (⟨1, ![B]⟩ : Shape) .f32)
    (h1 : (⟨1, ![B]⟩ : Shape).BroadcastsInDim ⟨2, ![1, B]⟩ ![1])
    (h2 : (⟨2, ![1, B]⟩ : Shape).BroadcastsInDim ⟨2, ![R, B]⟩ ![0, 1])
    (he : (⟨0, ![]⟩ : Shape).BroadcastsInDim ⟨1, ![B]⟩ ![]) (hz : (⟨0, ![]⟩ : Shape).BroadcastsInDim ⟨2, ![R, B]⟩ ![])
    (r : Fin R) (j : Fin B) :
    maximumf (addf (mulf (subf z (broadcastInDim _ ![0, 1] h2 (broadcastInDim (⟨2, ![1, B]⟩ : Shape) ![1] h1 mu)))
          (broadcastInDim _ ![0, 1] h2 (broadcastInDim (⟨2, ![1, B]⟩ : Shape) ![1] h1
            (mulf g (Host.rsqrt (addf var (broadcastInDim _ ![] he (constant (F := Ideal) ⟨0, ![]⟩ .f32 0x3727C5AC#32))))))))
        (broadcastInDim _ ![0, 1] h2 (broadcastInDim (⟨2, ![1, B]⟩ : Shape) ![1] h1 be)))
      (broadcastInDim _ ![] hz (constant (F := Ideal) ⟨0, ![]⟩ .f32 0x00000000#32)) (ix2 r j)
      = normAt (z (ix2 r j)) g be mu var j := by
  rw [maximumf_apply, addf_apply, mulf_apply, subf_apply, row_host_apply, row_host_apply, row_host_apply,
    RowOps.broadcastInDim_scalar_apply, mulf_apply]
  unfold Host.rsqrt
  rw [addf_apply, RowOps.broadcastInDim_scalar_apply]
  rfl

end Idealize.ShloMosaic.NodeLayer

end
-- ==== Proof.LibSageLayer.lean ====
/-
  One layer of a node-wise graph network with its weights stored input-major, entry by entry over the extended reals,
  and the two ways it is computed — for any extents.

  A layer takes the neighbourhood mean `agg` and the nodes' own features `x` (one row per node), two weight
  matrices stored input-major (`[A, B]`: one row per input feature) and a bias, and gives
  `agg · wl + x · wr + b`; the first layer clamps the result at zero.

  * `entry agg x wl wr bj r j` is row `r` of `agg` against column `j` of `wl`, plus row `r` of `x` against column
    `j` of `wr`, plus the bias entry `bj` of column `j`.
  * The kernel's body on a block of rows — two products into a zero accumulator, the operands narrowed on the way
    in (nothing, on extended reals), the bias held as one row and broadcast down the block — reads, at `(r, j)`, as
    `entry` with the bias row's entry `j`.
  * The host's operations on the whole arrays — two `dot_general`s, the bias broadcast in two steps — read, at
    `(r, j)`, as `entry` with the bias vector's entry `j`.

  The two agree term by term: no law of arithmetic is needed beyond reading both at an index.
-/
import proofs.«143133_j27693949125044_1_alg».proof.Proof.LibNodeLayer

noncomputable section

open scoped BigOperators

namespace Idealize.ShloMosaic.SageLayer

open Idealize.ShloMosaic Idealize.ShloMosaic.ValueIdx

/-- Entry `(r, j)` of `agg · wl + x · wr` plus the bias entry `bj`. -/
def entry {R A B : ℕ} (agg x : FVec Ideal (⟨2, ![R, A]⟩ : Shape) .f32) (wl wr : FVec Ideal (⟨2, ![A, B]⟩ : Shape) .f32)
    (bj : Ideal .f32) (r : Fin R) (j : Fin B) : Ideal .f32 :=
  (∑ k : Fin A, agg (ix2 r k) * wl (ix2 k j)) + (∑ k : Fin A, x (ix2 r k) * wr (ix2 k j)) + bj

/-- An entry reads one row of each activation array: it is the same for two pairs of arrays that agree on that row. -/
theorem entry_congr {R R' A B : ℕ} {agg x : FVec Ideal (⟨2, ![R, A]⟩ : Shape) .f32}
    {agg' x' : FVec Ideal (⟨2, ![R', A]⟩ : Shape) .f32} {wl wr wl' wr' : FVec Ideal (⟨2, ![A, B]⟩ : Shape) .f32}
    {bj bj' : Ideal .f32} {r : Fin R} {r' : Fin R'} (j : Fin B)
    (ha : ∀ k, agg (ix2 r k) = agg' (ix2 r' k)) (hx : ∀ k, x (ix2 r k) = x' (ix2 r' k))
    (hwl : wl = wl') (hwr : wr = wr') (hb : bj = bj') :
    entry agg x wl wr bj r j = entry agg' x' wl' wr' bj' r' j := by
  subst hwl hwr hb
  unfold entry
  simp only [ha, hx]

/-- The whole layer without the clamp, as one array over the bias vector. -/
def layer {R A B : ℕ} (agg x : FVec Ideal (⟨2, ![R, A]⟩ : Shape) .f32) (wl wr : FVec Ideal (⟨2, ![A, B]⟩ : Shape) .f32)
    (b : FVec Ideal (⟨1, ![B]⟩ : Shape) .f32) : FVec Ideal (⟨2, ![R, B]⟩ : Shape) .f32 :=
  fun i => entry agg x wl wr (b (ix1 (i 1))) (i 0) (i 1)

/-- The whole layer clamped at zero. -/
def reluLayer {R A B : ℕ} (agg x : FVec Ideal (⟨2, ![R, A]⟩ : Shape) .f32) (wl wr : FVec Ideal (⟨2, ![A, B]⟩ : Shape) .f32)
    (b : FVec Ideal (⟨1, ![B]⟩ : Shape) .f32) : FVec Ideal (⟨2, ![R, B]⟩ : Shape) .f32 :=
  fun i => max (entry agg x wl wr (b (ix1 (i 1))) (i 0) (i 1)) (Ideal.ofBits .f32 0x00000000#32)

/-! ## The kernel's body on a block of rows -/

/-- The linear part of the body, the bias held as a row `[1, B]`. -/
theorem body_apply {R A B : ℕ}
    (d : DotDims (⟨2, ![R, A]⟩ : Shape) ⟨2, ![A, B]⟩ ⟨2, ![R, B]⟩) (hd : ∃ wf, d = RowOps.plainDims wf)
    (agg x : FVec Ideal (⟨2, ![R, A]⟩ : Shape) .f32) (wl wr : FVec Ideal (⟨2, ![A, B]⟩ : Shape) .f32)
    (brow : FVec Ideal (⟨2, ![1, B]⟩ : Shape) .f32) (hb : (⟨2, ![1, B]⟩ : Shape).Broadcasts ⟨2, ![R, B]⟩)
    (hlt : FTy.bf16.bits < FTy.f32.bits) (r : Fin R) (j : Fin B) :
    addf (addf (matmul d none (truncf .bf16 agg hlt) (truncf .bf16 wl hlt) (constant _ .f32 0x00000000#32))
          (matmul d none (truncf .bf16 x hlt) (truncf .bf16 wr hlt) (constant _ .f32 0x00000000#32)))
        (broadcastTo _ brow hb) (ix2 r j)
      = entry agg x wl wr (brow (ix2 (0 : Fin 1) j)) r j := by
  rw [addf_apply, addf_apply, broadcastTo_1b_ab_apply]
  unfold matmul
  rw [RowOps.matmul_zero_plain_apply d hd, RowOps.matmul_zero_plain_apply d hd]
  rfl

/-- The body with the clamp at zero. -/
theorem body_relu_apply {R A B : ℕ}
    (d : DotDims (⟨2, ![R, A]⟩ : Shape) ⟨2, ![A, B]⟩ ⟨2, ![R, B]⟩) (hd : ∃ wf, d = RowOps.plainDims wf)
    (agg x : FVec Ideal (⟨2, ![R, A]⟩ : Shape) .f32) (wl wr : FVec Ideal (⟨2, ![A, B]⟩ : Shape) .f32)
    (brow : FVec Ideal (⟨2, ![1, B]⟩ : Shape) .f32) (hb : (⟨2, ![1, B]⟩ : Shape).Broadcasts ⟨2, ![R, B]⟩)
    (hlt : FTy.bf16.bits < FTy.f32.bits) (r : Fin R) (j : Fin B) :
    maximumf (addf (addf (matmul d none (truncf .bf16 agg hlt) (truncf .bf16 wl hlt) (constant _ .f32 0x00000000#32))
          (matmul d none (truncf .bf16 x hlt) (truncf .bf16 wr hlt) (constant _ .f32 0x00000000#32)))
        (broadcastTo _ brow hb)) (broadcast _ (Scalar.ofBits (F := Ideal) .f32 0x00000000#32)) (ix2 r j)
      = max (entry agg x wl wr (brow (ix2 (0 : Fin 1) j)) r j) (Ideal.ofBits .f32 0x00000000#32) := by
  rw [maximumf_apply, body_apply d hd agg x wl wr brow hb hlt r j]
  rfl

/-! ## The host's operations on the whole arrays -/

/-- The linear part the host's way: two `dot_general`s added, then the bias vector broadcast in two steps. -/
theorem host_apply {R A B : ℕ}
    (d : DotDims (⟨2, ![R, A]⟩ : Shape) ⟨2, ![A, B]⟩ ⟨2, ![R, B]⟩) (hd : ∃ wf, d = RowOps.plainDims wf)
    (agg x : FVec Ideal (⟨2, ![R, A]⟩ : Shape) .f32) (wl wr : FVec Ideal (⟨2, ![A, B]⟩ : Shape) .f32)
    (b : FVec Ideal (⟨1, ![B]⟩ : Shape) .f32)
    (h1 : (⟨1, ![B]⟩ : Shape).BroadcastsInDim ⟨2, ![1, B]⟩ ![1])
    (h2 : (⟨2, ![1, B]⟩ : Shape).BroadcastsInDim ⟨2, ![R, B]⟩ ![0, 1]) (r : Fin R) (j : Fin B) :
    addf (addf (Host.dotGeneral d none agg wl) (Host.dotGeneral d none x wr))
        (broadcastInDim _ ![0, 1] h2 (broadcastInDim (⟨2, ![1, B]⟩ : Shape) ![1] h1 b)) (ix2 r j)
      = entry agg x wl wr (b (ix1 j)) r j := by
  rw [addf_apply, addf_apply, NodeLayer.row_host_apply]
  unfold Host.dotGeneral
  rw [RowOps.dotGeneral_plain_apply d hd, RowOps.dotGeneral_plain_apply d hd]
  rfl

/-- The host's clamp at zero (the outlined `relu`: a maximum with a broadcast zero). -/
theorem host_relu_apply {R A B : ℕ}
    (d : DotDims (⟨2, ![R, A]⟩ : Shape) ⟨2, ![A, B]⟩ ⟨2, ![R, B]⟩) (hd : ∃ wf, d = RowOps.plainDims wf)
    (agg x : FVec Ideal (⟨2, ![R, A]⟩ : Shape) .f32) (wl wr : FVec Ideal (⟨2, ![A, B]⟩ : Shape) .f32)
    (b : FVec Ideal (⟨1, ![B]⟩ : Shape) .f32)
    (h1 : (⟨1, ![B]⟩ : Shape).BroadcastsInDim ⟨2, ![1, B]⟩ ![1])
    (h2 : (⟨2, ![1, B]⟩ : Shape).BroadcastsInDim ⟨2, ![R, B]⟩ ![0, 1])
    (hz : (⟨0, ![]⟩ : Shape).BroadcastsInDim ⟨2, ![R, B]⟩ ![]) (r : Fin R) (j : Fin B) :
    maximumf (addf (addf (Host.dotGeneral d none agg wl) (Host.dotGeneral d none x wr))
        (broadcastInDim _ ![0, 1] h2 (broadcastInDim (⟨2, ![1, B]⟩ : Shape) ![1] h1 b)))
      (broadcastInDim _ ![] hz (constant (F := Ideal) ⟨0, ![]⟩ .f32 0x00000000#32)) (ix2 r j)
      = max (entry agg x wl wr (b (ix1 j)) r j) (Ideal.ofBits .f32 0x00000000#32) := by
  rw [maximumf_apply, host_apply d hd agg x wl wr b h1 h2 r j, RowOps.broadcastInDim_scalar_apply]
  rfl

end Idealize.ShloMosaic.SageLayer

end
-- ==== Proof.LayerForms.lean ====
/-
  One node layer the way the host spells it when the bias is added between the two products:
  (agg · wl + b) + x · wr. Over the extended reals addition is commutative and associative with no side
  condition, so at every entry this is the same number as (agg · wl + x · wr) + b, the entry of the layer.
  The statements are entry by entry first, then for the whole array.
-/
import proofs.«143133_j27693949125044_1_alg».proof.Proof.LibSageLayer

noncomputable section

open scoped BigOperators

namespace Idealize.ShloMosaic.SageLayer

open Idealize.ShloMosaic Idealize.ShloMosaic.ValueIdx

/-- The linear part with the bias added after the first product, read at `(r, j)`. -/
theorem host_mid_apply {R A B : ℕ}
    (d : DotDims (⟨2, ![R, A]⟩ : Shape) ⟨2, ![A, B]⟩ ⟨2, ![R, B]⟩) (hd : ∃ wf, d = RowOps.plainDims wf)
    (agg x : FVec Ideal (⟨2, ![R, A]⟩ : Shape) .f32) (wl wr : FVec Ideal (⟨2, ![A, B]⟩ : Shape) .f32)
    (b : FVec Ideal (⟨1, ![B]⟩ : Shape) .f32)
    (h1 : (⟨1, ![B]⟩ : Shape).BroadcastsInDim ⟨2, ![1, B]⟩ ![1])
    (h2 : (⟨2, ![1, B]⟩ : Shape).BroadcastsInDim ⟨2, ![R, B]⟩ ![0, 1]) (r : Fin R) (j : Fin B) :
    addf (addf (Host.dotGeneral d none agg wl)
          (broadcastInDim _ ![0, 1] h2 (broadcastInDim (⟨2, ![1, B]⟩ : Shape) ![1] h1 b)))
        (Host.dotGeneral d none x wr) (ix2 r j)
      = entry agg x wl wr (b (ix1 j)) r j := by
  rw [addf_apply, addf_apply, NodeLayer.row_host_apply]
  unfold Host.dotGeneral
  rw [RowOps.dotGeneral_plain_apply d hd, RowOps.dotGeneral_plain_apply d hd]
  unfold entry
  exact add_right_comm _ _ _

/-- The same followed by the clamp at zero (a maximum with a broadcast zero). -/
theorem host_mid_relu_apply {R A B : ℕ}
    (d : DotDims (⟨2, ![R, A]⟩ : Shape) ⟨2, ![A, B]⟩ ⟨2, ![R, B]⟩) (hd : ∃ wf, d = RowOps.plainDims wf)
    (agg x : FVec Ideal (⟨2, ![R, A]⟩ : Shape) .f32) (wl wr : FVec Ideal (⟨2, ![A, B]⟩ : Shape) .f32)
    (b : FVec Ideal (⟨1, ![B]⟩ : Shape) .f32)
    (h1 : (⟨1, ![B]⟩ : Shape).BroadcastsInDim ⟨2, ![1, B]⟩ ![1])
    (h2 : (⟨2, ![1, B]⟩ : Shape).BroadcastsInDim ⟨2, ![R, B]⟩ ![0, 1])
    (hz : (⟨0, ![]⟩ : Shape).BroadcastsInDim ⟨2, ![R, B]⟩ ![]) (r : Fin R) (j : Fin B) :
    maximumf (addf (addf (Host.dotGeneral d none agg wl)
          (broadcastInDim _ ![0, 1] h2 (broadcastInDim (⟨2, ![1, B]⟩ : Shape) ![1] h1 b)))
        (Host.dotGeneral d none x wr))
      (broadcastInDim _ ![] hz (constant (F := Ideal) ⟨0, ![]⟩ .f32 0x00000000#32)) (ix2 r j)
      = max (entry agg x wl wr (b (ix1 j)) r j) (Ideal.ofBits .f32 0x00000000#32) := by
  rw [maximumf_apply, host_mid_apply d hd agg x wl wr b h1 h2 r j, RowOps.broadcastInDim_scalar_apply]
  rfl

/-- The whole array the host computes without the clamp is the layer. -/
theorem host_mid_eq {R A B : ℕ}
    (d : DotDims (⟨2, ![R, A]⟩ : Shape) ⟨2, ![A, B]⟩ ⟨2, ![R, B]⟩) (hd : ∃ wf, d = RowOps.plainDims wf)
    (agg x : FVec Ideal (⟨2, ![R, A]⟩ : Shape) .f32) (wl wr : FVec Ideal (⟨2, ![A, B]⟩ : Shape) .f32)
    (b : FVec Ideal (⟨1, ![B]⟩ : Shape) .f32)
    (h1 : (⟨1, ![B]⟩ : Shape).BroadcastsInDim ⟨2, ![1, B]⟩ ![1])
    (h2 : (⟨2, ![1, B]⟩ : Shape).BroadcastsInDim ⟨2, ![R, B]⟩ ![0, 1]) :
    addf (addf (Host.dotGeneral d none agg wl)
          (broadcastInDim _ ![0, 1] h2 (broadcastInDim (⟨2, ![1, B]⟩ : Shape) ![1] h1 b)))
        (Host.dotGeneral d none x wr)
      = layer agg x wl wr b := by
  funext i
  obtain ⟨r, j, rfl⟩ : ∃ (r : Fin R) (j : Fin B), i = ix2 r j := ⟨i 0, i 1, eq_ix2 i⟩
  rw [host_mid_apply d hd agg x wl wr b h1 h2 r j]
  rfl

/-- The whole array the host computes with the clamp is the clamped layer. -/
theorem host_mid_relu_eq {R A B : ℕ}
    (d : DotDims (⟨2, ![R, A]⟩ : Shape) ⟨2, ![A, B]⟩ ⟨2, ![R, B]⟩) (hd : ∃ wf, d = RowOps.plainDims wf)
    (agg x : FVec Ideal (⟨2, ![R, A]⟩ : Shape) .f32) (wl wr : FVec Ideal (⟨2, ![A, B]⟩ : Shape) .f32)
    (b : FVec Ideal (⟨1, ![B]⟩ : Shape) .f32)
    (h1 : (⟨1, ![B]⟩ : Shape).BroadcastsInDim ⟨2, ![1, B]⟩ ![1])
    (h2 : (⟨2, ![1, B]⟩ : Shape).BroadcastsInDim ⟨2, ![R, B]⟩ ![0, 1])
    (hz : (⟨0, ![]⟩ : Shape).BroadcastsInDim ⟨2, ![R, B]⟩ ![]) :
    maximumf (addf (addf (Host.dotGeneral d none agg wl)
          (broadcastInDim _ ![0, 1] h2 (broadcastInDim (⟨2, ![1, B]⟩ : Shape) ![1] h1 b)))
        (Host.dotGeneral d none x wr))
      (broadcastInDim _ ![] hz (constant (F := Ideal) ⟨0, ![]⟩ .f32 0x00000000#32))
      = reluLayer agg x wl wr b := by
  funext i
  obtain ⟨r, j, rfl⟩ : ∃ (r : Fin R) (j : Fin B), i = ix2 r j := ⟨i 0, i 1, eq_ix2 i⟩
  rw [host_mid_relu_apply d hd agg x wl wr b h1 h2 hz r j]
  rfl

end Idealize.ShloMosaic.SageLayer

end
-- ==== Proof.Region0.lean ====
/-
  Region 0 of the kernel's program: what its output array holds when the region is left, as one function of the
  arrays the region finds when it is entered.

  The grid has twenty points; point t is handed rows 5000·t … 5000·t + 4999 of the neighbourhood means and of
  the node features, the whole of both weight matrices and of the bias, and writes rows 5000·t … 5000·t + 4999
  of the output. Entry (r, q) of the block it writes is row r of its block of means against column q of the left
  weights, plus row r of its block of features against column q of the right weights, plus bias entry q, clamped at zero:
  the layer's entry at row 5000·t + r. The twenty blocks are disjoint and fill the 100000 rows, so the array
  ends as the layer of the entry arrays.
-/
import proofs.«143133_j27693949125044_1_alg».proof.Proof.Gen.KernelIdeal.Frame
import proofs.«143133_j27693949125044_1_alg».proof.Proof.LayerForms

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The body's stored value at row `r`, column `q` of a block: the layer's entry over the blocks it loaded. -/
theorem pay_apply (x0 x1 : Vec Ideal S5000x64 .f32) (x2 x4 : Vec Ideal S64x64 .f32) (x3 : Vec Ideal S64 .f32)
    (r : Fin 5000) (q : Fin 64) :
    k0_pay1 (F := Ideal) x0 x1 x2 x4 x3 (ix2 r q)
      = max (SageLayer.entry (R := 5000) (A := 64) (B := 64) x0 x1 x2 x4 (x3 (ix1 q)) r q) (Ideal.ofBits .f32 0x00000000#32) := by
  unfold k0_pay1
  refine (SageLayer.body_relu_apply dot_S5000x64_S64x64_S5000x64_1_0_0_1_n_n ⟨_, rfl⟩
    (shapeCast S5000x64 x0 shapeCasts_S5000x64_S5000x64) x1 x2 x4 (shapeCast S1x64 x3 shapeCasts_S64_S1x64)
    broadcasts_S1x64_S5000x64 bitsLt_bf16_f32 r q).trans ?_
  rw [shapeCast_self, shapeCast_a_1a_apply]

/-- The layer of whole arrays at row `R'`, from a block that holds that row of the means and of the features. -/
theorem point_eq (agg x : FVec Ideal S100000x64 .f32) (wl wr : FVec Ideal S64x64 .f32) (b : FVec Ideal S64 .f32)
    (x0 x1 : Vec Ideal S5000x64 .f32) (x2 x4 : Vec Ideal S64x64 .f32) (x3 : Vec Ideal S64 .f32)
    (r : Fin 5000) (q : Fin 64) (i : S100000x64.Idx) (R' : Fin 100000) (hi : i = ix2 R' q)
    (h0 : ∀ k : Fin 64, x0 (ix2 r k) = agg (ix2 R' k)) (h1 : ∀ k : Fin 64, x1 (ix2 r k) = x (ix2 R' k))
    (h2 : x2 = wl) (h4 : x4 = wr) (h3 : x3 = b) :
    k0_pay1 (F := Ideal) x0 x1 x2 x4 x3 (ix2 r q)
      = SageLayer.reluLayer (R := 100000) (A := 64) (B := 64) agg x wl wr b i := by
  subst hi
  rw [pay_apply, SageLayer.entry_congr (r := r) (r' := R') q h0 h1 h2 h4 (congrFun h3 (ix1 q))]
  rfl

/-- The printed index maps over the grid: the row blocks move with the point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The layer of the arrays the region finds at its entry. -/
abbrev G (c : Dev nD) : FVec Ideal S100000x64 .f32 :=
  SageLayer.reluLayer (R := 100000) (A := 64) (B := 64) (V c main_v22) (V c main_arg0) (V c main_arg4) (V c main_arg6) (V c main_arg5)

/-- What point `t` writes back is block `t` of the layer of the entry arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero NodeLayer.zero_offsets2]
  simp only [View.ld_unit_zero (S := S5000x64) NodeLayer.zero_offsets2, View.ld_unit_zero (S := S64x64) NodeLayer.zero_offsets2,
    View.ld_unit_zero (S := S64) NodeLayer.zero_offsets1]
  obtain ⟨e00, e01, e10, e11, e20, e21, e30, e40, e41, e50, e51⟩ := idx_facts t
  have hN : t.val < 20 := lt_of_lt_of_eq t.isLt N_0
  funext j
  revert j
  show ∀ j : S5000x64.Idx, k0_pay1 (F := Ideal) (iblk0 V c 0 t) (iblk0 V c 1 t) (iblk0 V c 2 t) (iblk0 V c 4 t) (iblk0 V c 3 t) j
      = G V c (((cfg0.win 5).blk t).view.emb j)
  intro j
  obtain ⟨r, q, rfl⟩ : ∃ (r : Fin 5000) (q : Fin 64), j = ix2 r q := ⟨j 0, j 1, eq_ix2 j⟩
  have hr : r.val < 5000 := r.isLt
  have hq : q.val < 64 := q.isLt
  refine point_eq (V c main_v22) (V c main_arg0) (V c main_arg4) (V c main_arg6) (V c main_arg5)
    (iblk0 V c 0 t) (iblk0 V c 1 t) (iblk0 V c 2 t) (iblk0 V c 4 t) (iblk0 V c 3 t) r q
    (((cfg0.win 5).blk t).view.emb (ix2 r q)) ⟨t.val * 5000 + r.val, by omega⟩ ?_ ?_ ?_ ?_ ?_ ?_
  · funext a; apply Fin.ext
    match a with
    | ⟨0, _⟩ => show win0_5.index t (0 : Fin 2) * 5000 + 1 * r.val = t.val * 5000 + r.val; omega
    | ⟨1, _⟩ => show win0_5.index t (1 : Fin 2) * 64 + 1 * q.val = q.val; omega
  · intro k
    have hk : k.val < 64 := k.isLt
    show V c main_v22 (((cfg0.win 0).blk t).view.emb (ix2 r k)) = V c main_v22 (ix2 ⟨t.val * 5000 + r.val, by omega⟩ k)
    refine congrArg _ ?_
    funext a; apply Fin.ext
    match a with
    | ⟨0, _⟩ => show win0_0.index t (0 : Fin 2) * 5000 + 1 * r.val = t.val * 5000 + r.val; omega
    | ⟨1, _⟩ => show win0_0.index t (1 : Fin 2) * 64 + 1 * k.val = k.val; omega
  · intro k
    have hk : k.val < 64 := k.isLt
    show V c main_arg0 (((cfg0.win 1).blk t).view.emb (ix2 r k)) = V c main_arg0 (ix2 ⟨t.val * 5000 + r.val, by omega⟩ k)
    refine congrArg _ ?_
    funext a; apply Fin.ext
    match a with
    | ⟨0, _⟩ => show win0_1.index t (0 : Fin 2) * 5000 + 1 * r.val = t.val * 5000 + r.val; omega
    | ⟨1, _⟩ => show win0_1.index t (1 : Fin 2) * 64 + 1 * k.val = k.val; omega
  · funext y
    show V c main_arg4 (((cfg0.win 2).blk t).view.emb y) = V c main_arg4 y
    refine congrArg _ ?_
    funext a; apply Fin.ext
    match a with
    | ⟨0, _⟩ => show win0_2.index t (0 : Fin 2) * 64 + 1 * (y 0).val = (y 0).val; omega
    | ⟨1, _⟩ => show win0_2.index t (1 : Fin 2) * 64 + 1 * (y 1).val = (y 1).val; omega
  · funext y
    show V c main_arg6 (((cfg0.win 4).blk t).view.emb y) = V c main_arg6 y
    refine congrArg _ ?_
    funext a; apply Fin.ext
    match a with
    | ⟨0, _⟩ => show win0_4.index t (0 : Fin 2) * 64 + 1 * (y 0).val = (y 0).val; omega
    | ⟨1, _⟩ => show win0_4.index t (1 : Fin 2) * 64 + 1 * (y 1).val = (y 1).val; omega
  · funext y
    show V c main_arg5 (((cfg0.win 3).blk t).view.emb y) = V c main_arg5 y
    refine congrArg _ ?_
    funext a; apply Fin.ext
    match a with
    | ⟨0, _⟩ => show win0_3.index t (0 : Fin 1) * 64 + 1 * (y 0).val = (y 0).val; omega

/-- An index of the output array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v23).slice (win0_5.rect t)).set ↔ _
  rw [View.set_slice_whole, Rect.mem_set_unit]
  exact Iff.rfl

/-- Every index of the output array is in the block of the point that owns its row. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : grid0.N = 20 := N_0
  let t : Fin cfg0.N := ⟨(i 0).val / 5000, by show (i 0).val / 5000 < grid0.N; omega⟩
  obtain ⟨-, -, -, -, -, -, -, -, -, e50, e51⟩ := idx_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The output array when the region is left: the layer of the arrays found at its entry. -/
theorem final (c : Dev nD) : (dat0 V c).arrAt 5 cfg0.N = G V c :=
  (dat0 V c).arrAt_eq_of_cover 5 (G V c) (fun t _ => flushed_eq V c t) cover

end Cert.KernelIdeal.Region0

end
-- ==== Proof.Region1.lean ====
/-
  Region 1 of the kernel's program: what its output array holds when the region is left, as one function of the
  arrays the region finds when it is entered.

  The grid has twenty points; point t is handed rows 5000·t … 5000·t + 4999 of the neighbourhood means and of
  the node features, the whole of both weight matrices and of the bias, and writes rows 5000·t … 5000·t + 4999
  of the output. Entry (r, q) of the block it writes is row r of its block of means against column q of the left
  weights, plus row r of its block of features against column q of the right weights, plus bias entry q, clamped at zero:
  the layer's entry at row 5000·t + r. The twenty blocks are disjoint and fill the 100000 rows, so the array
  ends as the layer of the entry arrays.
-/
import proofs.«143133_j27693949125044_1_alg».proof.Proof.Gen.KernelIdeal.Frame
import proofs.«143133_j27693949125044_1_alg».proof.Proof.LayerForms

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The body's stored value at row `r`, column `q` of a block: the layer's entry over the blocks it loaded. -/
theorem pay_apply (x0 x1 : Vec Ideal S5000x64 .f32) (x2 x4 : Vec Ideal S64x64 .f32) (x3 : Vec Ideal S64 .f32)
    (r : Fin 5000) (q : Fin 64) :
    k1_pay1 (F := Ideal) x0 x1 x2 x4 x3 (ix2 r q)
      = max (SageLayer.entry (R := 5000) (A := 64) (B := 64) x0 x1 x2 x4 (x3 (ix1 q)) r q) (Ideal.ofBits .f32 0x00000000#32) := by
  unfold k1_pay1
  refine (SageLayer.body_relu_apply dot_S5000x64_S64x64_S5000x64_1_0_0_1_n_n ⟨_, rfl⟩
    (shapeCast S5000x64 x0 shapeCasts_S5000x64_S5000x64) (shapeCast S5000x64 x1 shapeCasts_S5000x64_S5000x64) x2 x4 (shapeCast S1x64 x3 shapeCasts_S64_S1x64)
    broadcasts_S1x64_S5000x64 bitsLt_bf16_f32 r q).trans ?_
  rw [shapeCast_self, shapeCast_self, shapeCast_a_1a_apply]

/-- The layer of whole arrays at row `R'`, from a block that holds that row of the means and of the features. -/
theorem point_eq (agg x : FVec Ideal S100000x64 .f32) (wl wr : FVec Ideal S64x64 .f32) (b : FVec Ideal S64 .f32)
    (x0 x1 : Vec Ideal S5000x64 .f32) (x2 x4 : Vec Ideal S64x64 .f32) (x3 : Vec Ideal S64 .f32)
    (r : Fin 5000) (q : Fin 64) (i : S100000x64.Idx) (R' : Fin 100000) (hi : i = ix2 R' q)
    (h0 : ∀ k : Fin 64, x0 (ix2 r k) = agg (ix2 R' k)) (h1 : ∀ k : Fin 64, x1 (ix2 r k) = x (ix2 R' k))
    (h2 : x2 = wl) (h4 : x4 = wr) (h3 : x3 = b) :
    k1_pay1 (F := Ideal) x0 x1 x2 x4 x3 (ix2 r q)
      = SageLayer.reluLayer (R := 100000) (A := 64) (B := 64) agg x wl wr b i := by
  subst hi
  rw [pay_apply, SageLayer.entry_congr (r := r) (r' := R') q h0 h1 h2 h4 (congrFun h3 (ix1 q))]
  rfl

/-- The printed index maps over the grid: the row blocks move with the point, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The layer of the arrays the region finds at its entry. -/
abbrev G (c : Dev nD) : FVec Ideal S100000x64 .f32 :=
  SageLayer.reluLayer (R := 100000) (A := 64) (B := 64) (V c main_v35) (V c main_v23) (V c main_arg7) (V c main_arg9) (V c main_arg8)

/-- What point `t` writes back is block `t` of the layer of the entry arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero NodeLayer.zero_offsets2]
  simp only [View.ld_unit_zero (S := S5000x64) NodeLayer.zero_offsets2, View.ld_unit_zero (S := S64x64) NodeLayer.zero_offsets2,
    View.ld_unit_zero (S := S64) NodeLayer.zero_offsets1]
  obtain ⟨e00, e01, e10, e11, e20, e21, e30, e40, e41, e50, e51⟩ := idx_facts t
  have hN : t.val < 20 := lt_of_lt_of_eq t.isLt N_1
  funext j
  revert j
  show ∀ j : S5000x64.Idx, k1_pay1 (F := Ideal) (iblk1 V c 0 t) (iblk1 V c 1 t) (iblk1 V c 2 t) (iblk1 V c 4 t) (iblk1 V c 3 t) j
      = G V c (((cfg1.win 5).blk t).view.emb j)
  intro j
  obtain ⟨r, q, rfl⟩ : ∃ (r : Fin 5000) (q : Fin 64), j = ix2 r q := ⟨j 0, j 1, eq_ix2 j⟩
  have hr : r.val < 5000 := r.isLt
  have hq : q.val < 64 := q.isLt
  refine point_eq (V c main_v35) (V c main_v23) (V c main_arg7) (V c main_arg9) (V c main_arg8)
    (iblk1 V c 0 t) (iblk1 V c 1 t) (iblk1 V c 2 t) (iblk1 V c 4 t) (iblk1 V c 3 t) r q
    (((cfg1.win 5).blk t).view.emb (ix2 r q)) ⟨t.val * 5000 + r.val, by omega⟩ ?_ ?_ ?_ ?_ ?_ ?_
  · funext a; apply Fin.ext
    match a with
    | ⟨0, _⟩ => show win1_5.index t (0 : Fin 2) * 5000 + 1 * r.val = t.val * 5000 + r.val; omega
    | ⟨1, _⟩ => show win1_5.index t (1 : Fin 2) * 64 + 1 * q.val = q.val; omega
  · intro k
    have hk : k.val < 64 := k.isLt
    show V c main_v35 (((cfg1.win 0).blk t).view.emb (ix2 r k)) = V c main_v35 (ix2 ⟨t.val * 5000 + r.val, by omega⟩ k)
    refine congrArg _ ?_
    funext a; apply Fin.ext
    match a with
    | ⟨0, _⟩ => show win1_0.index t (0 : Fin 2) * 5000 + 1 * r.val = t.val * 5000 + r.val; omega
    | ⟨1, _⟩ => show win1_0.index t (1 : Fin 2) * 64 + 1 * k.val = k.val; omega
  · intro k
    have hk : k.val < 64 := k.isLt
    show V c main_v23 (((cfg1.win 1).blk t).view.emb (ix2 r k)) = V c main_v23 (ix2 ⟨t.val * 5000 + r.val, by omega⟩ k)
    refine congrArg _ ?_
    funext a; apply Fin.ext
    match a with
    | ⟨0, _⟩ => show win1_1.index t (0 : Fin 2) * 5000 + 1 * r.val = t.val * 5000 + r.val; omega
    | ⟨1, _⟩ => show win1_1.index t (1 : Fin 2) * 64 + 1 * k.val = k.val; omega
  · funext y
    show V c main_arg7 (((cfg1.win 2).blk t).view.emb y) = V c main_arg7 y
    refine congrArg _ ?_
    funext a; apply Fin.ext
    match a with
    | ⟨0, _⟩ => show win1_2.index t (0 : Fin 2) * 64 + 1 * (y 0).val = (y 0).val; omega
    | ⟨1, _⟩ => show win1_2.index t (1 : Fin 2) * 64 + 1 * (y 1).val = (y 1).val; omega
  · funext y
    show V c main_arg9 (((cfg1.win 4).blk t).view.emb y) = V c main_arg9 y
    refine congrArg _ ?_
    funext a; apply Fin.ext
    match a with
    | ⟨0, _⟩ => show win1_4.index t (0 : Fin 2) * 64 + 1 * (y 0).val = (y 0).val; omega
    | ⟨1, _⟩ => show win1_4.index t (1 : Fin 2) * 64 + 1 * (y 1).val = (y 1).val; omega
  · funext y
    show V c main_arg8 (((cfg1.win 3).blk t).view.emb y) = V c main_arg8 y
    refine congrArg _ ?_
    funext a; apply Fin.ext
    match a with
    | ⟨0, _⟩ => show win1_3.index t (0 : Fin 1) * 64 + 1 * (y 0).val = (y 0).val; omega

/-- An index of the output array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v36).slice (win1_5.rect t)).set ↔ _
  rw [View.set_slice_whole, Rect.mem_set_unit]
  exact Iff.rfl

/-- Every index of the output array is in the block of the point that owns its row. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : grid1.N = 20 := N_1
  let t : Fin cfg1.N := ⟨(i 0).val / 5000, by show (i 0).val / 5000 < grid1.N; omega⟩
  obtain ⟨-, -, -, -, -, -, -, -, -, e50, e51⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The output array when the region is left: the layer of the arrays found at its entry. -/
theorem final (c : Dev nD) : (dat1 V c).arrAt 5 cfg1.N = G V c :=
  (dat1 V c).arrAt_eq_of_cover 5 (G V c) (fun t _ => flushed_eq V c t) cover

end Cert.KernelIdeal.Region1

end
-- ==== Proof.Region2.lean ====
/-
  Region 2 of the kernel's program: what its output array holds when the region is left, as one function of the
  arrays the region finds when it is entered.

  The grid has twenty points; point t is handed rows 5000·t … 5000·t + 4999 of the neighbourhood means and of
  the node features, the whole of both weight matrices and of the bias, and writes rows 5000·t … 5000·t + 4999
  of the output. Entry (r, q) of the block it writes is row r of its block of means against column q of the left
  weights, plus row r of its block of features against column q of the right weights, plus bias entry q:
  the layer's entry at row 5000·t + r. The twenty blocks are disjoint and fill the 100000 rows, so the array
  ends as the layer of the entry arrays.
-/
import proofs.«143133_j27693949125044_1_alg».proof.Proof.Gen.KernelIdeal.Frame
import proofs.«143133_j27693949125044_1_alg».proof.Proof.LayerForms

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The body's stored value at row `r`, column `q` of a block: the layer's entry over the blocks it loaded. -/
theorem pay_apply (x0 x1 : Vec Ideal S5000x64 .f32) (x2 x4 : Vec Ideal S64x64 .f32) (x3 : Vec Ideal S64 .f32)
    (r : Fin 5000) (q : Fin 64) :
    k2_pay1 (F := Ideal) x0 x1 x2 x4 x3 (ix2 r q)
      = SageLayer.entry (R := 5000) (A := 64) (B := 64) x0 x1 x2 x4 (x3 (ix1 q)) r q := by
  unfold k2_pay1
  refine (SageLayer.body_apply dot_S5000x64_S64x64_S5000x64_1_0_0_1_n_n ⟨_, rfl⟩
    (shapeCast S5000x64 x0 shapeCasts_S5000x64_S5000x64) (shapeCast S5000x64 x1 shapeCasts_S5000x64_S5000x64) x2 x4 (shapeCast S1x64 x3 shapeCasts_S64_S1x64)
    broadcasts_S1x64_S5000x64 bitsLt_bf16_f32 r q).trans ?_
  rw [shapeCast_self, shapeCast_self, shapeCast_a_1a_apply]

/-- The layer of whole arrays at row `R'`, from a block that holds that row of the means and of the features. -/
theorem point_eq (agg x : FVec Ideal S100000x64 .f32) (wl wr : FVec Ideal S64x64 .f32) (b : FVec Ideal S64 .f32)
    (x0 x1 : Vec Ideal S5000x64 .f32) (x2 x4 : Vec Ideal S64x64 .f32) (x3 : Vec Ideal S64 .f32)
    (r : Fin 5000) (q : Fin 64) (i : S100000x64.Idx) (R' : Fin 100000) (hi : i = ix2 R' q)
    (h0 : ∀ k : Fin 64, x0 (ix2 r k) = agg (ix2 R' k)) (h1 : ∀ k : Fin 64, x1 (ix2 r k) = x (ix2 R' k))
    (h2 : x2 = wl) (h4 : x4 = wr) (h3 : x3 = b) :
    k2_pay1 (F := Ideal) x0 x1 x2 x4 x3 (ix2 r q)
      = SageLayer.layer (R := 100000) (A := 64) (B := 64) agg x wl wr b i := by
  subst hi
  rw [pay_apply, SageLayer.entry_congr (r := r) (r' := R') q h0 h1 h2 h4 (congrFun h3 (ix1 q))]
  rfl

/-- The printed index maps over the grid: the row blocks move with the point, the weights and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- The layer of the arrays the region finds at its entry. -/
abbrev G (c : Dev nD) : FVec Ideal S100000x64 .f32 :=
  SageLayer.layer (R := 100000) (A := 64) (B := 64) (V c main_v48) (V c main_v36) (V c main_arg10) (V c main_arg12) (V c main_arg11)

/-- What point `t` writes back is block `t` of the layer of the entry arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero NodeLayer.zero_offsets2]
  simp only [View.ld_unit_zero (S := S5000x64) NodeLayer.zero_offsets2, View.ld_unit_zero (S := S64x64) NodeLayer.zero_offsets2,
    View.ld_unit_zero (S := S64) NodeLayer.zero_offsets1]
  obtain ⟨e00, e01, e10, e11, e20, e21, e30, e40, e41, e50, e51⟩ := idx_facts t
  have hN : t.val < 20 := lt_of_lt_of_eq t.isLt N_2
  funext j
  revert j
  show ∀ j : S5000x64.Idx, k2_pay1 (F := Ideal) (iblk2 V c 0 t) (iblk2 V c 1 t) (iblk2 V c 2 t) (iblk2 V c 4 t) (iblk2 V c 3 t) j
      = G V c (((cfg2.win 5).blk t).view.emb j)
  intro j
  obtain ⟨r, q, rfl⟩ : ∃ (r : Fin 5000) (q : Fin 64), j = ix2 r q := ⟨j 0, j 1, eq_ix2 j⟩
  have hr : r.val < 5000 := r.isLt
  have hq : q.val < 64 := q.isLt
  refine point_eq (V c main_v48) (V c main_v36) (V c main_arg10) (V c main_arg12) (V c main_arg11)
    (iblk2 V c 0 t) (iblk2 V c 1 t) (iblk2 V c 2 t) (iblk2 V c 4 t) (iblk2 V c 3 t) r q
    (((cfg2.win 5).blk t).view.emb (ix2 r q)) ⟨t.val * 5000 + r.val, by omega⟩ ?_ ?_ ?_ ?_ ?_ ?_
  · funext a; apply Fin.ext
    match a with
    | ⟨0, _⟩ => show win2_5.index t (0 : Fin 2) * 5000 + 1 * r.val = t.val * 5000 + r.val; omega
    | ⟨1, _⟩ => show win2_5.index t (1 : Fin 2) * 64 + 1 * q.val = q.val; omega
  · intro k
    have hk : k.val < 64 := k.isLt
    show V c main_v48 (((cfg2.win 0).blk t).view.emb (ix2 r k)) = V c main_v48 (ix2 ⟨t.val * 5000 + r.val, by omega⟩ k)
    refine congrArg _ ?_
    funext a; apply Fin.ext
    match a with
    | ⟨0, _⟩ => show win2_0.index t (0 : Fin 2) * 5000 + 1 * r.val = t.val * 5000 + r.val; omega
    | ⟨1, _⟩ => show win2_0.index t (1 : Fin 2) * 64 + 1 * k.val = k.val; omega
  · intro k
    have hk : k.val < 64 := k.isLt
    show V c main_v36 (((cfg2.win 1).blk t).view.emb (ix2 r k)) = V c main_v36 (ix2 ⟨t.val * 5000 + r.val, by omega⟩ k)
    refine congrArg _ ?_
    funext a; apply Fin.ext
    match a with
    | ⟨0, _⟩ => show win2_1.index t (0 : Fin 2) * 5000 + 1 * r.val = t.val * 5000 + r.val; omega
    | ⟨1, _⟩ => show win2_1.index t (1 : Fin 2) * 64 + 1 * k.val = k.val; omega
  · funext y
    show V c main_arg10 (((cfg2.win 2).blk t).view.emb y) = V c main_arg10 y
    refine congrArg _ ?_
    funext a; apply Fin.ext
    match a with
    | ⟨0, _⟩ => show win2_2.index t (0 : Fin 2) * 64 + 1 * (y 0).val = (y 0).val; omega
    | ⟨1, _⟩ => show win2_2.index t (1 : Fin 2) * 64 + 1 * (y 1).val = (y 1).val; omega
  · funext y
    show V c main_arg12 (((cfg2.win 4).blk t).view.emb y) = V c main_arg12 y
    refine congrArg _ ?_
    funext a; apply Fin.ext
    match a with
    | ⟨0, _⟩ => show win2_4.index t (0 : Fin 2) * 64 + 1 * (y 0).val = (y 0).val; omega
    | ⟨1, _⟩ => show win2_4.index t (1 : Fin 2) * 64 + 1 * (y 1).val = (y 1).val; omega
  · funext y
    show V c main_arg11 (((cfg2.win 3).blk t).view.emb y) = V c main_arg11 y
    refine congrArg _ ?_
    funext a; apply Fin.ext
    match a with
    | ⟨0, _⟩ => show win2_3.index t (0 : Fin 1) * 64 + 1 * (y 0).val = (y 0).val; omega

/-- An index of the output array is in point `t`'s block iff each coordinate is in the block's range on its axis. -/
theorem mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v49).slice (win2_5.rect t)).set ↔ _
  rw [View.set_slice_whole, Rect.mem_set_unit]
  exact Iff.rfl

/-- Every index of the output array is in the block of the point that owns its row. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : grid2.N = 20 := N_2
  let t : Fin cfg2.N := ⟨(i 0).val / 5000, by show (i 0).val / 5000 < grid2.N; omega⟩
  obtain ⟨-, -, -, -, -, -, -, -, -, e50, e51⟩ := idx_facts t
  have ht : t.val = (i 0).val / 5000 := rfl
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The output array when the region is left: the layer of the arrays found at its entry. -/
theorem final (c : Dev nD) : (dat2 V c).arrAt 5 cfg2.N = G V c :=
  (dat2 V c).arrAt_eq_of_cover 5 (G V c) (fun t _ => flushed_eq V c t) cover

end Cert.KernelIdeal.Region2

end
-- ==== Proof.KernelKeeps.lean ====
/-
  Where the kernel's program leaves each buffer alone.

  The contents of the TensorCore's buffers at the boundaries of @main's segments are a fold from the launch memory.
  A stretch of host operations changes only the buffers its operations write; a region changes only its own arrays.
  So a buffer that no operation of a stretch writes holds after the stretch what it held before it, and an argument
  array, which nothing writes, holds at every boundary what it held at launch. The same goes for the three arrays the
  first stretch computes and later layers read again: the sources, the destinations and the clamped in-degree column.
  At the exit of each region its output array is the layer of the arrays found at its entry.
-/
import proofs.«143133_j27693949125044_1_alg».proof.Proof.Gen.KernelIdeal.Frame
import proofs.«143133_j27693949125044_1_alg».proof.Proof.Region0
import proofs.«143133_j27693949125044_1_alg».proof.Proof.Region1
import proofs.«143133_j27693949125044_1_alg».proof.Proof.Region2

set_option maxRecDepth 16384

noncomputable section

namespace Cert.KernelIdeal.Keeps

open Idealize.ShloMosaic Idealize.ShloMosaic.TcCoe Idealize.SL.Sem
open Cert.KernelIdeal Cert.KernelIdeal.Gen

variable {F : FTy → Type} [FloatOps F]

/-- A reference in a list is, as a device buffer, in the list's set of device buffers. -/
theorem writes_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The references the stretch before the first region writes: each operation's result, in order. -/
abbrev w0 : List (Ref sig .tc) :=
  [main_v0, main_v1, main_v2, main_v3, main_cst, main_v4, main_cst_0, main_v5, main_v6, main_v7, main_cst_1, main_v8, main_v9, main_v10, main_c, main_v11, main_v12, main_c_2, main_v13, main_v14, main_v15, main_v16, main_v17, main_cst_3, main_v18, main_v19, main_v20, main_v21, main_v22]
theorem ops0_writes : (hostOps0 : List (HloOp τ sig (Elt F))).Forall fun op => op.writes ⊆ ((w0).map (Proc.devRef (τ := τ) .tc)).toFinset :=
  ⟨writes_mem (y := main_v0) (by decide), writes_mem (y := main_v1) (by decide), writes_mem (y := main_v2) (by decide), writes_mem (y := main_v3) (by decide), writes_mem (y := main_cst) (by decide), writes_mem (y := main_v4) (by decide), writes_mem (y := main_cst_0) (by decide), writes_mem (y := main_v5) (by decide), writes_mem (y := main_v6) (by decide), writes_mem (y := main_v7) (by decide), writes_mem (y := main_cst_1) (by decide), writes_mem (y := main_v8) (by decide), writes_mem (y := main_v9) (by decide), writes_mem (y := main_v10) (by decide), writes_mem (y := main_c) (by decide), writes_mem (y := main_v11) (by decide), writes_mem (y := main_v12) (by decide), writes_mem (y := main_c_2) (by decide), writes_mem (y := main_v13) (by decide), writes_mem (y := main_v14) (by decide), writes_mem (y := main_v15) (by decide), writes_mem (y := main_v16) (by decide), writes_mem (y := main_v17) (by decide), writes_mem (y := main_cst_3) (by decide), writes_mem (y := main_v18) (by decide), writes_mem (y := main_v19) (by decide), writes_mem (y := main_v20) (by decide), writes_mem (y := main_v21) (by decide), writes_mem (y := main_v22) (by decide)⟩

/-- The references the stretch between the first and second regions writes. -/
abbrev w1 : List (Ref sig .tc) :=
  [main_c_4, main_v24, main_v25, main_c_5, main_v26, main_v27, main_v28, main_v29, main_v30, main_cst_6, main_v31, main_v32, main_v33, main_v34, main_v35]
theorem ops1_writes : (hostOps1 : List (HloOp τ sig (Elt F))).Forall fun op => op.writes ⊆ ((w1).map (Proc.devRef (τ := τ) .tc)).toFinset :=
  ⟨writes_mem (y := main_c_4) (by decide), writes_mem (y := main_v24) (by decide), writes_mem (y := main_v25) (by decide), writes_mem (y := main_c_5) (by decide), writes_mem (y := main_v26) (by decide), writes_mem (y := main_v27) (by decide), writes_mem (y := main_v28) (by decide), writes_mem (y := main_v29) (by decide), writes_mem (y := main_v30) (by decide), writes_mem (y := main_cst_6) (by decide), writes_mem (y := main_v31) (by decide), writes_mem (y := main_v32) (by decide), writes_mem (y := main_v33) (by decide), writes_mem (y := main_v34) (by decide), writes_mem (y := main_v35) (by decide)⟩

/-- The references the stretch between the second and third regions writes. -/
abbrev w2 : List (Ref sig .tc) :=
  [main_c_7, main_v37, main_v38, main_c_8, main_v39, main_v40, main_v41, main_v42, main_v43, main_cst_9, main_v44, main_v45, main_v46, main_v47, main_v48]
theorem ops2_writes : (hostOps2 : List (HloOp τ sig (Elt F))).Forall fun op => op.writes ⊆ ((w2).map (Proc.devRef (τ := τ) .tc)).toFinset :=
  ⟨writes_mem (y := main_c_7) (by decide), writes_mem (y := main_v37) (by decide), writes_mem (y := main_v38) (by decide), writes_mem (y := main_c_8) (by decide), writes_mem (y := main_v39) (by decide), writes_mem (y := main_v40) (by decide), writes_mem (y := main_v41) (by decide), writes_mem (y := main_v42) (by decide), writes_mem (y := main_v43) (by decide), writes_mem (y := main_cst_9) (by decide), writes_mem (y := main_v44) (by decide), writes_mem (y := main_v45) (by decide), writes_mem (y := main_v46) (by decide), writes_mem (y := main_v47) (by decide), writes_mem (y := main_v48) (by decide)⟩

variable (m : (ℓ : Loc nD τ sig) → Buf (Elt F) ℓ) (ρ : Dev nD → PrngReg) (c : Dev nD)

/-! ## One boundary to the next -/

theorem W1_of {b : Ref sig .tc} (hb : b ∉ w0) : W1 m ρ c (Proc.devRef .tc b) = m ((c : Thread nD τ).loc b) :=
  StableHlo.after_of_writes_sub hostOps0 (W0 m ρ c) ops0_writes hb
theorem W3_of {b : Ref sig .tc} (hb : b ∉ w1) : W3 m ρ c (Proc.devRef .tc b) = W2 m ρ c (Proc.devRef .tc b) :=
  StableHlo.after_of_writes_sub hostOps1 (W2 m ρ c) ops1_writes hb
theorem W5_of {b : Ref sig .tc} (hb : b ∉ w2) : W5 m ρ c (Proc.devRef .tc b) = W4 m ρ c (Proc.devRef .tc b) :=
  StableHlo.after_of_writes_sub hostOps2 (W4 m ρ c) ops2_writes hb

/-! ## A buffer nothing writes, at each region's entry and at the last region's exit -/

theorem W3_kept {b : Ref sig .tc} (h0 : b ∉ w0) (h1 : b ∉ w1) (r0 : ∀ w, Pipeline.arrRef spec0 w ≠ b) :
    W3 m ρ c (Proc.devRef .tc b) = m ((c : Thread nD τ).loc b) :=
  (W3_of m ρ c h1).trans ((W2_of_ne m ρ c b r0).trans (W1_of m ρ c h0))
theorem W5_kept {b : Ref sig .tc} (h0 : b ∉ w0) (h1 : b ∉ w1) (h2 : b ∉ w2) (r0 : ∀ w, Pipeline.arrRef spec0 w ≠ b)
    (r1 : ∀ w, Pipeline.arrRef spec1 w ≠ b) : W5 m ρ c (Proc.devRef .tc b) = m ((c : Thread nD τ).loc b) :=
  (W5_of m ρ c h2).trans ((W4_of_ne m ρ c b r1).trans (W3_kept m ρ c h0 h1 r0))
theorem W6_kept {b : Ref sig .tc} (h0 : b ∉ w0) (h1 : b ∉ w1) (h2 : b ∉ w2) (r0 : ∀ w, Pipeline.arrRef spec0 w ≠ b)
    (r1 : ∀ w, Pipeline.arrRef spec1 w ≠ b) (r2 : ∀ w, Pipeline.arrRef spec2 w ≠ b) :
    W6 m ρ c (Proc.devRef .tc b) = m ((c : Thread nD τ).loc b) :=
  (W6_of_ne m ρ c b r2).trans (W5_kept m ρ c h0 h1 h2 r0 r1)

/-! ## What the first stretch computes and later layers read again -/

theorem W2_carry {b : Ref sig .tc} (r0 : ∀ w, Pipeline.arrRef spec0 w ≠ b) :
    W2 m ρ c (Proc.devRef .tc b) = W1 m ρ c (Proc.devRef .tc b) := W2_of_ne m ρ c b r0
theorem W4_carry {b : Ref sig .tc} (h1 : b ∉ w1) (r0 : ∀ w, Pipeline.arrRef spec0 w ≠ b) (r1 : ∀ w, Pipeline.arrRef spec1 w ≠ b) :
    W4 m ρ c (Proc.devRef .tc b) = W1 m ρ c (Proc.devRef .tc b) :=
  (W4_of_ne m ρ c b r1).trans ((W3_of m ρ c h1).trans (W2_of_ne m ρ c b r0))

end Cert.KernelIdeal.Keeps

/-! ## The regions' output arrays at their exits, on the extended reals -/

namespace Cert.KernelIdeal.Keeps

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

theorem W2_out : W2 m ρ c (Proc.devRef .tc main_v23) = Region0.G (V1 m ρ) c :=
  (W2_arr m ρ c 5).trans (Region0.final (V1 m ρ) c)
theorem W4_out : W4 m ρ c (Proc.devRef .tc main_v36) = Region1.G (V3 m ρ) c :=
  (W4_arr m ρ c 5).trans (Region1.final (V3 m ρ) c)
theorem W6_out : W6 m ρ c (Proc.devRef .tc main_v49) = Region2.G (V5 m ρ) c :=
  (W6_arr m ρ c 5).trans (Region2.final (V5 m ρ) c)

end Cert.KernelIdeal.Keeps

end
-- ==== Proof.BridgeAgg.lean ====
/-
  The neighbour mean of one layer, computed by the two programs from the same arrays, is the same array.

  Both programs compute, from the edge list's two rows (sources and destinations) and the node features h:
  the sources with negative entries wrapped, a gather of h's rows at the sources, a scatter-add of those rows into
  zeros at the destinations, and the quotient by the in-degree (a scatter-add of ones at the destinations) clamped
  below at one and broadcast along the row. The reference recomputes the clamped in-degree in every layer; the kernel's
  program computes its column once, before the first layer, and reads it again in layers two and three. The operations
  are the same ones applied to the same operands in both programs — only the order in which independent
  operations are listed differs — so once both lists are read back the two terms are one.
-/
import proofs.«143133_j27693949125044_1_alg».proof.Proof.Gen.KernelIdeal.Launch
import proofs.«143133_j27693949125044_1_alg».proof.Proof.RefOps
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem

/-- The in-degree of every node, clamped below at one, as a column: what the kernel's program keeps from before the
    first layer, as a function of the destinations. -/
def denomCol (dst : (⟨Cert.KernelIdeal.S1600000, .i32⟩ : BufTy).Contents (Elt Ideal)) : (⟨Cert.KernelIdeal.S100000x1, .f32⟩ : BufTy).Contents (Elt Ideal) :=
  broadcastInDim Cert.KernelIdeal.S100000x1 ![0] Cert.KernelIdeal.Gen.bcast_S100000_S100000x1_0
    (maximumf (Host.scatterAdd (F := Ideal) Cert.KernelIdeal.scatter_S100000_S1600000x1_S1600000_n_0_0_1
        (broadcastInDim Cert.KernelIdeal.S100000 ![] Cert.KernelIdeal.Gen.bcast_S_S100000 (constant (F := Ideal) Cert.KernelIdeal.S_ .f32 0x00000000#32))
        (broadcastInDim Cert.KernelIdeal.S1600000x1 ![0] Cert.KernelIdeal.Gen.bcast_S1600000_S1600000x1_0 dst)
        (broadcastInDim Cert.KernelIdeal.S1600000 ![] Cert.KernelIdeal.Gen.bcast_S_S1600000 (constant (F := Ideal) Cert.KernelIdeal.S_ .f32 0x3F800000#32)))
      (broadcastInDim Cert.KernelIdeal.S100000 ![] Cert.KernelIdeal.Gen.bcast_S_S100000 (constant (F := Ideal) Cert.KernelIdeal.S_ .f32 0x3F800000#32)))

/-! ## Before the first layer -/

set_option maxHeartbeats 1000000 in
/-- The kernel's program's clamped in-degree column is `denomCol` of its destinations. -/
theorem k_den (W : Valuation Cert.KernelIdeal.τ Cert.KernelIdeal.sig (Elt Ideal)) :
    StableHlo.after (Cert.KernelIdeal.Gen.hostOps0 (F := Ideal)) W (Proc.devRef .tc Cert.KernelIdeal.main_v10)
      = denomCol (StableHlo.after (Cert.KernelIdeal.Gen.hostOps0 (F := Ideal)) W (Proc.devRef .tc Cert.KernelIdeal.main_v3)) := by
  after_results_simp
  rfl

set_option maxHeartbeats 1000000 in
/-- The sources, from the same edge list. -/
theorem a1_src (W : Valuation Cert.KernelIdeal.τ Cert.KernelIdeal.sig (Elt Ideal)) (X : Valuation Cert.ReferenceIdeal.τ Cert.ReferenceIdeal.sig (Elt Ideal))
    (h1 : W (Proc.devRef .tc Cert.KernelIdeal.main_arg1) = X (Proc.devRef .tc Cert.ReferenceIdeal.main_arg1)) :
    StableHlo.after (Cert.KernelIdeal.Gen.hostOps0 (F := Ideal)) W (Proc.devRef .tc Cert.KernelIdeal.main_v1)
      = StableHlo.after (Cert.ReferenceIdeal.RefRun.opsA1 (F := Ideal)) X (Proc.devRef .tc Cert.ReferenceIdeal.main_v1) := by
  after_results_simp
  rw [h1]
  rfl

set_option maxHeartbeats 1000000 in
/-- The destinations, from the same edge list. -/
theorem a1_dst (W : Valuation Cert.KernelIdeal.τ Cert.KernelIdeal.sig (Elt Ideal)) (X : Valuation Cert.ReferenceIdeal.τ Cert.ReferenceIdeal.sig (Elt Ideal))
    (h1 : W (Proc.devRef .tc Cert.KernelIdeal.main_arg1) = X (Proc.devRef .tc Cert.ReferenceIdeal.main_arg1)) :
    StableHlo.after (Cert.KernelIdeal.Gen.hostOps0 (F := Ideal)) W (Proc.devRef .tc Cert.KernelIdeal.main_v3)
      = StableHlo.after (Cert.ReferenceIdeal.RefRun.opsA1 (F := Ideal)) X (Proc.devRef .tc Cert.ReferenceIdeal.main_v3) := by
  after_results_simp
  rw [h1]
  rfl

set_option maxHeartbeats 1000000 in
/-- The first layer's neighbour mean, from the same features and the same edge list. -/
theorem a1_agg (W : Valuation Cert.KernelIdeal.τ Cert.KernelIdeal.sig (Elt Ideal)) (X : Valuation Cert.ReferenceIdeal.τ Cert.ReferenceIdeal.sig (Elt Ideal))
    (h0 : W (Proc.devRef .tc Cert.KernelIdeal.main_arg0) = X (Proc.devRef .tc Cert.ReferenceIdeal.main_arg0))
    (h1 : W (Proc.devRef .tc Cert.KernelIdeal.main_arg1) = X (Proc.devRef .tc Cert.ReferenceIdeal.main_arg1)) :
    StableHlo.after (Cert.KernelIdeal.Gen.hostOps0 (F := Ideal)) W (Proc.devRef .tc Cert.KernelIdeal.main_v22)
      = StableHlo.after (Cert.ReferenceIdeal.RefRun.opsA1 (F := Ideal)) X (Proc.devRef .tc Cert.ReferenceIdeal.main_v22) := by
  after_results_simp
  rw [h0, h1]
  rfl

/-! ## The second and third layers -/

set_option maxHeartbeats 1000000 in
/-- The second layer's neighbour mean, from the same sources, destinations and first-layer features, the kernel's
    program reading the in-degree column it kept. -/
theorem a2_agg (W : Valuation Cert.KernelIdeal.τ Cert.KernelIdeal.sig (Elt Ideal)) (X : Valuation Cert.ReferenceIdeal.τ Cert.ReferenceIdeal.sig (Elt Ideal))
    (hs : W (Proc.devRef .tc Cert.KernelIdeal.main_v1) = X (Proc.devRef .tc Cert.ReferenceIdeal.main_v1)) (hd : W (Proc.devRef .tc Cert.KernelIdeal.main_v3) = X (Proc.devRef .tc Cert.ReferenceIdeal.main_v3))
    (hh : W (Proc.devRef .tc Cert.KernelIdeal.main_v23) = X (Proc.devRef .tc Cert.ReferenceIdeal.main_v29))
    (hden : W (Proc.devRef .tc Cert.KernelIdeal.main_v10) = denomCol (W (Proc.devRef .tc Cert.KernelIdeal.main_v3))) :
    StableHlo.after (Cert.KernelIdeal.Gen.hostOps1 (F := Ideal)) W (Proc.devRef .tc Cert.KernelIdeal.main_v35)
      = StableHlo.after (Cert.ReferenceIdeal.RefRun.opsA2 (F := Ideal)) X (Proc.devRef .tc Cert.ReferenceIdeal.main_v48) := by
  after_results_simp
  rw [hden, hs, hd, hh]
  rfl

set_option maxHeartbeats 1000000 in
/-- The third layer's neighbour mean, likewise. -/
theorem a3_agg (W : Valuation Cert.KernelIdeal.τ Cert.KernelIdeal.sig (Elt Ideal)) (X : Valuation Cert.ReferenceIdeal.τ Cert.ReferenceIdeal.sig (Elt Ideal))
    (hs : W (Proc.devRef .tc Cert.KernelIdeal.main_v1) = X (Proc.devRef .tc Cert.ReferenceIdeal.main_v1)) (hd : W (Proc.devRef .tc Cert.KernelIdeal.main_v3) = X (Proc.devRef .tc Cert.ReferenceIdeal.main_v3))
    (hh : W (Proc.devRef .tc Cert.KernelIdeal.main_v36) = X (Proc.devRef .tc Cert.ReferenceIdeal.main_v55))
    (hden : W (Proc.devRef .tc Cert.KernelIdeal.main_v10) = denomCol (W (Proc.devRef .tc Cert.KernelIdeal.main_v3))) :
    StableHlo.after (Cert.KernelIdeal.Gen.hostOps2 (F := Ideal)) W (Proc.devRef .tc Cert.KernelIdeal.main_v48)
      = StableHlo.after (Cert.ReferenceIdeal.RefRun.opsA3 (F := Ideal)) X (Proc.devRef .tc Cert.ReferenceIdeal.main_v74) := by
  after_results_simp
  rw [hden, hs, hd, hh]
  rfl

end Cert.Bridge

end
-- ==== Proof.BridgeTail.lean ====
/-
  The head of the network (everything after the third layer), computed by the two programs from the same arrays,
  gives the same result.

  After the third layer both programs do the same thing to the node features h3: the mean of every graph's rows (a
  scatter-add of h3's rows at the graph ids, divided by the number of nodes of each graph clamped below at one), a
  dense layer, the column means and variances over the 64 graphs, the normalisation by them, the clamp at zero and a
  last dense layer. The kernel's program lists these operations in five stretches and the reference in one line;
  read back, both are one composition of the same operations of h3, the graph ids and the head's four parameter
  arrays. The composition is never opened: only its operands are compared.
-/
import proofs.«143133_j27693949125044_1_alg».proof.Proof.Gen.KernelIdeal.Launch
import proofs.«143133_j27693949125044_1_alg».proof.Proof.RefOps
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem

set_option maxHeartbeats 4000000 in
/-- From the same third-layer features, graph ids and head parameters the two programs return the same array. -/
theorem tail_bridge (W : Valuation Cert.KernelIdeal.τ Cert.KernelIdeal.sig (Elt Ideal)) (X : Valuation Cert.ReferenceIdeal.τ Cert.ReferenceIdeal.sig (Elt Ideal))
    (hh : W (Proc.devRef .tc Cert.KernelIdeal.main_v49) = X (Proc.devRef .tc Cert.ReferenceIdeal.main_v80))
    (h3 : W (Proc.devRef .tc Cert.KernelIdeal.main_arg3) = X (Proc.devRef .tc Cert.ReferenceIdeal.main_arg3))
    (h13 : W (Proc.devRef .tc Cert.KernelIdeal.main_arg13) = X (Proc.devRef .tc Cert.ReferenceIdeal.main_arg13))
    (h14 : W (Proc.devRef .tc Cert.KernelIdeal.main_arg14) = X (Proc.devRef .tc Cert.ReferenceIdeal.main_arg14))
    (h15 : W (Proc.devRef .tc Cert.KernelIdeal.main_arg15) = X (Proc.devRef .tc Cert.ReferenceIdeal.main_arg15))
    (h16 : W (Proc.devRef .tc Cert.KernelIdeal.main_arg16) = X (Proc.devRef .tc Cert.ReferenceIdeal.main_arg16)) :
    StableHlo.after (Cert.KernelIdeal.Gen.hostOps3_4 (F := Ideal)) (StableHlo.after (Cert.KernelIdeal.Gen.hostOps3_3 (F := Ideal))
        (StableHlo.after (Cert.KernelIdeal.Gen.hostOps3_2 (F := Ideal)) (StableHlo.after (Cert.KernelIdeal.Gen.hostOps3_1 (F := Ideal))
          (StableHlo.after (Cert.KernelIdeal.Gen.hostOps3 (F := Ideal)) W)))) (Proc.devRef .tc Cert.KernelIdeal.main_v82)
      = StableHlo.after (Cert.ReferenceIdeal.RefRun.opsT (F := Ideal)) X (Proc.devRef .tc Cert.ReferenceIdeal.main_v113) := by
  after_results_simp
  rw [hh, h3, h13, h14, h15, h16]
  rfl

end Cert.Bridge

end
-- ==== Proof.RefLayers.lean ====
/-
  The reference program's three layers at their boundaries, over the extended reals. From any contents `X0` the
  lists of the three layers are run in order; `X1 … X6` are the contents after each. Two kinds of fact: a buffer no
  list in between writes holds what it held (the arguments, the edge indices, a layer's output while the next
  neighbour mean is computed), and each layer's output buffer holds the layer — clamped at zero for the first two —
  of that layer's neighbour mean, the previous layer's output, and the layer's weights and bias as launched.
-/
import proofs.«143133_j27693949125044_1_alg».proof.Proof.RefRun
import proofs.«143133_j27693949125044_1_alg».proof.Proof.LayerForms

noncomputable section

namespace Cert.ReferenceIdeal.RefRun

open Cert.ReferenceIdeal Cert.ReferenceIdeal.Gen Idealize.ShloMosaic Idealize.ShloMosaic.TcCoe Idealize.SL.Sem

/-- The contents after the first layer's neighbour mean, from contents `X0`. -/
abbrev X1 (X0 : Valuation τ sig (Elt Ideal)) : Valuation τ sig (Elt Ideal) := StableHlo.after (opsA1 (F := Ideal)) X0
/-- … after the first layer's products and rectifier. -/
abbrev X2 (X0 : Valuation τ sig (Elt Ideal)) : Valuation τ sig (Elt Ideal) := StableHlo.after (opsB1 (F := Ideal)) (X1 X0)
/-- … after the second layer's neighbour mean. -/
abbrev X3 (X0 : Valuation τ sig (Elt Ideal)) : Valuation τ sig (Elt Ideal) := StableHlo.after (opsA2 (F := Ideal)) (X2 X0)
/-- … after the second layer's products and rectifier. -/
abbrev X4 (X0 : Valuation τ sig (Elt Ideal)) : Valuation τ sig (Elt Ideal) := StableHlo.after (opsB2 (F := Ideal)) (X3 X0)
/-- … after the third layer's neighbour mean. -/
abbrev X5 (X0 : Valuation τ sig (Elt Ideal)) : Valuation τ sig (Elt Ideal) := StableHlo.after (opsA3 (F := Ideal)) (X4 X0)
/-- … after the third layer's products. -/
abbrev X6 (X0 : Valuation τ sig (Elt Ideal)) : Valuation τ sig (Elt Ideal) := StableHlo.after (opsB3 (F := Ideal)) (X5 X0)

variable (X0 : Valuation τ sig (Elt Ideal))

/-! ## What the stretches leave alone

Each list writes its own results only, so a buffer that is not among a list's results holds after it what it held
before it. -/

/-- The first neighbour mean leaves argument 0 alone. -/
theorem keep1_arg0 : X1 X0 (Proc.devRef .tc main_arg0) = X0 (Proc.devRef .tc main_arg0) :=
  StableHlo.after_of_writes_sub opsA1 _ opsA1_writes (by decide)

/-- The first neighbour mean leaves argument 4 alone. -/
theorem keep1_arg4 : X1 X0 (Proc.devRef .tc main_arg4) = X0 (Proc.devRef .tc main_arg4) :=
  StableHlo.after_of_writes_sub opsA1 _ opsA1_writes (by decide)

/-- The first neighbour mean leaves argument 5 alone. -/
theorem keep1_arg5 : X1 X0 (Proc.devRef .tc main_arg5) = X0 (Proc.devRef .tc main_arg5) :=
  StableHlo.after_of_writes_sub opsA1 _ opsA1_writes (by decide)

/-- The first neighbour mean leaves argument 6 alone. -/
theorem keep1_arg6 : X1 X0 (Proc.devRef .tc main_arg6) = X0 (Proc.devRef .tc main_arg6) :=
  StableHlo.after_of_writes_sub opsA1 _ opsA1_writes (by decide)

/-- The first layer's products and rectifier leave the source indices alone. -/
theorem keep2_v1 : X2 X0 (Proc.devRef .tc main_v1) = X1 X0 (Proc.devRef .tc main_v1) :=
  StableHlo.after_of_writes_sub opsB1 _ opsB1_writes (by decide)

/-- The first layer's products and rectifier leave the target indices alone. -/
theorem keep2_v3 : X2 X0 (Proc.devRef .tc main_v3) = X1 X0 (Proc.devRef .tc main_v3) :=
  StableHlo.after_of_writes_sub opsB1 _ opsB1_writes (by decide)

/-- The second neighbour mean leaves the first layer's output alone. -/
theorem keep3_v29 : X3 X0 (Proc.devRef .tc main_v29) = X2 X0 (Proc.devRef .tc main_v29) :=
  StableHlo.after_of_writes_sub opsA2 _ opsA2_writes (by decide)

/-- Nothing up to the second neighbour mean writes argument 7. -/
theorem keep3_arg7 : X3 X0 (Proc.devRef .tc main_arg7) = X0 (Proc.devRef .tc main_arg7) :=
  (StableHlo.after_of_writes_sub opsA2 _ opsA2_writes (by decide)).trans ((StableHlo.after_of_writes_sub opsB1 _ opsB1_writes (by decide)).trans (StableHlo.after_of_writes_sub opsA1 _ opsA1_writes (by decide)))

/-- Nothing up to the second neighbour mean writes argument 8. -/
theorem keep3_arg8 : X3 X0 (Proc.devRef .tc main_arg8) = X0 (Proc.devRef .tc main_arg8) :=
  (StableHlo.after_of_writes_sub opsA2 _ opsA2_writes (by decide)).trans ((StableHlo.after_of_writes_sub opsB1 _ opsB1_writes (by decide)).trans (StableHlo.after_of_writes_sub opsA1 _ opsA1_writes (by decide)))

/-- Nothing up to the second neighbour mean writes argument 9. -/
theorem keep3_arg9 : X3 X0 (Proc.devRef .tc main_arg9) = X0 (Proc.devRef .tc main_arg9) :=
  (StableHlo.after_of_writes_sub opsA2 _ opsA2_writes (by decide)).trans ((StableHlo.after_of_writes_sub opsB1 _ opsB1_writes (by decide)).trans (StableHlo.after_of_writes_sub opsA1 _ opsA1_writes (by decide)))

/-- Nothing of the second layer writes the source indices. -/
theorem keep4_v1 : X4 X0 (Proc.devRef .tc main_v1) = X1 X0 (Proc.devRef .tc main_v1) :=
  (StableHlo.after_of_writes_sub opsB2 _ opsB2_writes (by decide)).trans ((StableHlo.after_of_writes_sub opsA2 _ opsA2_writes (by decide)).trans (StableHlo.after_of_writes_sub opsB1 _ opsB1_writes (by decide)))

/-- Nothing of the second layer writes the target indices. -/
theorem keep4_v3 : X4 X0 (Proc.devRef .tc main_v3) = X1 X0 (Proc.devRef .tc main_v3) :=
  (StableHlo.after_of_writes_sub opsB2 _ opsB2_writes (by decide)).trans ((StableHlo.after_of_writes_sub opsA2 _ opsA2_writes (by decide)).trans (StableHlo.after_of_writes_sub opsB1 _ opsB1_writes (by decide)))

/-- The third neighbour mean leaves the second layer's output alone. -/
theorem keep5_v55 : X5 X0 (Proc.devRef .tc main_v55) = X4 X0 (Proc.devRef .tc main_v55) :=
  StableHlo.after_of_writes_sub opsA3 _ opsA3_writes (by decide)

/-- Nothing up to the third neighbour mean writes argument 10. -/
theorem keep5_arg10 : X5 X0 (Proc.devRef .tc main_arg10) = X0 (Proc.devRef .tc main_arg10) :=
  (StableHlo.after_of_writes_sub opsA3 _ opsA3_writes (by decide)).trans ((StableHlo.after_of_writes_sub opsB2 _ opsB2_writes (by decide)).trans ((StableHlo.after_of_writes_sub opsA2 _ opsA2_writes (by decide)).trans ((StableHlo.after_of_writes_sub opsB1 _ opsB1_writes (by decide)).trans (StableHlo.after_of_writes_sub opsA1 _ opsA1_writes (by decide)))))

/-- Nothing up to the third neighbour mean writes argument 11. -/
theorem keep5_arg11 : X5 X0 (Proc.devRef .tc main_arg11) = X0 (Proc.devRef .tc main_arg11) :=
  (StableHlo.after_of_writes_sub opsA3 _ opsA3_writes (by decide)).trans ((StableHlo.after_of_writes_sub opsB2 _ opsB2_writes (by decide)).trans ((StableHlo.after_of_writes_sub opsA2 _ opsA2_writes (by decide)).trans ((StableHlo.after_of_writes_sub opsB1 _ opsB1_writes (by decide)).trans (StableHlo.after_of_writes_sub opsA1 _ opsA1_writes (by decide)))))

/-- Nothing up to the third neighbour mean writes argument 12. -/
theorem keep5_arg12 : X5 X0 (Proc.devRef .tc main_arg12) = X0 (Proc.devRef .tc main_arg12) :=
  (StableHlo.after_of_writes_sub opsA3 _ opsA3_writes (by decide)).trans ((StableHlo.after_of_writes_sub opsB2 _ opsB2_writes (by decide)).trans ((StableHlo.after_of_writes_sub opsA2 _ opsA2_writes (by decide)).trans ((StableHlo.after_of_writes_sub opsB1 _ opsB1_writes (by decide)).trans (StableHlo.after_of_writes_sub opsA1 _ opsA1_writes (by decide)))))

/-- Nothing of the three layers writes argument 3. -/
theorem keep6_arg3 : X6 X0 (Proc.devRef .tc main_arg3) = X0 (Proc.devRef .tc main_arg3) :=
  (StableHlo.after_of_writes_sub opsB3 _ opsB3_writes (by decide)).trans ((StableHlo.after_of_writes_sub opsA3 _ opsA3_writes (by decide)).trans ((StableHlo.after_of_writes_sub opsB2 _ opsB2_writes (by decide)).trans ((StableHlo.after_of_writes_sub opsA2 _ opsA2_writes (by decide)).trans ((StableHlo.after_of_writes_sub opsB1 _ opsB1_writes (by decide)).trans (StableHlo.after_of_writes_sub opsA1 _ opsA1_writes (by decide))))))

/-- Nothing of the three layers writes argument 13. -/
theorem keep6_arg13 : X6 X0 (Proc.devRef .tc main_arg13) = X0 (Proc.devRef .tc main_arg13) :=
  (StableHlo.after_of_writes_sub opsB3 _ opsB3_writes (by decide)).trans ((StableHlo.after_of_writes_sub opsA3 _ opsA3_writes (by decide)).trans ((StableHlo.after_of_writes_sub opsB2 _ opsB2_writes (by decide)).trans ((StableHlo.after_of_writes_sub opsA2 _ opsA2_writes (by decide)).trans ((StableHlo.after_of_writes_sub opsB1 _ opsB1_writes (by decide)).trans (StableHlo.after_of_writes_sub opsA1 _ opsA1_writes (by decide))))))

/-- Nothing of the three layers writes argument 14. -/
theorem keep6_arg14 : X6 X0 (Proc.devRef .tc main_arg14) = X0 (Proc.devRef .tc main_arg14) :=
  (StableHlo.after_of_writes_sub opsB3 _ opsB3_writes (by decide)).trans ((StableHlo.after_of_writes_sub opsA3 _ opsA3_writes (by decide)).trans ((StableHlo.after_of_writes_sub opsB2 _ opsB2_writes (by decide)).trans ((StableHlo.after_of_writes_sub opsA2 _ opsA2_writes (by decide)).trans ((StableHlo.after_of_writes_sub opsB1 _ opsB1_writes (by decide)).trans (StableHlo.after_of_writes_sub opsA1 _ opsA1_writes (by decide))))))

/-- Nothing of the three layers writes argument 15. -/
theorem keep6_arg15 : X6 X0 (Proc.devRef .tc main_arg15) = X0 (Proc.devRef .tc main_arg15) :=
  (StableHlo.after_of_writes_sub opsB3 _ opsB3_writes (by decide)).trans ((StableHlo.after_of_writes_sub opsA3 _ opsA3_writes (by decide)).trans ((StableHlo.after_of_writes_sub opsB2 _ opsB2_writes (by decide)).trans ((StableHlo.after_of_writes_sub opsA2 _ opsA2_writes (by decide)).trans ((StableHlo.after_of_writes_sub opsB1 _ opsB1_writes (by decide)).trans (StableHlo.after_of_writes_sub opsA1 _ opsA1_writes (by decide))))))

/-- Nothing of the three layers writes argument 16. -/
theorem keep6_arg16 : X6 X0 (Proc.devRef .tc main_arg16) = X0 (Proc.devRef .tc main_arg16) :=
  (StableHlo.after_of_writes_sub opsB3 _ opsB3_writes (by decide)).trans ((StableHlo.after_of_writes_sub opsA3 _ opsA3_writes (by decide)).trans ((StableHlo.after_of_writes_sub opsB2 _ opsB2_writes (by decide)).trans ((StableHlo.after_of_writes_sub opsA2 _ opsA2_writes (by decide)).trans ((StableHlo.after_of_writes_sub opsB1 _ opsB1_writes (by decide)).trans (StableHlo.after_of_writes_sub opsA1 _ opsA1_writes (by decide))))))

/-! ## The layers read back

After a layer's list the layer's output buffer holds the host's whole-array form of the layer — the mean times the
left weights, plus the broadcast bias, plus the features times the right weights, for the first two layers clamped
at zero — of what the buffers it reads held before the list. A value the rectifier's body reads or writes goes
through a reference that carries the value's type; at these buffers that type is the buffer's own and the
transport is the identity. -/

set_option maxHeartbeats 1000000 in
/-- The first layer's list, read back at its output. -/
theorem b1_read (V : Valuation τ sig (Elt Ideal)) :
    @Eq (FVec Ideal S100000x64 .f32) (StableHlo.after (opsB1 (F := Ideal)) V (Proc.devRef .tc main_v29))
      (maximumf (addf (addf (Host.dotGeneral (φ₁ := .f32) (φ₂ := .f32) dot_S100000x64_S64x64_S100000x64_1_0_0_1_n_n none (V (Proc.devRef .tc main_v22)) (V (Proc.devRef .tc main_arg4)))
        (broadcastInDim S100000x64 ![0, 1] bcast_S1x64_S100000x64_0_1 (broadcastInDim S1x64 ![1] bcast_S64_S1x64_1 (V (Proc.devRef .tc main_arg5)))))
      (Host.dotGeneral (φ₁ := .f32) (φ₂ := .f32) dot_S100000x64_S64x64_S100000x64_1_0_0_1_n_n none (V (Proc.devRef .tc main_arg0)) (V (Proc.devRef .tc main_arg6)))) (broadcastInDim S100000x64 ![] bcast_S_S100000x64 (constant S_ .f32 0x00000000#32))) := by
  after_results_simp
  rfl

set_option maxHeartbeats 1000000 in
/-- The second layer's list, read back at its output. -/
theorem b2_read (V : Valuation τ sig (Elt Ideal)) :
    @Eq (FVec Ideal S100000x64 .f32) (StableHlo.after (opsB2 (F := Ideal)) V (Proc.devRef .tc main_v55))
      (maximumf (addf (addf (Host.dotGeneral (φ₁ := .f32) (φ₂ := .f32) dot_S100000x64_S64x64_S100000x64_1_0_0_1_n_n none (V (Proc.devRef .tc main_v48)) (V (Proc.devRef .tc main_arg7)))
        (broadcastInDim S100000x64 ![0, 1] bcast_S1x64_S100000x64_0_1 (broadcastInDim S1x64 ![1] bcast_S64_S1x64_1 (V (Proc.devRef .tc main_arg8)))))
      (Host.dotGeneral (φ₁ := .f32) (φ₂ := .f32) dot_S100000x64_S64x64_S100000x64_1_0_0_1_n_n none (V (Proc.devRef .tc main_v29)) (V (Proc.devRef .tc main_arg9)))) (broadcastInDim S100000x64 ![] bcast_S_S100000x64 (constant S_ .f32 0x00000000#32))) := by
  after_results_simp
  rfl

set_option maxHeartbeats 1000000 in
/-- The third layer's list, read back at its output. -/
theorem b3_read (V : Valuation τ sig (Elt Ideal)) :
    @Eq (FVec Ideal S100000x64 .f32) (StableHlo.after (opsB3 (F := Ideal)) V (Proc.devRef .tc main_v80))
      (addf (addf (Host.dotGeneral (φ₁ := .f32) (φ₂ := .f32) dot_S100000x64_S64x64_S100000x64_1_0_0_1_n_n none (V (Proc.devRef .tc main_v74)) (V (Proc.devRef .tc main_arg10)))
        (broadcastInDim S100000x64 ![0, 1] bcast_S1x64_S100000x64_0_1 (broadcastInDim S1x64 ![1] bcast_S64_S1x64_1 (V (Proc.devRef .tc main_arg11)))))
      (Host.dotGeneral (φ₁ := .f32) (φ₂ := .f32) dot_S100000x64_S64x64_S100000x64_1_0_0_1_n_n none (V (Proc.devRef .tc main_v55)) (V (Proc.devRef .tc main_arg12)))) := by
  after_results_simp

/-- The first layer's output is the clamped layer of the first neighbour mean and the features. -/
theorem h1_eq : X2 X0 (Proc.devRef .tc main_v29)
    = SageLayer.reluLayer (R := 100000) (A := 64) (B := 64) (X1 X0 (Proc.devRef .tc main_v22)) (X0 (Proc.devRef .tc main_arg0))
        (X0 (Proc.devRef .tc main_arg4)) (X0 (Proc.devRef .tc main_arg6)) (X0 (Proc.devRef .tc main_arg5)) := by
  have h := b1_read (X1 X0)
  rw [keep1_arg4 X0, keep1_arg5 X0, keep1_arg0 X0, keep1_arg6 X0] at h
  exact h.trans (SageLayer.host_mid_relu_eq dot_S100000x64_S64x64_S100000x64_1_0_0_1_n_n ⟨_, rfl⟩ _ _ _ _ _
    bcast_S64_S1x64_1 bcast_S1x64_S100000x64_0_1 bcast_S_S100000x64)

/-- The second layer's output is the clamped layer of the second neighbour mean and the first layer's output. -/
theorem h2_eq : X4 X0 (Proc.devRef .tc main_v55)
    = SageLayer.reluLayer (R := 100000) (A := 64) (B := 64) (X3 X0 (Proc.devRef .tc main_v48)) (X2 X0 (Proc.devRef .tc main_v29))
        (X0 (Proc.devRef .tc main_arg7)) (X0 (Proc.devRef .tc main_arg9)) (X0 (Proc.devRef .tc main_arg8)) := by
  have h := b2_read (X3 X0)
  rw [keep3_arg7 X0, keep3_arg8 X0, keep3_v29 X0, keep3_arg9 X0] at h
  exact h.trans (SageLayer.host_mid_relu_eq dot_S100000x64_S64x64_S100000x64_1_0_0_1_n_n ⟨_, rfl⟩ _ _ _ _ _
    bcast_S64_S1x64_1 bcast_S1x64_S100000x64_0_1 bcast_S_S100000x64)

/-- The third layer's output is the layer of the third neighbour mean and the second layer's output. -/
theorem h3_eq : X6 X0 (Proc.devRef .tc main_v80)
    = SageLayer.layer (R := 100000) (A := 64) (B := 64) (X5 X0 (Proc.devRef .tc main_v74)) (X4 X0 (Proc.devRef .tc main_v55))
        (X0 (Proc.devRef .tc main_arg10)) (X0 (Proc.devRef .tc main_arg12)) (X0 (Proc.devRef .tc main_arg11)) := by
  have h := b3_read (X5 X0)
  rw [keep5_arg10 X0, keep5_arg11 X0, keep5_v55 X0, keep5_arg12 X0] at h
  exact h.trans (SageLayer.host_mid_eq dot_S100000x64_S64x64_S100000x64_1_0_0_1_n_n ⟨_, rfl⟩ _ _ _ _ _
    bcast_S64_S1x64_1 bcast_S1x64_S100000x64_0_1)

end Cert.ReferenceIdeal.RefRun

end
-- ==== Proof.Final.lean ====
/-
  The two idealized programs, run from memories that agree on the arguments, return the same array.

  The kernel's program is followed boundary by boundary and the reference stretch by stretch, side by side:
  * before the first layer both compute the sources, the destinations and the first neighbour mean from the edge
    list and the features, and the kernel's program also the clamped in-degree column it will read again;
  * a layer: the kernel's region leaves the layer of the arrays it found (its twenty blocks fill the output), the
    reference's dot products, bias and clamp are the same layer entry by entry, and the arrays each side feeds it are
    equal by what came before, the parameters being arguments that nothing writes;
  * the next neighbour mean: the same operations of equal operands;
  * the head: the same operations of equal operands.
-/
import proofs.«143133_j27693949125044_1_alg».proof.Proof.KernelKeeps
import proofs.«143133_j27693949125044_1_alg».proof.Proof.BridgeAgg
import proofs.«143133_j27693949125044_1_alg».proof.Proof.BridgeTail
import proofs.«143133_j27693949125044_1_alg».proof.Proof.RefLayers

set_option maxRecDepth 16384

noncomputable section

namespace Cert.Bridge

open Idealize.ShloMosaic Idealize.ShloMosaic.TcCoe Idealize.SL.Sem
open Cert.KernelIdeal.Gen (W0 W1 W2 W3 W4 W5 W6 W11 V1 V3 V5)

/-- The clamped layer of equal arrays is the same array. -/
theorem relu_congr {a a' x x' : FVec Ideal (⟨2, ![100000, 64]⟩ : Shape) .f32} {wl wl' wr wr' : FVec Ideal (⟨2, ![64, 64]⟩ : Shape) .f32}
    {b b' : FVec Ideal (⟨1, ![64]⟩ : Shape) .f32} (ha : a = a') (hx : x = x') (hwl : wl = wl') (hwr : wr = wr') (hb : b = b') :
    SageLayer.reluLayer a x wl wr b = SageLayer.reluLayer a' x' wl' wr' b' := by
  subst ha hx hwl hwr hb; rfl

/-- The layer of equal arrays is the same array. -/
theorem layer_congr {a a' x x' : FVec Ideal (⟨2, ![100000, 64]⟩ : Shape) .f32} {wl wl' wr wr' : FVec Ideal (⟨2, ![64, 64]⟩ : Shape) .f32}
    {b b' : FVec Ideal (⟨1, ![64]⟩ : Shape) .f32} (ha : a = a') (hx : x = x') (hwl : wl = wl') (hwr : wr = wr') (hb : b = b') :
    SageLayer.layer a x wl wr b = SageLayer.layer a' x' wl' wr' b' := by
  subst ha hx hwl hwr hb; rfl

open Cert.KernelIdeal.Keeps Cert.ReferenceIdeal.RefRun in
/-- The kernel's program's result, read off its last boundary, is the reference's seven lists' fold of its own
    launch memory, when the two launch memories agree on the arguments. -/
theorem value_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (a15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (a16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    W11 m ρ c (Proc.devRef .tc Cert.KernelIdeal.main_v82)
      = StableHlo.after (Cert.ReferenceIdeal.RefRun.opsT (F := Ideal)) (StableHlo.after (Cert.ReferenceIdeal.RefRun.opsB3 (F := Ideal)) (StableHlo.after (Cert.ReferenceIdeal.RefRun.opsA3 (F := Ideal))
          (StableHlo.after (Cert.ReferenceIdeal.RefRun.opsB2 (F := Ideal)) (StableHlo.after (Cert.ReferenceIdeal.RefRun.opsA2 (F := Ideal)) (StableHlo.after (Cert.ReferenceIdeal.RefRun.opsB1 (F := Ideal))
            (StableHlo.after (Cert.ReferenceIdeal.RefRun.opsA1 (F := Ideal)) (fun b => m' ((c : Dev Cert.ReferenceIdeal.nD), b)))))))) (Proc.devRef .tc Cert.ReferenceIdeal.main_v113) := by
  -- the reference's contents at its boundaries
  generalize hX0 : (fun b => m' ((c : Dev Cert.ReferenceIdeal.nD), b) : Valuation Cert.ReferenceIdeal.τ Cert.ReferenceIdeal.sig (Elt Ideal)) = X0
  have x0 : ∀ b : Ref Cert.ReferenceIdeal.sig .tc, X0 (Proc.devRef .tc b) = m' ((c.tc : Thread Cert.ReferenceIdeal.nD Cert.ReferenceIdeal.τ).loc b) := fun b => by rw [← hX0]
  -- the arguments at launch
  have g0 : W0 m ρ c (Proc.devRef .tc Cert.KernelIdeal.main_arg0) = X0 (Proc.devRef .tc Cert.ReferenceIdeal.main_arg0) := (a0.trans rfl).symm.trans (x0 Cert.ReferenceIdeal.main_arg0).symm
  have g1 : W0 m ρ c (Proc.devRef .tc Cert.KernelIdeal.main_arg1) = X0 (Proc.devRef .tc Cert.ReferenceIdeal.main_arg1) := (a1.trans rfl).symm.trans (x0 Cert.ReferenceIdeal.main_arg1).symm
  have g3 : W0 m ρ c (Proc.devRef .tc Cert.KernelIdeal.main_arg3) = X0 (Proc.devRef .tc Cert.ReferenceIdeal.main_arg3) := (a3.trans rfl).symm.trans (x0 Cert.ReferenceIdeal.main_arg3).symm
  have g4 : W0 m ρ c (Proc.devRef .tc Cert.KernelIdeal.main_arg4) = X0 (Proc.devRef .tc Cert.ReferenceIdeal.main_arg4) := (a4.trans rfl).symm.trans (x0 Cert.ReferenceIdeal.main_arg4).symm
  have g5 : W0 m ρ c (Proc.devRef .tc Cert.KernelIdeal.main_arg5) = X0 (Proc.devRef .tc Cert.ReferenceIdeal.main_arg5) := (a5.trans rfl).symm.trans (x0 Cert.ReferenceIdeal.main_arg5).symm
  have g6 : W0 m ρ c (Proc.devRef .tc Cert.KernelIdeal.main_arg6) = X0 (Proc.devRef .tc Cert.ReferenceIdeal.main_arg6) := (a6.trans rfl).symm.trans (x0 Cert.ReferenceIdeal.main_arg6).symm
  have g7 : W0 m ρ c (Proc.devRef .tc Cert.KernelIdeal.main_arg7) = X0 (Proc.devRef .tc Cert.ReferenceIdeal.main_arg7) := (a7.trans rfl).symm.trans (x0 Cert.ReferenceIdeal.main_arg7).symm
  have g8 : W0 m ρ c (Proc.devRef .tc Cert.KernelIdeal.main_arg8) = X0 (Proc.devRef .tc Cert.ReferenceIdeal.main_arg8) := (a8.trans rfl).symm.trans (x0 Cert.ReferenceIdeal.main_arg8).symm
  have g9 : W0 m ρ c (Proc.devRef .tc Cert.KernelIdeal.main_arg9) = X0 (Proc.devRef .tc Cert.ReferenceIdeal.main_arg9) := (a9.trans rfl).symm.trans (x0 Cert.ReferenceIdeal.main_arg9).symm
  have g10 : W0 m ρ c (Proc.devRef .tc Cert.KernelIdeal.main_arg10) = X0 (Proc.devRef .tc Cert.ReferenceIdeal.main_arg10) := (a10.trans rfl).symm.trans (x0 Cert.ReferenceIdeal.main_arg10).symm
  have g11 : W0 m ρ c (Proc.devRef .tc Cert.KernelIdeal.main_arg11) = X0 (Proc.devRef .tc Cert.ReferenceIdeal.main_arg11) := (a11.trans rfl).symm.trans (x0 Cert.ReferenceIdeal.main_arg11).symm
  have g12 : W0 m ρ c (Proc.devRef .tc Cert.KernelIdeal.main_arg12) = X0 (Proc.devRef .tc Cert.ReferenceIdeal.main_arg12) := (a12.trans rfl).symm.trans (x0 Cert.ReferenceIdeal.main_arg12).symm
  have g13 : W0 m ρ c (Proc.devRef .tc Cert.KernelIdeal.main_arg13) = X0 (Proc.devRef .tc Cert.ReferenceIdeal.main_arg13) := (a13.trans rfl).symm.trans (x0 Cert.ReferenceIdeal.main_arg13).symm
  have g14 : W0 m ρ c (Proc.devRef .tc Cert.KernelIdeal.main_arg14) = X0 (Proc.devRef .tc Cert.ReferenceIdeal.main_arg14) := (a14.trans rfl).symm.trans (x0 Cert.ReferenceIdeal.main_arg14).symm
  have g15 : W0 m ρ c (Proc.devRef .tc Cert.KernelIdeal.main_arg15) = X0 (Proc.devRef .tc Cert.ReferenceIdeal.main_arg15) := (a15.trans rfl).symm.trans (x0 Cert.ReferenceIdeal.main_arg15).symm
  have g16 : W0 m ρ c (Proc.devRef .tc Cert.KernelIdeal.main_arg16) = X0 (Proc.devRef .tc Cert.ReferenceIdeal.main_arg16) := (a16.trans rfl).symm.trans (x0 Cert.ReferenceIdeal.main_arg16).symm
  -- before the first layer
  have e_a1 := a1_agg (W0 m ρ c) X0 g0 g1
  have e_s1 := a1_src (W0 m ρ c) X0 g1
  have e_d1 := a1_dst (W0 m ρ c) X0 g1
  have e_den := k_den (W0 m ρ c)
  -- the first layer
  have e_h1 : W2 m ρ c (Proc.devRef .tc Cert.KernelIdeal.main_v23) = StableHlo.after (Cert.ReferenceIdeal.RefRun.opsB1 (F := Ideal)) (StableHlo.after (Cert.ReferenceIdeal.RefRun.opsA1 (F := Ideal)) X0) (Proc.devRef .tc Cert.ReferenceIdeal.main_v29) :=
    (W2_out m ρ c).trans ((relu_congr e_a1
      ((W1_of m ρ c (b := Cert.KernelIdeal.main_arg0) (by decide)).trans (g0))
      ((W1_of m ρ c (b := Cert.KernelIdeal.main_arg4) (by decide)).trans (g4))
      ((W1_of m ρ c (b := Cert.KernelIdeal.main_arg6) (by decide)).trans (g6))
      ((W1_of m ρ c (b := Cert.KernelIdeal.main_arg5) (by decide)).trans (g5))).trans (h1_eq X0).symm)
  -- the second neighbour mean
  have e_a2 := a2_agg (W2 m ρ c) (StableHlo.after (Cert.ReferenceIdeal.RefRun.opsB1 (F := Ideal)) (StableHlo.after (Cert.ReferenceIdeal.RefRun.opsA1 (F := Ideal)) X0))
    ((W2_carry m ρ c (b := Cert.KernelIdeal.main_v1) (by decide)).trans (e_s1.trans (keep2_v1 X0).symm))
    ((W2_carry m ρ c (b := Cert.KernelIdeal.main_v3) (by decide)).trans (e_d1.trans (keep2_v3 X0).symm))
    e_h1
    ((W2_carry m ρ c (b := Cert.KernelIdeal.main_v10) (by decide)).trans (e_den.trans (congrArg denomCol (W2_carry m ρ c (b := Cert.KernelIdeal.main_v3) (by decide)).symm)))
  -- the second layer
  have e_h2 : W4 m ρ c (Proc.devRef .tc Cert.KernelIdeal.main_v36) = StableHlo.after (Cert.ReferenceIdeal.RefRun.opsB2 (F := Ideal)) (StableHlo.after (Cert.ReferenceIdeal.RefRun.opsA2 (F := Ideal)) (StableHlo.after (Cert.ReferenceIdeal.RefRun.opsB1 (F := Ideal)) (StableHlo.after (Cert.ReferenceIdeal.RefRun.opsA1 (F := Ideal)) X0))) (Proc.devRef .tc Cert.ReferenceIdeal.main_v55) :=
    (W4_out m ρ c).trans ((relu_congr e_a2
      ((W3_of m ρ c (b := Cert.KernelIdeal.main_v23) (by decide)).trans e_h1)
      ((W3_kept m ρ c (b := Cert.KernelIdeal.main_arg7) (by decide) (by decide) (by decide)).trans g7)
      ((W3_kept m ρ c (b := Cert.KernelIdeal.main_arg9) (by decide) (by decide) (by decide)).trans g9)
      ((W3_kept m ρ c (b := Cert.KernelIdeal.main_arg8) (by decide) (by decide) (by decide)).trans g8)).trans (h2_eq X0).symm)
  -- the third neighbour mean
  have e_a3 := a3_agg (W4 m ρ c) (StableHlo.after (Cert.ReferenceIdeal.RefRun.opsB2 (F := Ideal)) (StableHlo.after (Cert.ReferenceIdeal.RefRun.opsA2 (F := Ideal)) (StableHlo.after (Cert.ReferenceIdeal.RefRun.opsB1 (F := Ideal)) (StableHlo.after (Cert.ReferenceIdeal.RefRun.opsA1 (F := Ideal)) X0))))
    ((W4_carry m ρ c (b := Cert.KernelIdeal.main_v1) (by decide) (by decide) (by decide)).trans (e_s1.trans (keep4_v1 X0).symm))
    ((W4_carry m ρ c (b := Cert.KernelIdeal.main_v3) (by decide) (by decide) (by decide)).trans (e_d1.trans (keep4_v3 X0).symm))
    e_h2
    ((W4_carry m ρ c (b := Cert.KernelIdeal.main_v10) (by decide) (by decide) (by decide)).trans (e_den.trans (congrArg denomCol (W4_carry m ρ c (b := Cert.KernelIdeal.main_v3) (by decide) (by decide) (by decide)).symm)))
  -- the third layer
  have e_h3 : W6 m ρ c (Proc.devRef .tc Cert.KernelIdeal.main_v49) = StableHlo.after (Cert.ReferenceIdeal.RefRun.opsB3 (F := Ideal)) (StableHlo.after (Cert.ReferenceIdeal.RefRun.opsA3 (F := Ideal)) (StableHlo.after (Cert.ReferenceIdeal.RefRun.opsB2 (F := Ideal)) (StableHlo.after (Cert.ReferenceIdeal.RefRun.opsA2 (F := Ideal)) (StableHlo.after (Cert.ReferenceIdeal.RefRun.opsB1 (F := Ideal)) (StableHlo.after (Cert.ReferenceIdeal.RefRun.opsA1 (F := Ideal)) X0))))) (Proc.devRef .tc Cert.ReferenceIdeal.main_v80) :=
    (W6_out m ρ c).trans ((layer_congr e_a3
      ((W5_of m ρ c (b := Cert.KernelIdeal.main_v36) (by decide)).trans e_h2)
      ((W5_kept m ρ c (b := Cert.KernelIdeal.main_arg10) (by decide) (by decide) (by decide) (by decide) (by decide)).trans g10)
      ((W5_kept m ρ c (b := Cert.KernelIdeal.main_arg12) (by decide) (by decide) (by decide) (by decide) (by decide)).trans g12)
      ((W5_kept m ρ c (b := Cert.KernelIdeal.main_arg11) (by decide) (by decide) (by decide) (by decide) (by decide)).trans g11)).trans (h3_eq X0).symm)
  -- the head
  exact tail_bridge (W6 m ρ c) _ e_h3
    ((W6_kept m ρ c (b := Cert.KernelIdeal.main_arg3) (by decide) (by decide) (by decide) (by decide) (by decide) (by decide)).trans (g3.trans (keep6_arg3 X0).symm))
    ((W6_kept m ρ c (b := Cert.KernelIdeal.main_arg13) (by decide) (by decide) (by decide) (by decide) (by decide) (by decide)).trans (g13.trans (keep6_arg13 X0).symm))
    ((W6_kept m ρ c (b := Cert.KernelIdeal.main_arg14) (by decide) (by decide) (by decide) (by decide) (by decide) (by decide)).trans (g14.trans (keep6_arg14 X0).symm))
    ((W6_kept m ρ c (b := Cert.KernelIdeal.main_arg15) (by decide) (by decide) (by decide) (by decide) (by decide) (by decide)).trans (g15.trans (keep6_arg15 X0).symm))
    ((W6_kept m ρ c (b := Cert.KernelIdeal.main_arg16) (by decide) (by decide) (by decide) (by decide) (by decide) (by decide)).trans (g16.trans (keep6_arg16 X0).symm))

end Cert.Bridge

end
-- ==== Proof.lean ====
/-
  A three-layer graph network (each layer: the mean of every node's in-neighbours' features times a left weight
  matrix, plus the node's own features times a right weight matrix, plus a bias; the first two layers clamped at zero),
  followed by a mean over each graph's nodes and a small dense head, computed two ways.

  The kernel's program computes each layer's "products, bias, clamp" in a pipelined region over twenty blocks of
  5000 nodes and everything else (gathers, scatter-adds, the head) by host operations around the three regions; it
  computes the clamped in-degree once. The reference computes everything by host operations and recomputes the
  in-degree in every layer. On the extended reals the two return the same array:
  * the region's body adds the bias last, the reference adds it between the two products: the same sum, addition
    on the extended reals being commutative and associative with no side condition; the narrowing of the products'
    operands is the identity there, and a product into a zero accumulator is the plain sum of products;
  * every other operation is applied by both programs to operands already shown equal.
  No entry is ever assumed finite. Nothing was rewritten by the idealization, so that claim is empty.

  The three frame claims: the two kernels' from their generated frames, the reference's from its run.
-/
import proofs.«143133_j27693949125044_1_alg».proof.Defs
import proofs.«143133_j27693949125044_1_alg».proof.Proof.Gen.Kernel
import proofs.«143133_j27693949125044_1_alg».proof.Proof.Gen.Kernel.Frame
import proofs.«143133_j27693949125044_1_alg».proof.Proof.Gen.KernelIdeal
import proofs.«143133_j27693949125044_1_alg».proof.Proof.Gen.KernelIdeal.Frame
import proofs.«143133_j27693949125044_1_alg».proof.Proof.Gen.ReferenceIdeal
import proofs.«143133_j27693949125044_1_alg».proof.Proof.Gen.Pre_finite_inputs
import proofs.«143133_j27693949125044_1_alg».proof.Proof.KernelRun
import proofs.«143133_j27693949125044_1_alg».proof.Proof.RefRun
import proofs.«143133_j27693949125044_1_alg».proof.Proof.Final

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both programs run; the kernel's result is its last boundary's contents at the result buffer, and the
    reference's result is that same array. -/
theorem algebraic : Cert.algebraic_KernelIdeal_ReferenceIdeal := by
  intro m ρ m' ρ' _ hagree
  refine ⟨fun c => Cert.KernelIdeal.Gen.W11 m ρ c (Proc.devRef .tc Cert.KernelIdeal.main_v82),
    Cert.KernelIdeal.Run.run_main m ρ, ?_⟩
  refine (θ_run Cert.ReferenceIdeal.defs _ _).mono (fun r h c => ⟨(h c).1.trans ?_, (h c).2⟩)
    (Cert.ReferenceIdeal.RefRun.run (F := Ideal) m' ρ')
  obtain ⟨a0, a1, a2, a3, a4, a5, a6, a7, a8, a9, a10, a11, a12, a13, a14, a15, a16⟩ := hagree c
  exact (Cert.Bridge.value_eq m ρ m' c a0 a1 a3 a4 a5 a6 a7 a8 a9 a10 a11 a12 a13 a14 a15 a16).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
